-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4x128 : Shape := ⟨3, ![4096, 4, 128]⟩
abbrev S4x4096x4096 : Shape := ⟨3, ![4, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S4096x4x128 : S_.BroadcastsInDim S4096x4x128 (![] : Fin 0 → Fin S4096x4x128.rank)
  reducesTo_S4096x4x128_S_d0_1_2 : S4096x4x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S16x64 .f32) (main_arg8 : FVec F S64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S32x16 .f32) (main_arg5 : FVec F S16 .f32) (main_arg6 : FVec F S16x64 .f32) (main_arg7 : FVec F S16x64 .f32) (main_arg8 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg7 main_arg8 main_v33

def fn {F : FTy → Type} [FloatOps F] (main_arg0 : FVec F S4096x4x128 .f32) (main_arg1 : FVec F S4x4096x4096 .f32) (main_arg2 : FVec F S128x32 .f32) (main_arg3 : FVec F S32 .f32) (main_arg4 : FVec F S32x16 .f32) (main_arg5 : FVec F S16 .f32) (main_arg6 : FVec F S16x64 .f32) (main_arg7 : FVec F S16x64 .f32) (main_arg8 : FVec F S64 .f32) : IVec S_ 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_c : IVec S_ 1 := constantI S_ 1 1#1
  let main_v3 : IVec S_ 1 := (fun x v => Host.reduce IntOp.andi x v reducesTo_S4096x4x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S4096x4x128 : Shape := ⟨3, ![4096, 4, 128]⟩
abbrev S4x4096x4096 : Shape := ⟨3, ![4, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x64 : Shape := ⟨2, ![16, 64]⟩
abbrev S64 : Shape := ⟨1, ![64]⟩
abbrev S4096x1x128 : Shape := ⟨3, ![4096, 1, 128]⟩
abbrev S4096x128 : Shape := ⟨2, ![4096, 128]⟩
abbrev S1x32 : Shape := ⟨2, ![1, 32]⟩
abbrev S1x16 : Shape := ⟨2, ![1, 16]⟩
abbrev S1x64 : Shape := ⟨2, ![1, 64]⟩
abbrev S4096x16 : Shape := ⟨2, ![4096, 16]⟩
abbrev S1x1024x4096 : Shape := ⟨3, ![1, 1024, 4096]⟩
abbrev S4096x32 : Shape := ⟨2, ![4096, 32]⟩
abbrev S16384x16 : Shape := ⟨2, ![16384, 16]⟩
abbrev S1024x4096 : Shape := ⟨2, ![1024, 4096]⟩
abbrev S1024x32 : Shape := ⟨2, ![1024, 32]⟩
abbrev S1024x16 : Shape := ⟨2, ![1024, 16]⟩
abbrev S4096x64 : Shape := ⟨2, ![4096, 64]⟩
abbrev S4096 : Shape := ⟨1, ![4096]⟩
abbrev S4096x1 : Shape := ⟨2, ![4096, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x4x128, .f32⟩
  | .hbm, ⟨1, _⟩ => ⟨S4x4096x4096, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x64, .f32⟩
  | .hbm, ⟨7, _⟩ => ⟨S16x64, .f32⟩
  | .hbm, ⟨8, _⟩ => ⟨S64, .f32⟩
  | .hbm, ⟨9, _⟩ => ⟨S4096x1x128, .f32⟩
  | .hbm, ⟨10, _⟩ => ⟨S4096x128, .f32⟩
  | .hbm, ⟨11, _⟩ => ⟨S1x32, .f32⟩
  | .hbm, ⟨12, _⟩ => ⟨S1x16, .f32⟩
  | .hbm, ⟨13, _⟩ => ⟨S1x64, .f32⟩
  | .hbm, ⟨14, _⟩ => ⟨S4096x16, .f32⟩
  | .local _ .vmem, ⟨0, _⟩ => ⟨S1x1024x4096, .f32⟩
  | .local _ .vmem, ⟨1, _⟩ => ⟨S1x1024x4096, .f32⟩
  | .local _ .vmem, ⟨2, _⟩ => ⟨S4096x128, .f32⟩
  | .local _ .vmem, ⟨3, _⟩ => ⟨S128x32, .f32⟩
  | .local _ .vmem, ⟨4, _⟩ => ⟨S1x32, .f32⟩
  | .local _ .vmem, ⟨5, _⟩ => ⟨S32x16, .f32⟩
  | .local _ .vmem, ⟨6, _⟩ => ⟨S1x16, .f32⟩
  | .local _ .vmem, ⟨7, _⟩ => ⟨S16x64, .f32⟩
  | .local _ .vmem, ⟨8, _⟩ => ⟨S16x64, .f32⟩
  | .local _ .vmem, ⟨9, _⟩ => ⟨S1x64, .f32⟩
  | .local _ .vmem, ⟨10, _⟩ => ⟨S4096x16, .f32⟩
  | .local _ .vmem, ⟨11, _⟩ => ⟨S4096x32, .f32⟩
  | .local _ .vmem, ⟨12, _⟩ => ⟨S4096x16, .bf16⟩
  | .local _ .vmem, ⟨13, _⟩ => ⟨S16384x16, .f32⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

def k0_off1 (i : grid0.Coords) : Fin 2 → Nat :=
  let arg2 : BitVec 32 := BitVec.ofNat 32 (i 2).val
  let c1024_i32 : BitVec 32 := 1024#32
  let v35 : BitVec 32 := Scalar.muli arg2 c1024_i32
  let v36 : Index := Scalar.indexCast v35
  let c0_19 : Index := 0#32
  ![v36.toNat, 0]
def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_7 : BitVec 32 := 0#32
  let v15 : BitVec 1 := Scalar.cmpi .ne v14 c0_i32_7
  v15

def k0_off2 (i : grid0.Coords) : Fin 2 → Nat :=
  let arg0 : BitVec 32 := BitVec.ofNat 32 (i 0).val
  let c4096_i32 : BitVec 32 := 4096#32
  let v29 : BitVec 32 := Scalar.muli arg0 c4096_i32
  let arg2 : BitVec 32 := BitVec.ofNat 32 (i 2).val
  let c1024_i32 : BitVec 32 := 1024#32
  let v30 : BitVec 32 := Scalar.muli arg2 c1024_i32
  let v31 : BitVec 32 := Scalar.addi v29 v30
  let v32 : Index := Scalar.indexCast v31
  let c0_15 : Index := 0#32
  ![v32.toNat, 0]
def k0_cond4 (i : grid0.Coords) : BitVec 1 :=
  let arg0 : BitVec 32 := BitVec.ofNat 32 (i 0).val
  let c3_i32 : BitVec 32 := 3#32
  let v16 : BitVec 1 := Scalar.cmpi .eq arg0 c3_i32
  let arg1 : BitVec 32 := BitVec.ofNat 32 (i 1).val
  let c1_i32_8 : BitVec 32 := 1#32
  let v17 : BitVec 1 := Scalar.cmpi .eq arg1 c1_i32_8
  let v18 : BitVec 1 := Scalar.andi v16 v17
  let arg2 : BitVec 32 := BitVec.ofNat 32 (i 2).val
  let c3_i32_9 : BitVec 32 := 3#32
  let v19 : BitVec 1 := Scalar.cmpi .eq arg2 c3_i32_9
  let v20 : BitVec 1 := Scalar.andi v18 v19
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

class Facts₀ : Prop where
  slices_S4096x4x128_S4096x1x128_0_3_0 : S4096x4x128.Slices ![0, 3, 0] S4096x1x128
  shapeCasts_S4096x1x128_S4096x128 : S4096x1x128.ShapeCasts S4096x128
  shapeCasts_S32_S1x32 : S32.ShapeCasts S1x32
  shapeCasts_S16_S1x16 : S16.ShapeCasts S1x16
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x32_S128x32_0_0 : ∀ a, (![0, 0] : Fin 2 → Nat) a + S128x32.size a ≤ S128x32.size a
  h_S128x32 : 0 < S128x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x16_S32x16_0_0 : ∀ a, (![0, 0] : Fin 2 → Nat) a + S32x16.size a ≤ S32x16.size a
  h_S32x16 : 0 < S32x16.numel
  h_S1024x16 : 0 < S1024x16.numel
  shapeCasts_S1024x16_S1024x16 : S1024x16.ShapeCasts S1024x16
  inb_S4096x16_S4096x16_0_0 : ∀ a, (![0, 0] : Fin 2 → Nat) a + S4096x16.size a ≤ S4096x16.size a
  h_S4096x16 : 0 < S4096x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S16384x16_S4096x16_0_0 : ∀ a, (![0, 0] : Fin 2 → Nat) a + S4096x16.size a ≤ S16384x16.size a
  inb_S16x64_S16x64_0_0 : ∀ a, (![0, 0] : Fin 2 → Nat) a + S16x64.size a ≤ S16x64.size a
  h_S16x64 : 0 < S16x64.numel
  broadcasts_S1x64_S4096x64 : S1x64.Broadcasts S4096x64
  slices_S4096x64_o0_0_S4096x16 : S4096x64.Slices ![0, 0] S4096x16
  slices_S4096x64_o0_16_S4096x16 : S4096x64.Slices ![0, 16] S4096x16
  slices_S4096x64_o0_32_S4096x16 : S4096x64.Slices ![0, 32] S4096x16
  slices_S4096x64_o0_48_S4096x16 : S4096x64.Slices ![0, 48] S4096x16
  inb_S16384x16_S4096x16_4096_0 : ∀ a, (![4096, 0] : Fin 2 → Nat) a + S4096x16.size a ≤ S16384x16.size a
  inb_S16384x16_S4096x16_8192_0 : ∀ a, (![8192, 0] : Fin 2 → Nat) a + S4096x16.size a ≤ S16384x16.size a
  inb_S16384x16_S4096x16_12288_0 : ∀ a, (![12288, 0] : Fin 2 → Nat) a + S4096x16.size a ≤ S16384x16.size a
  reduces_S4096x16_S4096 : S4096x16.Reduces [1] S4096
  shapeCasts_S4096_S4096x1 : S4096.ShapeCasts S4096x1
  broadcasts_S4096x1_S4096x16 : S4096x1.Broadcasts S4096x16
  dot_S4096x128_S128x32_S4096x32_1_0_0_1_n_n_wf : DotDims.WF S4096x128 S128x32 S4096x32 [1] [0] [0] [1] [] []
  dot_S1024x4096_S4096x32_S1024x32_1_0_0_1_n_n_wf : DotDims.WF S1024x4096 S4096x32 S1024x32 [1] [0] [0] [1] [] []
  dot_S1024x32_S32x16_S1024x16_1_0_0_1_n_n_wf : DotDims.WF S1024x32 S32x16 S1024x16 [1] [0] [0] [1] [] []
  dot_S1024x4096_S4096x16_S1024x16_1_0_0_1_n_n_wf : DotDims.WF S1024x4096 S4096x16 S1024x16 [1] [0] [0] [1] [] []
  dot_S4096x16_S16x64_S4096x64_1_0_0_1_n_n_wf : DotDims.WF S4096x16 S16x64 S4096x64 [1] [0] [0] [1] [] []
  hrank0 : 0 < grid0.rank
  k0_off1_inb : ∀ i : grid0.Coords, ∀ (k0_h2 : k0_cond2 i = 1#1), ∀ a, (k0_off1 i) a + S1024x16.size a ≤ S4096x16.size a
  k0_off1_packedbf16 : ∀ i : grid0.Coords, ∀ (k0_h2 : k0_cond2 i = 1#1), (Rect.unit (s := S4096x16) (k0_off1 i) S1024x16.size (k0_off1_inb i k0_h2)).PackedRows (EltTy.packing .bf16)
  k0_off2_inb : ∀ i : grid0.Coords, ∀ (k0_h3 : k0_cond3 i = 1#1), ∀ a, (k0_off2 i) a + S1024x16.size a ≤ S16384x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x4096x4096.size a
  hwx0_0 : ∀ i : grid0.Coords, EltTy.bits .f32 = 32 ∨ (Rect.block (s := S4x4096x4096) S1x1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .f32 = 32 ∨ (Rect.block (s := S16x64) S16x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .f32 = 32 ∨ (Rect.block (s := S16x64) S16x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x16.size a ≤ S4096x16.size a
  hwx0_9 : ∀ i : grid0.Coords, EltTy.bits .f32 = 32 ∨ (Rect.block (s := S4096x16) S4096x16.size (cc0_transform_9 i) (hinb0_9 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S4096x16.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | ⟨_ + 10, h⟩ => absurd h (Nat.not_lt.2 (Nat.le_add_left _ _))

class Facts : Prop extends Facts₀ where

variable [Facts]
-- ==== ReferenceIdeal.lean ====
abbrev S4096x4x128 : Shape := ⟨3, ![4096, 4, 128]⟩
abbrev S4x4096x4096 : Shape := ⟨3, ![4, 4096, 4096]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x64 : Shape := ⟨2, ![16, 64]⟩
abbrev S64 : Shape := ⟨1, ![64]⟩
abbrev S4096x1x128 : Shape := ⟨3, ![4096, 1, 128]⟩
abbrev S4096x128 : Shape := ⟨2, ![4096, 128]⟩
abbrev S1x4096x4096 : Shape := ⟨3, ![1, 4096, 4096]⟩
abbrev S4096x4096 : Shape := ⟨2, ![4096, 4096]⟩
abbrev S4096x32 : Shape := ⟨2, ![4096, 32]⟩
abbrev S1x32 : Shape := ⟨2, ![1, 32]⟩
abbrev S_ : Shape := ⟨0, ![]⟩
abbrev S4096x16 : Shape := ⟨2, ![4096, 16]⟩
abbrev S1x16 : Shape := ⟨2, ![1, 16]⟩
abbrev S4096x1x16 : Shape := ⟨3, ![4096, 1, 16]⟩
abbrev S4096x4x16 : Shape := ⟨3, ![4096, 4, 16]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩

abbrev nBuf : Space → Nat
  | .hbm => 262
  | .vmem => 0
  | .smem => 0
  | _ => 0

abbrev hbmTy0_0 (i : Nat) : BufTy := match i % 128 with
  | 0 => ⟨S4096x4x128, .f32⟩
  | 1 => ⟨S4x4096x4096, .f32⟩
  | 2 => ⟨S128x32, .f32⟩
  | 3 => ⟨S32, .f32⟩
  | 4 => ⟨S32x16, .f32⟩
  | 5 => ⟨S16, .f32⟩
  | 6 => ⟨S16x64, .f32⟩
  | 7 => ⟨S16x64, .f32⟩
  | 8 => ⟨S64, .f32⟩
  | 9 => ⟨S4096x1x128, .f32⟩
  | 10 => ⟨S4096x128, .f32⟩
  | 11 => ⟨S1x4096x4096, .f32⟩
  | 12 => ⟨S4096x4096, .f32⟩
  | 13 => ⟨S4096x32, .f32⟩
  | 14 => ⟨S4096x32, .f32⟩
  | 15 => ⟨S1x32, .f32⟩
  | 16 => ⟨S4096x32, .f32⟩
  | 17 => ⟨S4096x32, .f32⟩
  | 18 => ⟨S_, .f32⟩
  | 19 => ⟨S4096x32, .f32⟩
  | 20 => ⟨S4096x32, .f32⟩
  | 21 => ⟨S4096x16, .f32⟩
  | 22 => ⟨S4096x16, .f32⟩
  | 23 => ⟨S1x16, .f32⟩
  | 24 => ⟨S4096x16, .f32⟩
  | 25 => ⟨S4096x16, .f32⟩
  | 26 => ⟨S1x4096x4096, .f32⟩
  | 27 => ⟨S4096x4096, .f32⟩
  | 28 => ⟨S4096x32, .f32⟩
  | 29 => ⟨S4096x32, .f32⟩
  | 30 => ⟨S1x32, .f32⟩
  | 31 => ⟨S4096x32, .f32⟩
  | 32 => ⟨S4096x32, .f32⟩
  | 33 => ⟨S_, .f32⟩
  | 34 => ⟨S4096x32, .f32⟩
  | 35 => ⟨S4096x32, .f32⟩
  | 36 => ⟨S4096x16, .f32⟩
  | 37 => ⟨S4096x16, .f32⟩
  | 38 => ⟨S1x16, .f32⟩
  | 39 => ⟨S4096x16, .f32⟩
  | 40 => ⟨S4096x16, .f32⟩
  | 41 => ⟨S1x4096x4096, .f32⟩
  | 42 => ⟨S4096x4096, .f32⟩
  | 43 => ⟨S4096x32, .f32⟩
  | 44 => ⟨S4096x32, .f32⟩
  | 45 => ⟨S1x32, .f32⟩
  | 46 => ⟨S4096x32, .f32⟩
  | 47 => ⟨S4096x32, .f32⟩
  | 48 => ⟨S_, .f32⟩
  | 49 => ⟨S4096x32, .f32⟩
  | 50 => ⟨S4096x32, .f32⟩
  | 51 => ⟨S4096x16, .f32⟩
  | 52 => ⟨S4096x16, .f32⟩
  | 53 => ⟨S1x16, .f32⟩
  | 54 => ⟨S4096x16, .f32⟩
  | 55 => ⟨S4096x16, .f32⟩
  | 56 => ⟨S1x4096x4096, .f32⟩
  | 57 => ⟨S4096x4096, .f32⟩
  | 58 => ⟨S4096x32, .f32⟩
  | 59 => ⟨S4096x32, .f32⟩
  | 60 => ⟨S1x32, .f32⟩
  | 61 => ⟨S4096x32, .f32⟩
  | 62 => ⟨S4096x32, .f32⟩
  | 63 => ⟨S_, .f32⟩
  | 64 => ⟨S4096x32, .f32⟩
  | 65 => ⟨S4096x32, .f32⟩
  | 66 => ⟨S4096x16, .f32⟩
  | 67 => ⟨S4096x16, .f32⟩
  | 68 => ⟨S1x16, .f32⟩
  | 69 => ⟨S4096x16, .f32⟩
  | 70 => ⟨S4096x16, .f32⟩
  | 71 => ⟨S4096x1x16, .f32⟩
  | 72 => ⟨S4096x1x16, .f32⟩
  | 73 => ⟨S4096x1x16, .f32⟩
  | 74 => ⟨S4096x1x16, .f32⟩
  | 75 => ⟨S4096x4x16, .f32⟩
  | 76 => ⟨S_, .f32⟩
  | 77 => ⟨S4096x16, .f32⟩
  | 78 => ⟨S_, .f32⟩
  | 79 => ⟨S4096x16, .f32⟩
  | 80 => ⟨S4096x1x16, .f32⟩
  | 81 => ⟨S4096x16, .f32⟩
  | 82 => ⟨S4096x64, .f32⟩
  | 83 => ⟨S4096x64, .f32⟩
  | 84 => ⟨S4096x64, .f32⟩
  | 85 => ⟨S1x64, .f32⟩
  | 86 => ⟨S4096x64, .f32⟩
  | 87 => ⟨S4096x64, .f32⟩
  | 88 => ⟨S4096x16, .f32⟩
  | 89 => ⟨S4096x16, .f32⟩
  | 90 => ⟨S4096x16, .f32⟩
  | 91 => ⟨S_, .f32⟩
  | 92 => ⟨S4096x16, .f32⟩
  | 93 => ⟨S4096x16, .f32⟩
  | 94 => ⟨S_, .f32⟩
  | 95 => ⟨S4096x16, .f32⟩
  | 96 => ⟨S4096x16, .f32⟩
  | 97 => ⟨S4096x16, .f32⟩
  | 98 => ⟨S4096x16, .f32⟩
  | 99 => ⟨S4096x16, .f32⟩
  | 100 => ⟨S_, .f32⟩
  | 101 => ⟨S4096x16, .f32⟩
  | 102 => ⟨S4096x16, .f32⟩
  | 103 => ⟨S_, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S4096x16, .f32⟩
  | 110 => ⟨S4096x16, .f32⟩
  | 111 => ⟨S_, .f32⟩
  | 112 => ⟨S4096x16, .f32⟩
  | 113 => ⟨S4096x16, .f32⟩
  | 114 => ⟨S_, .f32⟩
  | 115 => ⟨S4096x16, .f32⟩
  | 116 => ⟨S4096x16, .f32⟩
  | 117 => ⟨S4096x16, .f32⟩
  | 118 => ⟨S4096x16, .f32⟩
  | 119 => ⟨S4096x16, .f32⟩
  | 120 => ⟨S4096x16, .f32⟩
  | 121 => ⟨S4096x16, .f32⟩
  | 122 => ⟨S4096x1x16, .f32⟩
  | 123 => ⟨S4096x16, .f32⟩
  | 124 => ⟨S4096x64, .f32⟩
  | 125 => ⟨S4096x64, .f32⟩
  | 126 => ⟨S4096x64, .f32⟩
  | 127 => ⟨S1x64, .f32⟩
  | _ => ⟨S4096x4x128, .f32⟩

abbrev hbmTy0_1 (i : Nat) : BufTy := match i % 128 with
  | 0 => ⟨S4096x64, .f32⟩
  | 1 => ⟨S4096x64, .f32⟩
  | 2 => ⟨S4096x16, .f32⟩
  | 3 => ⟨S4096x16, .f32⟩
  | 4 => ⟨S4096x16, .f32⟩
  | 5 => ⟨S_, .f32⟩
  | 6 => ⟨S4096x16, .f32⟩
  | 7 => ⟨S4096x16, .f32⟩
  | 8 => ⟨S_, .f32⟩
  | 9 => ⟨S4096x16, .f32⟩
  | 10 => ⟨S4096x16, .f32⟩
  | 11 => ⟨S4096x16, .f32⟩
  | 12 => ⟨S4096x16, .f32⟩
  | 13 => ⟨S4096x16, .f32⟩
  | 14 => ⟨S_, .f32⟩
  | 15 => ⟨S4096x16, .f32⟩
  | 16 => ⟨S4096x16, .f32⟩
  | 17 => ⟨S_, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S_, .f32⟩
  | 26 => ⟨S4096x16, .f32⟩
  | 27 => ⟨S4096x16, .f32⟩
  | 28 => ⟨S_, .f32⟩
  | 29 => ⟨S4096x16, .f32⟩
  | 30 => ⟨S4096x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x1x16, .f32⟩
  | 37 => ⟨S4096x16, .f32⟩
  | 38 => ⟨S4096x64, .f32⟩
  | 39 => ⟨S4096x64, .f32⟩
  | 40 => ⟨S4096x64, .f32⟩
  | 41 => ⟨S1x64, .f32⟩
  | 42 => ⟨S4096x64, .f32⟩
  | 43 => ⟨S4096x64, .f32⟩
  | 44 => ⟨S4096x16, .f32⟩
  | 45 => ⟨S4096x16, .f32⟩
  | 46 => ⟨S4096x16, .f32⟩
  | 47 => ⟨S_, .f32⟩
  | 48 => ⟨S4096x16, .f32⟩
  | 49 => ⟨S4096x16, .f32⟩
  | 50 => ⟨S_, .f32⟩
  | 51 => ⟨S4096x16, .f32⟩
  | 52 => ⟨S4096x16, .f32⟩
  | 53 => ⟨S4096x16, .f32⟩
  | 54 => ⟨S4096x16, .f32⟩
  | 55 => ⟨S4096x16, .f32⟩
  | 56 => ⟨S_, .f32⟩
  | 57 => ⟨S4096x16, .f32⟩
  | 58 => ⟨S4096x16, .f32⟩
  | 59 => ⟨S_, .f32⟩
  | 60 => ⟨S4096x16, .f32⟩
  | 61 => ⟨S4096x16, .f32⟩
  | 62 => ⟨S4096x16, .f32⟩
  | 63 => ⟨S4096x16, .f32⟩
  | 64 => ⟨S4096x16, .f32⟩
  | 65 => ⟨S4096x16, .f32⟩
  | 66 => ⟨S4096x16, .f32⟩
  | 67 => ⟨S_, .f32⟩
  | 68 => ⟨S4096x16, .f32⟩
  | 69 => ⟨S4096x16, .f32⟩
  | 70 => ⟨S_, .f32⟩
  | 71 => ⟨S4096x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S4096x16, .f32⟩
  | 78 => ⟨S4096x1x16, .f32⟩
  | 79 => ⟨S4096x16, .f32⟩
  | 80 => ⟨S4096x64, .f32⟩
  | 81 => ⟨S4096x64, .f32⟩
  | 82 => ⟨S4096x64, .f32⟩
  | 83 => ⟨S1x64, .f32⟩
  | 84 => ⟨S4096x64, .f32⟩
  | 85 => ⟨S4096x64, .f32⟩
  | 86 => ⟨S4096x16, .f32⟩
  | 87 => ⟨S4096x16, .f32⟩
  | 88 => ⟨S4096x16, .f32⟩
  | 89 => ⟨S_, .f32⟩
  | 90 => ⟨S4096x16, .f32⟩
  | 91 => ⟨S4096x16, .f32⟩
  | 92 => ⟨S_, .f32⟩
  | 93 => ⟨S4096x16, .f32⟩
  | 94 => ⟨S4096x16, .f32⟩
  | 95 => ⟨S4096x16, .f32⟩
  | 96 => ⟨S4096x16, .f32⟩
  | 97 => ⟨S4096x16, .f32⟩
  | 98 => ⟨S_, .f32⟩
  | 99 => ⟨S4096x16, .f32⟩
  | 100 => ⟨S4096x16, .f32⟩
  | 101 => ⟨S_, .f32⟩
  | 102 => ⟨S4096x16, .f32⟩
  | 103 => ⟨S4096x16, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S_, .f32⟩
  | 110 => ⟨S4096x16, .f32⟩
  | 111 => ⟨S4096x16, .f32⟩
  | 112 => ⟨S_, .f32⟩
  | 113 => ⟨S4096x16, .f32⟩
  | 114 => ⟨S4096x16, .f32⟩
  | 115 => ⟨S4096x16, .f32⟩
  | 116 => ⟨S4096x16, .f32⟩
  | 117 => ⟨S4096x16, .f32⟩
  | 118 => ⟨S4096x16, .f32⟩
  | 119 => ⟨S4096x16, .f32⟩
  | 120 => ⟨S_, .f32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x16, .f32⟩
  | 127 => ⟨S4096x16, .f32⟩
  | _ => ⟨S4096x4x128, .f32⟩

abbrev hbmTy0_2 (i : Nat) : BufTy := match i % 128 with
  | 0 => ⟨S4096x16, .f32⟩
  | 1 => ⟨S_, .f32⟩
  | 2 => ⟨S4096, .f32⟩
  | 3 => ⟨S4096x1, .f32⟩
  | 4 => ⟨S4096x16, .f32⟩
  | 5 => ⟨S4096x16, .f32⟩
  | _ => ⟨S4096x4x128, .f32⟩

abbrev hbmTy (i : Nat) : BufTy := match i / 128 with
  | 0 => hbmTy0_0 i
  | 1 => hbmTy0_1 i
  | 2 => hbmTy0_2 i
  | _ => ⟨S4096x4x128, .f32⟩

abbrev bufTy : (tb : Table) → Fin (tcTables nBuf tb) → BufTy
  | .hbm, ⟨i, _⟩ => hbmTy i
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_cst : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call2_cst : Ref sig .tc := ⟨.hbm, 48, rfl⟩
abbrev main_call2_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call3_cst : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst : Ref sig .tc := ⟨.hbm, 76, rfl⟩
abbrev main_v59 : Ref sig .tc := ⟨.hbm, 77, rfl⟩
abbrev main_cst_0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_1 : Ref sig .tc := ⟨.hbm, 91, rfl⟩
abbrev main_v72 : Ref sig .tc := ⟨.hbm, 92, rfl⟩
abbrev main_v73 : Ref sig .tc := ⟨.hbm, 93, rfl⟩
abbrev main_cst_2 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_3 : Ref sig .tc := ⟨.hbm, 100, rfl⟩
abbrev main_v79 : Ref sig .tc := ⟨.hbm, 101, rfl⟩
abbrev main_v80 : Ref sig .tc := ⟨.hbm, 102, rfl⟩
abbrev main_cst_4 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_5 : Ref sig .tc := ⟨.hbm, 111, rfl⟩
abbrev main_v88 : Ref sig .tc := ⟨.hbm, 112, rfl⟩
abbrev main_v89 : Ref sig .tc := ⟨.hbm, 113, rfl⟩
abbrev main_cst_6 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_7 : Ref sig .tc := ⟨.hbm, 133, rfl⟩
abbrev main_v108 : Ref sig .tc := ⟨.hbm, 134, rfl⟩
abbrev main_v109 : Ref sig .tc := ⟨.hbm, 135, rfl⟩
abbrev main_cst_8 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_9 : Ref sig .tc := ⟨.hbm, 142, rfl⟩
abbrev main_v115 : Ref sig .tc := ⟨.hbm, 143, rfl⟩
abbrev main_v116 : Ref sig .tc := ⟨.hbm, 144, rfl⟩
abbrev main_cst_10 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_11 : Ref sig .tc := ⟨.hbm, 153, rfl⟩
abbrev main_v124 : Ref sig .tc := ⟨.hbm, 154, rfl⟩
abbrev main_v125 : Ref sig .tc := ⟨.hbm, 155, rfl⟩
abbrev main_cst_12 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_13 : Ref sig .tc := ⟨.hbm, 175, rfl⟩
abbrev main_v144 : Ref sig .tc := ⟨.hbm, 176, rfl⟩
abbrev main_v145 : Ref sig .tc := ⟨.hbm, 177, rfl⟩
abbrev main_cst_14 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_15 : Ref sig .tc := ⟨.hbm, 184, rfl⟩
abbrev main_v151 : Ref sig .tc := ⟨.hbm, 185, rfl⟩
abbrev main_v152 : Ref sig .tc := ⟨.hbm, 186, rfl⟩
abbrev main_cst_16 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_17 : Ref sig .tc := ⟨.hbm, 195, rfl⟩
abbrev main_v160 : Ref sig .tc := ⟨.hbm, 196, rfl⟩
abbrev main_v161 : Ref sig .tc := ⟨.hbm, 197, rfl⟩
abbrev main_cst_18 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_19 : Ref sig .tc := ⟨.hbm, 217, rfl⟩
abbrev main_v180 : Ref sig .tc := ⟨.hbm, 218, rfl⟩
abbrev main_v181 : Ref sig .tc := ⟨.hbm, 219, rfl⟩
abbrev main_cst_20 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_21 : Ref sig .tc := ⟨.hbm, 226, rfl⟩
abbrev main_v187 : Ref sig .tc := ⟨.hbm, 227, rfl⟩
abbrev main_v188 : Ref sig .tc := ⟨.hbm, 228, rfl⟩
abbrev main_cst_22 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_cst_23 : Ref sig .tc := ⟨.hbm, 237, rfl⟩
abbrev main_v196 : Ref sig .tc := ⟨.hbm, 238, rfl⟩
abbrev main_v197 : Ref sig .tc := ⟨.hbm, 239, rfl⟩
abbrev main_cst_24 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_25 : Ref sig .tc := ⟨.hbm, 248, rfl⟩
abbrev main_v205 : Ref sig .tc := ⟨.hbm, 249, rfl⟩
abbrev main_cst_26 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_cst_27 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩

abbrev nD : Nat := 1
abbrev τ : Topo := Topo.v7x

variable {F : FTy → Type} [FloatOps F]

class Facts₀ : Prop where
  slices_S4096x4x128_S4096x1x128_0_3_0 : S4096x4x128.Slices ![0, 3, 0] S4096x1x128
  shapeCasts_S4096x1x128_S4096x128 : S4096x1x128.ShapeCasts S4096x128
  slices_S4x4096x4096_S1x4096x4096_0_0_0 : S4x4096x4096.Slices ![0, 0, 0] S1x4096x4096
  shapeCasts_S1x4096x4096_S4096x4096 : S1x4096x4096.ShapeCasts S4096x4096
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  slices_S4x4096x4096_S1x4096x4096_1_0_0 : S4x4096x4096.Slices ![1, 0, 0] S1x4096x4096
  slices_S4x4096x4096_S1x4096x4096_2_0_0 : S4x4096x4096.Slices ![2, 0, 0] S1x4096x4096
  slices_S4x4096x4096_S1x4096x4096_3_0_0 : S4x4096x4096.Slices ![3, 0, 0] S1x4096x4096
  bcast_S4096x16_S4096x1x16_0_2 : S4096x16.BroadcastsInDim S4096x1x16 (![0, 2] : Fin 2 → Fin S4096x1x16.rank)
  concatenates_S4096x1x16_S4096x1x16_S4096x1x16_S4096x1x16_S4096x4x16_d1 : Shape.Concatenates [S4096x1x16, S4096x1x16, S4096x1x16, S4096x1x16] S4096x4x16 1
  bcast_S_S4096x16 : S_.BroadcastsInDim S4096x16 (![] : Fin 0 → Fin S4096x16.rank)
  slices_S4096x4x16_S4096x1x16_0_0_0 : S4096x4x16.Slices ![0, 0, 0] S4096x1x16
  shapeCasts_S4096x1x16_S4096x16 : S4096x1x16.ShapeCasts S4096x16
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S4096x64_S4096x16_0_0 : S4096x64.Slices ![0, 0] S4096x16
  slices_S4096x64_S4096x16_0_16 : S4096x64.Slices ![0, 16] S4096x16
  slices_S4096x64_S4096x16_0_32 : S4096x64.Slices ![0, 32] S4096x16
  slices_S4096x64_S4096x16_0_48 : S4096x64.Slices ![0, 48] S4096x16
  slices_S4096x4x16_S4096x1x16_0_1_0 : S4096x4x16.Slices ![0, 1, 0] S4096x1x16
  slices_S4096x4x16_S4096x1x16_0_2_0 : S4096x4x16.Slices ![0, 2, 0] S4096x1x16
  slices_S4096x4x16_S4096x1x16_0_3_0 : S4096x4x16.Slices ![0, 3, 0] S4096x1x16
  reducesTo_S4096x16_S4096_d1 : S4096x16.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []
  dot_S4096x32_S32x16_S4096x16_1_0_0_1_n_n_wf : DotDims.WF S4096x32 S32x16 S4096x16 [1] [0] [0] [1] [] []
  dot_S4096x4096_S4096x16_S4096x16_1_0_0_1_n_n_wf : DotDims.WF S4096x4096 S4096x16 S4096x16 [1] [0] [0] [1] [] []
  dot_S4096x16_S16x64_S4096x64_1_0_0_1_n_n_wf : DotDims.WF S4096x16 S16x64 S4096x64 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

class Facts : Prop extends Facts₀ where

variable [Facts]
-- ==== Proof.CarriedK.lean ====
/-
  What the kernel keeps in its three scratch arrays between grid points, as pure functions (any float instance).
  A store of a panel of whole rows [o, o + W) into a rank-2 array replaces those rows by the payload and keeps every
  other row (`rowsUpd`); reading back one such store over earlier contents is that function (`read_writes_rows`).
  `cond1` is the body's first branch condition (all three grid coordinates zero) as the body's own scalar chain.
-/
import proofs.«148102_g22909355557047_cont_8to1_1754_2_alg».proof.Proof.Gen.Kernel.Skeleton
import Idealize.ShloMosaic.Lib.Pipeline.FrameBody
import Idealize.ShloMosaic.Lib.WritesUnit
import Idealize.ShloMosaic.Lib.Pipeline.Value

noncomputable section

namespace Cert.Kernel.Body

open Cert.Kernel Cert.Kernel.Gen
open Idealize.ShloMosaic Idealize.SL.Sem

variable {F : FTy → Type} [FloatOps F]

/-- The first branch's condition, the body's scalar chain over the grid coordinates: all three are zero. -/
abbrev cond1 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- Rows `[o, o + W)` of a rank-2 array replaced by the payload `w` (read at the row's position within the panel),
    every other row kept. -/
def rowsUpd {d : Fin 2 → ℕ} {e : EltTy} {Val : EltTy → Type} (old : (⟨2, d⟩ : Shape).Idx → Val e) (o W : ℕ) (size : Fin 2 → ℕ)
    (hW : size (0 : Fin 2) = W) (hD : size (1 : Fin 2) = d (1 : Fin 2))
    (w : (Shape.mk 2 size).Idx → Val e) : (⟨2, d⟩ : Shape).Idx → Val e :=
  fun y => if h : o ≤ (y (0 : Fin 2)).val ∧ (y (0 : Fin 2)).val < o + W then
      w (Rect.unitLocal (s := ⟨2, d⟩) (off := ![o, 0]) (size := size) y (Rect.unit_rows_mem y hW hD h))
    else old y

/-- One store of a panel of whole rows over contents `f` reads back as `rowsUpd` of what `f` read as. -/
theorem read_writes_rows {sig : RefSig} {κ : Kind} {sp : Space} {d : Fin 2 → ℕ} {e : EltTy} {Val : EltTy → Type}
    (v : View sig κ sp (⟨2, d⟩ : Shape) e) (f : v.ty.Contents Val) {off size : Fin 2 → ℕ} {o W : ℕ}
    (inb : ∀ a : Fin 2, off a + size a ≤ d a) (w : (Rect.unit (s := ⟨2, d⟩) off size inb).shape.Idx → Val e)
    (hoff : off = ![o, 0]) (hW : size (0 : Fin 2) = W) (hD : size (1 : Fin 2) = d (1 : Fin 2)) :
    v.read Val (v.writes Val f [(⟨Rect.unit (s := ⟨2, d⟩) off size inb, w⟩ : View.Piece Val (⟨2, d⟩ : Shape) e)])
      = rowsUpd (v.read Val f) o W size hW hD w :=
  funext fun y => by
    rw [View.read_writes_cons_rows v f inb w [] y hoff hW hD]
    rfl

/-- The offsets of the two row-panel stores have column 0. -/
theorem off1_eq (i : grid0.Coords) : k0_off1 i = ![k0_off1 i (0 : Fin 2), 0] :=
  funext fun a => by match a with | ⟨0, _⟩ => rfl | ⟨1, _⟩ => rfl
theorem off2_eq (i : grid0.Coords) : k0_off2 i = ![k0_off2 i (0 : Fin 2), 0] :=
  funext fun a => by match a with | ⟨0, _⟩ => rfl | ⟨1, _⟩ => rfl

/-- One store through the whole-shape rectangle at zero offsets over any contents reads back as its payload. -/
theorem read_writes_unit_zero {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- The last point's output as ONE function of the bias row `x8`, the four time slices `h0 … h3` of the per-slice
    output array and the two recurrent weights `x6`, `x7`: the four recurrent steps' payloads composed as the body
    composes them, then the row softmax. -/
def finalPay (x8 : Vec F S1x64 .f32) (h0 h1 h2 h3 : Vec F S4096x16 .f32) (x6 x7 : Vec F S16x64 .f32) : FVec F S4096x16 .f32 :=
  k0_pay5
    (k0_pay18 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay19 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay20 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay21 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)

/-- Time slice `k` (rows `[4096 k, 4096 (k + 1))`) of the per-slice output array, as the last point loads it. -/
abbrev slab0 (hs : Vec F S16384x16 .f32) : Vec F S4096x16 .f32 := View.ld hs (Rect.unit (s := S16384x16) ![0, 0] S4096x16.size inb_S16384x16_S4096x16_0_0)
abbrev slab1 (hs : Vec F S16384x16 .f32) : Vec F S4096x16 .f32 := View.ld hs (Rect.unit (s := S16384x16) ![4096, 0] S4096x16.size inb_S16384x16_S4096x16_4096_0)
abbrev slab2 (hs : Vec F S16384x16 .f32) : Vec F S4096x16 .f32 := View.ld hs (Rect.unit (s := S16384x16) ![8192, 0] S4096x16.size inb_S16384x16_S4096x16_8192_0)
abbrev slab3 (hs : Vec F S16384x16 .f32) : Vec F S4096x16 .f32 := View.ld hs (Rect.unit (s := S16384x16) ![12288, 0] S4096x16.size inb_S16384x16_S4096x16_12288_0)

/-! ## The scratch arrays point by point -/

/-- What the three scratch arrays hold: the first-layer product, the second-layer input, the per-slice outputs. -/
structure St (F : FTy → Type) where
  ys : Vec F S4096x32 .f32
  gs : Vec F S4096x16 .bf16
  hs : Vec F S16384x16 .f32

/-- The input blocks a point's stores read: the adjacency panel, the features of the last time step, the first
    weight, the first bias row, the second weight, the second bias row. -/
structure Blocks (F : FTy → Type) where
  x0 : Vec F S1x1024x4096 .f32
  x1 : Vec F S4096x128 .f32
  x2 : Vec F S128x32 .f32
  x3 : Vec F S1x32 .f32
  x4 : Vec F S32x16 .f32
  x5 : Vec F S1x16 .f32

/-- One grid point's effect on the scratch arrays: at the first point the first-layer product is written whole; in
    the first pass the point's row panel of the second-layer input is written from the (new) product; in the second
    pass the point's row panel of the per-slice outputs is written from the second-layer input. -/
def stepSt (i : grid0.Coords) (X : Blocks F) (s : St F) : St F :=
  let ys' : Vec F S4096x32 .f32 := if cond1 i then k0_pay1 X.x1 X.x2 else s.ys
  let gs' : Vec F S4096x16 .bf16 := if k0_cond2 i = 1#1 then
      rowsUpd s.gs (k0_off1 i (0 : Fin 2)) 1024 S1024x16.size rfl rfl (k0_pay3 X.x0 ys' X.x3 X.x4) else s.gs
  let hs' : Vec F S16384x16 .f32 := if k0_cond3 i = 1#1 then
      rowsUpd s.hs (k0_off2 i (0 : Fin 2)) 1024 S1024x16.size rfl rfl (k0_pay4 X.x0 gs' X.x5) else s.hs
  ⟨ys', gs', hs'⟩

/-- The scratch arrays after the first `n` grid points, from contents `s` before the first. -/
def runSt (X : Fin grid0.N → Blocks F) : ℕ → St F → St F
  | 0, s => s
  | n + 1, s => if h : n < grid0.N then stepSt (grid0.coords ⟨n, h⟩) (X ⟨n, h⟩) (runSt X n s) else runSt X n s

theorem runSt_succ (X : Fin grid0.N → Blocks F) (t : Fin grid0.N) (s : St F) :
    runSt X (t.val + 1) s = stepSt (grid0.coords t) (X t) (runSt X t.val s) := by
  show (if h : t.val < grid0.N then _ else _) = _
  rw [dif_pos t.isLt]

end Cert.Kernel.Body

end
-- ==== Proof.RunKa.lean ====
import proofs.«148102_g22909355557047_cont_8to1_1754_2_alg».proof.Proof.Gen.Kernel.Launch
import proofs.«148102_g22909355557047_cont_8to1_1754_2_alg».proof.Proof.Gen.Kernel.Skeleton
import proofs.«148102_g22909355557047_cont_8to1_1754_2_alg».proof.Proof.Gen.Kernel.Points
import proofs.«148102_g22909355557047_cont_8to1_1754_2_alg».proof.Proof.Gen.Kernel.Frame
import proofs.«148102_g22909355557047_cont_8to1_1754_2_alg».proof.Proof.CarriedK
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- The first point: the body stores `k0_pay1` of the feature block and the first weight into the whole first-layer
    product array, then (first pass) `k0_pay3` of its adjacency panel, THAT product, the bias and the second weight into its
    row panel of the second-layer input array. -/
theorem runA (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : cond1 i) (hc2 : k0_cond2 i = 1#1) (hc3 : ¬k0_cond3 i = 1#1) (hc4 : ¬k0_cond4 i = 1#1)
    (x0 : Vec F S1x1024x4096 .f32) (x1 : Vec F S4096x128 .f32) (x2 : Vec F S128x32 .f32) (x3 : Vec F S1x32 .f32) (x4 : Vec F S32x16 .f32)
    (ys : Vec F S4096x32 .f32) (gs : Vec F S4096x16 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg13 fullShare ys ∗ owns (c : Thread nD τ) arg14 fullShare gs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg13 fullShare (k0_pay1 x1 x2)
            ∗ owns (c : Thread nD τ) arg14 fullShare (rowsUpd gs (k0_off1 i (0 : Fin 2)) 1024 S1024x16.size rfl rfl (k0_pay3 x0 (k0_pay1 x1 x2) x3 x4))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%fy, %hfy, HY⟩, ⟨%fg, %hfg, HG⟩, Hk⟩
  obtain rfl := harg3.eq_unread hf0; obtain rfl := harg4.eq_unread hf1; obtain rfl := harg5.eq_unread hf2
  obtain rfl := harg6.eq_unread hf3; obtain rfl := harg7.eq_unread hf4
  subst hfy; subst hfg
  sl_exec (disch := first | exact hc1 | exact hc2 | exact hc3 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have eY : arg13.view.read (Elt F) (arg13.view.writes (Elt F) fy
      [(⟨Rect.unit (s := S4096x32) ![0, 0] S4096x32.size inb_S4096x32_S4096x32_0_0,
        k0_pay1 (View.ld x1 (Rect.unit (s := S4096x128) ![0, 0] S4096x128.size inb_S4096x128_S4096x128_0_0))
          (View.ld x2 (Rect.unit (s := S128x32) ![0, 0] S128x32.size inb_S128x32_S128x32_0_0))⟩ : View.Piece (Elt F) S4096x32 .f32)])
      = k0_pay1 x1 x2 := by
    refine (read_writes_unit_zero (S := S4096x32) arg13.view fy hz2 inb_S4096x32_S4096x32_0_0 _).trans ?_
    simp only [View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
  isplitl [HY]
  · iexists _; isplitr
    swap; · iexact HY
    ipureintro
    sl_unfold_run_names
    simp only [View.readAt_eq_ld, Memref.IsWhole.read_unread]
    exact eY
  iexists _; isplitr
  swap; · iexact HG
  ipureintro
  sl_unfold_run_names
  refine (read_writes_rows (size := S1024x16.size) (o := k0_off1 i (0 : Fin 2)) (W := 1024) arg14.view fg (k0_off1_inb i hc2) _ (off1_eq i) rfl rfl).trans ?_
  simp only [View.readAt_eq_ld, Memref.IsWhole.read_unread]
  simp only [View.readCov_unit_zero (S := S4096x32) arg13.view hz2, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.Kernel.Body

end
-- ==== Proof.RunKb.lean ====
import proofs.«148102_g22909355557047_cont_8to1_1754_2_alg».proof.Proof.Gen.Kernel.Launch
import proofs.«148102_g22909355557047_cont_8to1_1754_2_alg».proof.Proof.Gen.Kernel.Skeleton
import proofs.«148102_g22909355557047_cont_8to1_1754_2_alg».proof.Proof.Gen.Kernel.Points
import proofs.«148102_g22909355557047_cont_8to1_1754_2_alg».proof.Proof.Gen.Kernel.Frame
import proofs.«148102_g22909355557047_cont_8to1_1754_2_alg».proof.Proof.CarriedK
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- A point of the first pass that is not the first point: the body loads its adjacency panel, the first-layer
    product `ys`, the bias and the second weight, and stores `k0_pay3` of them into its row panel of the
    second-layer input array; nothing else changes. -/
theorem runB (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : k0_cond2 i = 1#1) (hc3 : ¬k0_cond3 i = 1#1) (hc4 : ¬k0_cond4 i = 1#1)
    (x0 : Vec F S1x1024x4096 .f32) (x3 : Vec F S1x32 .f32) (x4 : Vec F S32x16 .f32) (ys : Vec F S4096x32 .f32) (gs : Vec F S4096x16 .bf16)
    (E : Set ℕ) (K : PUnit → sProp 𝕄) :
    iprop(owns (c : Thread nD τ) arg3 fullShare x0 ∗ owns (c : Thread nD τ) arg6 fullShare x3 ∗ owns (c : Thread nD τ) arg7 fullShare x4 ∗ owns (c : Thread nD τ) arg13 fullShare ys ∗ owns (c : Thread nD τ) arg14 fullShare gs
        ∗ (iprop(owns (c : Thread nD τ) arg3 fullShare x0 ∗ owns (c : Thread nD τ) arg6 fullShare x3 ∗ owns (c : Thread nD τ) arg7 fullShare x4 ∗ owns (c : Thread nD τ) arg13 fullShare ys
            ∗ owns (c : Thread nD τ) arg14 fullShare (rowsUpd gs (k0_off1 i (0 : Fin 2)) 1024 S1024x16.size rfl rfl (k0_pay3 x0 ys x3 x4))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f3, %hf3, H3⟩, ⟨%f4, %hf4, H4⟩, ⟨%fy, %hfy, HY⟩, ⟨%fg, %hfg, HG⟩, Hk⟩
  obtain rfl := harg3.eq_unread hf0; obtain rfl := harg6.eq_unread hf3; obtain rfl := harg7.eq_unread hf4
  obtain rfl := harg13.eq_unread hfy
  subst hfg
  sl_exec (disch := first | exact hc1 | exact hc2 | exact hc3 | exact hc4)
  sl_step
  iapply Hk
  isplitl [H0]
  · iexists _; isplitr; · ipureintro; exact harg3.read_unread _
    iexact H0
  isplitl [H3]
  · iexists _; isplitr; · ipureintro; exact harg6.read_unread _
    iexact H3
  isplitl [H4]
  · iexists _; isplitr; · ipureintro; exact harg7.read_unread _
    iexact H4
  isplitl [HY]
  · iexists _; isplitr; · ipureintro; exact harg13.read_unread _
    iexact HY
  iexists _; isplitr
  swap; · iexact HG
  ipureintro
  refine (read_writes_rows (size := S1024x16.size) (o := k0_off1 i (0 : Fin 2)) (W := 1024) arg14.view fg (k0_off1_inb i hc2) _ (off1_eq i) rfl rfl).trans ?_
  simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.Kernel.Body

end
-- ==== Proof.RunKc.lean ====
import proofs.«148102_g22909355557047_cont_8to1_1754_2_alg».proof.Proof.Gen.Kernel.Launch
import proofs.«148102_g22909355557047_cont_8to1_1754_2_alg».proof.Proof.Gen.Kernel.Skeleton
import proofs.«148102_g22909355557047_cont_8to1_1754_2_alg».proof.Proof.Gen.Kernel.Points
import proofs.«148102_g22909355557047_cont_8to1_1754_2_alg».proof.Proof.Gen.Kernel.Frame
import proofs.«148102_g22909355557047_cont_8to1_1754_2_alg».proof.Proof.CarriedK
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- A point of the second pass that is not the last: the body loads its adjacency panel, the whole second-layer
    input `gs` and the bias, and stores `k0_pay4` of them into its row panel of the per-slice output array; nothing else changes. -/
theorem runC (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : ¬k0_cond2 i = 1#1) (hc3 : k0_cond3 i = 1#1) (hc4 : ¬k0_cond4 i = 1#1)
    (x0 : Vec F S1x1024x4096 .f32) (x5 : Vec F S1x16 .f32) (gs : Vec F S4096x16 .bf16) (hs : Vec F S16384x16 .f32)
    (E : Set ℕ) (K : PUnit → sProp 𝕄) :
    iprop(owns (c : Thread nD τ) arg3 fullShare x0 ∗ owns (c : Thread nD τ) arg8 fullShare x5 ∗ owns (c : Thread nD τ) arg14 fullShare gs ∗ owns (c : Thread nD τ) arg15 fullShare hs
        ∗ (iprop(owns (c : Thread nD τ) arg3 fullShare x0 ∗ owns (c : Thread nD τ) arg8 fullShare x5 ∗ owns (c : Thread nD τ) arg14 fullShare gs
            ∗ owns (c : Thread nD τ) arg15 fullShare (rowsUpd hs (k0_off2 i (0 : Fin 2)) 1024 S1024x16.size rfl rfl (k0_pay4 x0 gs x5))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f5, %hf5, H5⟩, ⟨%fg, %hfg, HG⟩, ⟨%fh, %hfh, HH⟩, Hk⟩
  obtain rfl := harg3.eq_unread hf0; obtain rfl := harg8.eq_unread hf5; obtain rfl := harg14.eq_unread hfg
  sl_exec (disch := first | exact hc1 | exact hc2 | exact hc3 | exact hc4)
  sl_step
  iapply Hk
  isplitl [H0]
  · iexists _; isplitr; · ipureintro; exact harg3.read_unread _
    iexact H0
  isplitl [H5]
  · iexists _; isplitr; · ipureintro; exact harg8.read_unread _
    iexact H5
  isplitl [HG]
  · iexists _; isplitr; · ipureintro; exact harg14.read_unread _
    iexact HG
  iexists _; isplitr
  swap; · iexact HH
  ipureintro
  subst hfh
  refine (read_writes_rows (size := S1024x16.size) (o := k0_off2 i (0 : Fin 2)) (W := 1024) arg15.view fh (k0_off2_inb i hc3) _ (off2_eq i) rfl rfl).trans ?_
  simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.Kernel.Body

end
-- ==== Proof.RunKd.lean ====
import proofs.«148102_g22909355557047_cont_8to1_1754_2_alg».proof.Proof.Gen.Kernel.Launch
import proofs.«148102_g22909355557047_cont_8to1_1754_2_alg».proof.Proof.Gen.Kernel.Skeleton
import proofs.«148102_g22909355557047_cont_8to1_1754_2_alg».proof.Proof.Gen.Kernel.Points
import proofs.«148102_g22909355557047_cont_8to1_1754_2_alg».proof.Proof.Gen.Kernel.Frame
import proofs.«148102_g22909355557047_cont_8to1_1754_2_alg».proof.Proof.CarriedK
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The last point: (second pass) the body stores `k0_pay4` into the last row panel of the per-slice output array, then
    loads that array's four time slices, the recurrent weights and the bias row, and stores `finalPay` of them into the
    whole output block. -/
theorem runD (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : ¬k0_cond2 i = 1#1) (hc3 : k0_cond3 i = 1#1) (hc4 : k0_cond4 i = 1#1)
    (x0 : Vec F S1x1024x4096 .f32) (x5 : Vec F S1x16 .f32) (x6 : Vec F S16x64 .f32) (x7 : Vec F S16x64 .f32) (x8 : Vec F S1x64 .f32)
    (o : Vec F S4096x16 .f32) (gs : Vec F S4096x16 .bf16) (hs : Vec F S16384x16 .f32)
    (E : Set ℕ) (K : PUnit → sProp 𝕄) :
    iprop(owns (c : Thread nD τ) arg3 fullShare x0 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare o ∗ owns (c : Thread nD τ) arg14 fullShare gs ∗ owns (c : Thread nD τ) arg15 fullShare hs
        ∗ (iprop(owns (c : Thread nD τ) arg3 fullShare x0 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg14 fullShare gs
            ∗ owns (c : Thread nD τ) arg15 fullShare (rowsUpd hs (k0_off2 i (0 : Fin 2)) 1024 S1024x16.size rfl rfl (k0_pay4 x0 gs x5))
            ∗ owns (c : Thread nD τ) arg12 fullShare
                (finalPay x8 (slab0 (rowsUpd hs (k0_off2 i (0 : Fin 2)) 1024 S1024x16.size rfl rfl (k0_pay4 x0 gs x5)))
                  (slab1 (rowsUpd hs (k0_off2 i (0 : Fin 2)) 1024 S1024x16.size rfl rfl (k0_pay4 x0 gs x5)))
                  (slab2 (rowsUpd hs (k0_off2 i (0 : Fin 2)) 1024 S1024x16.size rfl rfl (k0_pay4 x0 gs x5)))
                  (slab3 (rowsUpd hs (k0_off2 i (0 : Fin 2)) 1024 S1024x16.size rfl rfl (k0_pay4 x0 gs x5))) x6 x7)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f5, %hf5, H5⟩, ⟨%f6, %hf6, H6⟩, ⟨%f7, %hf7, H7⟩, ⟨%f8, %hf8, H8⟩, ⟨%fo, %hfo, HO⟩, ⟨%fg, %hfg, HG⟩, ⟨%fh, %hfh, HH⟩, Hk⟩
  obtain rfl := harg3.eq_unread hf0; obtain rfl := harg8.eq_unread hf5; obtain rfl := harg9.eq_unread hf6
  obtain rfl := harg10.eq_unread hf7; obtain rfl := harg11.eq_unread hf8; obtain rfl := harg14.eq_unread hfg
  subst hfo; subst hfh
  sl_exec (disch := first | exact hc1 | exact hc2 | exact hc3 | exact hc4)
  sl_step
  iapply Hk
  isplitl [H0]
  · iexists _; isplitr; · ipureintro; exact harg3.read_unread _
    iexact H0
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [HG]
  · iexists _; isplitr; · ipureintro; exact harg14.read_unread _
    iexact HG
  have eH : arg15.view.read (Elt F) (arg15.view.writes (Elt F) fh
      [(⟨Rect.unit (s := S16384x16) (k0_off2 i) S1024x16.size (k0_off2_inb i hc3), k0_pay4 x0 gs x5⟩ : View.Piece (Elt F) S16384x16 .f32)])
      = rowsUpd (arg15.view.read (Elt F) fh) (k0_off2 i (0 : Fin 2)) 1024 S1024x16.size rfl rfl (k0_pay4 x0 gs x5) :=
    read_writes_rows (size := S1024x16.size) (o := k0_off2 i (0 : Fin 2)) (W := 1024) arg15.view fh (k0_off2_inb i hc3) _ (off2_eq i) rfl rfl
  isplitl [HH]
  · iexists _; isplitr
    swap; · iexact HH
    ipureintro
    sl_unfold_run_names
    simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
    exact eH
  iexists _; isplitr
  swap; · iexact HO
  ipureintro
  sl_unfold_run_names
  refine (read_writes_unit_zero (S := S4096x16) arg12.view fo hz2 inb_S4096x16_S4096x16_0_0 _).trans ?_
  simp only [View.readAt_eq_ld, Memref.IsWhole.read_unread]
  simp only [View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
  simp only [eH]
  rfl

end Cert.Kernel.Body

end
-- ==== Proof.FrameK.lean ====
/-
  The frame of the program whose one kernel keeps three scratch arrays between its 32 grid points: the relational proof
  data (every input buffer left as found, the output's buffer named only at the last point), the invariant (the scratch
  arrays at what the points so far made of their entry contents), the body at a generic point from the four runs, the
  launch, and the frame claim's post.
-/
import proofs.«148102_g22909355557047_cont_8to1_1754_2_alg».proof.Proof.Gen.Kernel.Launch
import proofs.«148102_g22909355557047_cont_8to1_1754_2_alg».proof.Proof.Gen.Kernel.Skeleton
import proofs.«148102_g22909355557047_cont_8to1_1754_2_alg».proof.Proof.Gen.Kernel.Points
import proofs.«148102_g22909355557047_cont_8to1_1754_2_alg».proof.Proof.Gen.Kernel.Frame
import proofs.«148102_g22909355557047_cont_8to1_1754_2_alg».proof.Proof.CarriedK
import proofs.«148102_g22909355557047_cont_8to1_1754_2_alg».proof.Proof.RunKa
import proofs.«148102_g22909355557047_cont_8to1_1754_2_alg».proof.Proof.RunKb
import proofs.«148102_g22909355557047_cont_8to1_1754_2_alg».proof.Proof.RunKc
import proofs.«148102_g22909355557047_cont_8to1_1754_2_alg».proof.Proof.RunKd
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid: point `t` is (time slice, pass, row panel) = (t / 8, (t / 4) % 2, t % 4) -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ (t.val / 4) % 2 = 0 :=
  (by decide +kernel : ∀ t : Fin grid0.N, k0_cond2 (grid0.coords t) = 1#1 ↔ (t.val / 4) % 2 = 0)
theorem hcond3 : ∀ t : Fin cfg0.N, k0_cond3 (grid0.coords t) = 1#1 ↔ (t.val / 4) % 2 = 1 :=
  (by decide +kernel : ∀ t : Fin grid0.N, k0_cond3 (grid0.coords t) = 1#1 ↔ (t.val / 4) % 2 = 1)
theorem hcond4 : ∀ t : Fin cfg0.N, k0_cond4 (grid0.coords t) = 1#1 ↔ t.val = 31 :=
  (by decide +kernel : ∀ t : Fin grid0.N, k0_cond4 (grid0.coords t) = 1#1 ↔ t.val = 31)

/-! ## The memrefs the body is called with -/

abbrev ms0 (t : Fin cfg0.N) : Memref sig .tc .vmem S1x1024x4096 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S32x16 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S16x64 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S16x64 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S4096x16 .f32 := win0_9.stage (cfg0.slots t 9)
abbrev hms9 (t : Fin cfg0.N) : (ms9 t).IsWhole := hstage0_9 ((cfg0.slots t 9).cast nbuf0_9)
abbrev scY : Memref sig .tc .vmem S4096x32 .f32 := Memref.whole cc0_scratch0
abbrev scG : Memref sig .tc .vmem S4096x16 .bf16 := Memref.whole cc0_scratch1
abbrev scH : Memref sig .tc .vmem S16384x16 .f32 := Memref.whole cc0_scratch2

/-- The class's region invariant: the three scratch arrays owned at some contents, and the generator register. -/
theorem PhiA0_eq (c : Dev nD) :
    (Pipeline.ΦA spec0 c : sProp 𝕄)
      = iprop(iprop((∃ d, owns (c : Thread nD τ) scY fullShare d) ∗ (∃ d, owns (c : Thread nD τ) scG fullShare d) ∗ (∃ d, owns (c : Thread nD τ) scH fullShare d)) ∗ (∃ r, prngReg c r)) := by
  unfold Pipeline.ΦA; rw [scopedRest0_eq]; simp only [scY, scG, scH, owns_whole]; try rfl

/-- The blocks the stores of point `t` read, off the arrays as the region finds them. -/
def blocksAt (c : Dev nD) (t : Fin cfg0.N) : Blocks F :=
  ⟨iblk m c 0 t, iblk m c 1 t, iblk m c 2 t, iblk m c 3 t, iblk m c 4 t, iblk m c 5 t⟩

/-- The invariant before point `n`: for SOME contents `s0` the scratch arrays held at the region's entry, they hold
    what the first `n` points make of it; and the generator register at some state. -/
def PhiS (c : Dev nD) (n : ℕ) : sProp 𝕄 :=
  iprop(∃ s0 : St F, iprop(owns (c : Thread nD τ) scY fullShare (runSt (blocksAt m c) n s0).ys
      ∗ owns (c : Thread nD τ) scG fullShare (runSt (blocksAt m c) n s0).gs
      ∗ owns (c : Thread nD τ) scH fullShare (runSt (blocksAt m c) n s0).hs) ∗ (∃ r, prngReg c r))

/-- What the last point stores into the output block, from contents `s0` of the scratch arrays at entry. -/
def outOf (c : Dev nD) (s0 : St F) : Vec F S4096x16 .f32 :=
  finalPay (iblk m c 8 ⟨31, by decide⟩) (slab0 (runSt (blocksAt m c) 32 s0).hs) (slab1 (runSt (blocksAt m c) 32 s0).hs)
    (slab2 (runSt (blocksAt m c) 32 s0).hs) (slab3 (runSt (blocksAt m c) 32 s0).hs) (iblk m c 6 ⟨31, by decide⟩) (iblk m c 7 ⟨31, by decide⟩)

/-- The relational proof data: the arrays as the region finds them; every input's buffer left as found; of the output's
    buffer nothing is said before the last point, which leaves `outOf` of some entry contents; the invariant `PhiS`. -/
def rdats (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => t.val = 31 → ∃ s0 : St F, X = outOf m c s0
  Φ t := PhiS m c t.val
  q _ := fullShare
  owed _ := 0

theorem A_eq (c : Dev nD) (w : Fin cfg0.W) : (rdats m c).A w = V m c (Pipeline.arrRef spec0 w) := by
  dsimp only [rdats]

/-- Input window 0's buffer holds its block wherever the body is handed it. -/
theorem finds0 (c : Dev nD) (t : Fin cfg0.N) (Y) (hY : (rdats m c).Finds 0 t Y) : Y = iblk m c 0 t := by
  obtain ⟨d, hd⟩ := (rdats m c).finds_in_eq_fetched 0 rfl (fun _ _ _ => rfl) (fun _ _ _ h => h) t Y hY
  rw [hd]; unfold RDat.fetched RDat.blockOf iblk; rw [A_eq]; try rfl
/-- Input window 1's buffer holds its block wherever the body is handed it. -/
theorem finds1 (c : Dev nD) (t : Fin cfg0.N) (Y) (hY : (rdats m c).Finds 1 t Y) : Y = iblk m c 1 t := by
  obtain ⟨d, hd⟩ := (rdats m c).finds_in_eq_fetched 1 rfl (fun _ _ _ => rfl) (fun _ _ _ h => h) t Y hY
  rw [hd]; unfold RDat.fetched RDat.blockOf iblk; rw [A_eq]; try rfl
/-- Input window 2's buffer holds its block wherever the body is handed it. -/
theorem finds2 (c : Dev nD) (t : Fin cfg0.N) (Y) (hY : (rdats m c).Finds 2 t Y) : Y = iblk m c 2 t := by
  obtain ⟨d, hd⟩ := (rdats m c).finds_in_eq_fetched 2 rfl (fun _ _ _ => rfl) (fun _ _ _ h => h) t Y hY
  rw [hd]; unfold RDat.fetched RDat.blockOf iblk; rw [A_eq]; try rfl
/-- Input window 3's buffer holds its block wherever the body is handed it. -/
theorem finds3 (c : Dev nD) (t : Fin cfg0.N) (Y) (hY : (rdats m c).Finds 3 t Y) : Y = iblk m c 3 t := by
  obtain ⟨d, hd⟩ := (rdats m c).finds_in_eq_fetched 3 rfl (fun _ _ _ => rfl) (fun _ _ _ h => h) t Y hY
  rw [hd]; unfold RDat.fetched RDat.blockOf iblk; rw [A_eq]; try rfl
/-- Input window 4's buffer holds its block wherever the body is handed it. -/
theorem finds4 (c : Dev nD) (t : Fin cfg0.N) (Y) (hY : (rdats m c).Finds 4 t Y) : Y = iblk m c 4 t := by
  obtain ⟨d, hd⟩ := (rdats m c).finds_in_eq_fetched 4 rfl (fun _ _ _ => rfl) (fun _ _ _ h => h) t Y hY
  rw [hd]; unfold RDat.fetched RDat.blockOf iblk; rw [A_eq]; try rfl
/-- Input window 5's buffer holds its block wherever the body is handed it. -/
theorem finds5 (c : Dev nD) (t : Fin cfg0.N) (Y) (hY : (rdats m c).Finds 5 t Y) : Y = iblk m c 5 t := by
  obtain ⟨d, hd⟩ := (rdats m c).finds_in_eq_fetched 5 rfl (fun _ _ _ => rfl) (fun _ _ _ h => h) t Y hY
  rw [hd]; unfold RDat.fetched RDat.blockOf iblk; rw [A_eq]; try rfl
/-- Input window 6's buffer holds its block wherever the body is handed it. -/
theorem finds6 (c : Dev nD) (t : Fin cfg0.N) (Y) (hY : (rdats m c).Finds 6 t Y) : Y = iblk m c 6 t := by
  obtain ⟨d, hd⟩ := (rdats m c).finds_in_eq_fetched 6 rfl (fun _ _ _ => rfl) (fun _ _ _ h => h) t Y hY
  rw [hd]; unfold RDat.fetched RDat.blockOf iblk; rw [A_eq]; try rfl
/-- Input window 7's buffer holds its block wherever the body is handed it. -/
theorem finds7 (c : Dev nD) (t : Fin cfg0.N) (Y) (hY : (rdats m c).Finds 7 t Y) : Y = iblk m c 7 t := by
  obtain ⟨d, hd⟩ := (rdats m c).finds_in_eq_fetched 7 rfl (fun _ _ _ => rfl) (fun _ _ _ h => h) t Y hY
  rw [hd]; unfold RDat.fetched RDat.blockOf iblk; rw [A_eq]; try rfl
/-- Input window 8's buffer holds its block wherever the body is handed it. -/
theorem finds8 (c : Dev nD) (t : Fin cfg0.N) (Y) (hY : (rdats m c).Finds 8 t Y) : Y = iblk m c 8 t := by
  obtain ⟨d, hd⟩ := (rdats m c).finds_in_eq_fetched 8 rfl (fun _ _ _ => rfl) (fun _ _ _ h => h) t Y hY
  rw [hd]; unfold RDat.fetched RDat.blockOf iblk; rw [A_eq]; try rfl

/-! ## The body at a generic point -/

set_option maxHeartbeats 4000000 in
/-- The body at any point `t`, its input buffers at their blocks and the output's buffer at anything: the grid's closed
    forms say which of the four cases the point is in, that case's run applies, the invariant hands it the scratch arrays
    at what the points before made of the entry contents and takes them back one point later. -/
theorem sound_body (c : Dev nD) (t : Fin cfg0.N) (o : Vec F S4096x16 .f32) :
    iprop(PhiS m c t.val ∗ (rdats m c).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare o)
      ⊢ wp frame (wpE (defs₀ (F := F)) Variants.none c none) Set.univ (bodyAt0 t) (fun _ =>
          iprop(PhiS m c (t.val + 1) ∗ (rdats m c).owesAt () t.castSucc
            ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t)
            ∗ (∃ X, ⌜t.val = 31 → ∃ s0 : St F, X = outOf m c s0⌝ ∗ owns (c : Thread nD τ) (ms9 t) fullShare X))) := by
  unfold PhiS bodyAt0
  have hN : t.val < 32 := lt_of_lt_of_eq t.isLt N_0
  iintro ⟨⟨%s0, ⟨HY, HG, HH⟩, Hg⟩, Ho, H0, H1, H2, H3, H4, H5, H6, H7, H8, H9⟩
  by_cases h1 : t.val = 0
  · have hc1 : cond1 (grid0.coords t) := (hcond1 t).mpr h1
    have hc2 : k0_cond2 (grid0.coords t) = 1#1 := (hcond2 t).mpr (by omega)
    have hc3 : ¬k0_cond3 (grid0.coords t) = 1#1 := fun h => by have := (hcond3 t).mp h; omega
    have hc4 : ¬k0_cond4 (grid0.coords t) = 1#1 := fun h => by have := (hcond4 t).mp h; omega
    have eS : runSt (blocksAt m c) (t.val + 1) s0
        = ⟨k0_pay1 (iblk m c 1 t) (iblk m c 2 t),
            rowsUpd (runSt (blocksAt m c) t.val s0).gs (k0_off1 (grid0.coords t) (0 : Fin 2)) 1024 S1024x16.size rfl rfl
              (k0_pay3 (iblk m c 0 t) (k0_pay1 (iblk m c 1 t) (iblk m c 2 t)) (iblk m c 3 t) (iblk m c 4 t)),
            (runSt (blocksAt m c) t.val s0).hs⟩ := by
      rw [runSt_succ]; unfold stepSt; simp only [if_pos hc1, if_pos hc2, if_neg hc3]; rfl
    iapply (runA c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [HY]; · iexact HY
    isplitl [HG]; · iexact HG
    iintro ⟨H0, H1, H2, H3, H4, HY, HG⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; omega
    iexact H9
  by_cases h4 : t.val = 31
  · have hc1 : ¬cond1 (grid0.coords t) := fun h => h1 ((hcond1 t).mp h)
    have hc2 : ¬k0_cond2 (grid0.coords t) = 1#1 := fun h => by have := (hcond2 t).mp h; omega
    have hc3 : k0_cond3 (grid0.coords t) = 1#1 := (hcond3 t).mpr (by omega)
    have hc4 : k0_cond4 (grid0.coords t) = 1#1 := (hcond4 t).mpr h4
    have eS : runSt (blocksAt m c) (t.val + 1) s0
        = ⟨(runSt (blocksAt m c) t.val s0).ys, (runSt (blocksAt m c) t.val s0).gs,
            rowsUpd (runSt (blocksAt m c) t.val s0).hs (k0_off2 (grid0.coords t) (0 : Fin 2)) 1024 S1024x16.size rfl rfl
              (k0_pay4 (iblk m c 0 t) (runSt (blocksAt m c) t.val s0).gs (iblk m c 5 t))⟩ := by
      rw [runSt_succ]; unfold stepSt; simp only [if_neg hc1, if_neg hc2, if_pos hc3]; rfl
    have eT : t = ⟨31, by decide⟩ := Fin.ext h4
    have eO : outOf m c s0 = finalPay (iblk m c 8 t) (slab0 (runSt (blocksAt m c) (t.val + 1) s0).hs) (slab1 (runSt (blocksAt m c) (t.val + 1) s0).hs)
        (slab2 (runSt (blocksAt m c) (t.val + 1) s0).hs) (slab3 (runSt (blocksAt m c) (t.val + 1) s0).hs) (iblk m c 6 t) (iblk m c 7 t) := by
      subst eT; rfl
    rw [eS] at eO
    iapply (runD c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 5 t) (iblk m c 6 t) (iblk m c 7 t) (iblk m c 8 t) o _ _ Set.univ _)
    isplitl [H0]; · iexact H0
    isplitl [H5]; · iexact H5
    isplitl [H6]; · iexact H6
    isplitl [H7]; · iexact H7
    isplitl [H8]; · iexact H8
    isplitl [H9]; · iexact H9
    isplitl [HG]; · iexact HG
    isplitl [HH]; · iexact HH
    iintro ⟨H0, H5, H6, H7, H8, HG, HH, H9⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr
    · ipureintro; exact fun _ => ⟨s0, eO.symm⟩
    iexact H9
  by_cases h2 : (t.val / 4) % 2 = 0
  · have hc1 : ¬cond1 (grid0.coords t) := fun h => h1 ((hcond1 t).mp h)
    have hc2 : k0_cond2 (grid0.coords t) = 1#1 := (hcond2 t).mpr h2
    have hc3 : ¬k0_cond3 (grid0.coords t) = 1#1 := fun h => by have := (hcond3 t).mp h; omega
    have hc4 : ¬k0_cond4 (grid0.coords t) = 1#1 := fun h => h4 ((hcond4 t).mp h)
    have eS : runSt (blocksAt m c) (t.val + 1) s0
        = ⟨(runSt (blocksAt m c) t.val s0).ys,
            rowsUpd (runSt (blocksAt m c) t.val s0).gs (k0_off1 (grid0.coords t) (0 : Fin 2)) 1024 S1024x16.size rfl rfl
              (k0_pay3 (iblk m c 0 t) (runSt (blocksAt m c) t.val s0).ys (iblk m c 3 t) (iblk m c 4 t)),
            (runSt (blocksAt m c) t.val s0).hs⟩ := by
      rw [runSt_succ]; unfold stepSt; simp only [if_neg hc1, if_pos hc2, if_neg hc3]; rfl
    iapply (runB c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 3 t) (iblk m c 4 t) _ _ Set.univ _)
    isplitl [H0]; · iexact H0
    isplitl [H3]; · iexact H3
    isplitl [H4]; · iexact H4
    isplitl [HY]; · iexact HY
    isplitl [HG]; · iexact HG
    iintro ⟨H0, H3, H4, HY, HG⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; exact absurd h h4
    iexact H9
  · have hc1 : ¬cond1 (grid0.coords t) := fun h => h1 ((hcond1 t).mp h)
    have hc2 : ¬k0_cond2 (grid0.coords t) = 1#1 := fun h => h2 ((hcond2 t).mp h)
    have hc3 : k0_cond3 (grid0.coords t) = 1#1 := (hcond3 t).mpr (by omega)
    have hc4 : ¬k0_cond4 (grid0.coords t) = 1#1 := fun h => h4 ((hcond4 t).mp h)
    have eS : runSt (blocksAt m c) (t.val + 1) s0
        = ⟨(runSt (blocksAt m c) t.val s0).ys, (runSt (blocksAt m c) t.val s0).gs,
            rowsUpd (runSt (blocksAt m c) t.val s0).hs (k0_off2 (grid0.coords t) (0 : Fin 2)) 1024 S1024x16.size rfl rfl
              (k0_pay4 (iblk m c 0 t) (runSt (blocksAt m c) t.val s0).gs (iblk m c 5 t))⟩ := by
      rw [runSt_succ]; unfold stepSt; simp only [if_neg hc1, if_neg hc2, if_pos hc3]; rfl
    iapply (runC c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 5 t) _ _ Set.univ _)
    isplitl [H0]; · iexact H0
    isplitl [H5]; · iexact H5
    isplitl [HG]; · iexact HG
    isplitl [HH]; · iexact HH
    iintro ⟨H0, H5, HG, HH⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; exact absurd h h4
    iexact H9

/-! ## The body obligation, the launch, the frame -/

/-- The library's body obligation of the relational data, at every point. -/
theorem body_obligation (c : Dev nD) : (rdats (F := F) m c).BodyObligation (defs₀ (F := F)) Variants.none () Set.univ := fun t Y hY => by
  rw [bigSep_W0, bigSep_W0]
  have e0 := finds0 m c t (Y 0) (hY 0); have e1 := finds1 m c t (Y 1) (hY 1); have e2 := finds2 m c t (Y 2) (hY 2)
  have e3 := finds3 m c t (Y 3) (hY 3); have e4 := finds4 m c t (Y 4) (hY 4); have e5 := finds5 m c t (Y 5) (hY 5)
  have e6 := finds6 m c t (Y 6) (hY 6); have e7 := finds7 m c t (Y 7) (hY 7); have e8 := finds8 m c t (Y 8) (hY 8)
  rw [e0, e1, e2, e3, e4, e5, e6, e7, e8]
  refine (sound_body m c t (Y 9)).trans (wp_mono _ _ _ fun _ => ?_)
  dsimp only [rdats]
  iintro ⟨HΦ, Ho, H0, H1, H2, H3, H4, H5, H6, H7, H8, ⟨%X, %hX, H9⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  iexists X; isplitr; · ipureintro; exact hX
  iexact H9

/-- What the launch hands the region is the invariant before the first point, at whatever the scratch arrays hold. -/
theorem hin (c : Dev nD) : Pipeline.ΦA spec0 c ⊢ (rdats (F := F) m c).Φ 0 := by
  show _ ⊢ PhiS m c 0
  rw [PhiA0_eq]; unfold PhiS
  iintro ⟨⟨⟨%y, HY⟩, ⟨%g, HG⟩, ⟨%h, HH⟩⟩, Hg⟩
  iexists (⟨y, g, h⟩ : St F)
  isplitl [HY HG HH]
  · isplitl [HY]; · iexact HY
    isplitl [HG]; · iexact HG
    iexact HH
  iexact Hg

/-- After the last point the invariant gives the class's back: the scratch arrays' named contents are forgotten. -/
theorem hout (c : Dev nD) : (rdats (F := F) m c).Φ (Fin.last cfg0.N) ⊢ Pipeline.ΦA spec0 c := by
  show PhiS m c _ ⊢ _
  rw [PhiA0_eq]; unfold PhiS
  iintro ⟨%s0, ⟨HY, HG, HH⟩, Hg⟩
  isplitl [HY HG HH]
  · isplitl [HY]; · iexists _; iexact HY
    isplitl [HG]; · iexists _; iexact HG
    iexists _; iexact HH
  iexact Hg

theorem share_full (c : Dev nD) (w : Fin cfg0.W) : (rdats (F := F) m c).share w = fullShare := by
  unfold RDat.share; split <;> rfl

set_option backward.isDefEq.respectTransparency.types false in
/-- At the compiled mesh, for any values, from any memory with zero counters: every weakly fair execution of @main
    terminates, every array of the pipeline at some contents the relational data allows after every write-back, every
    other unscoped buffer as the region found it. -/
theorem run_main : θ_run defs (onTc (τ := τ) (main (F := F))) (s₀ m ρ) (Pipeline.RDat.FramePost cfg0 (rdats m) (V m)) :=
  Pipeline.RDat.θ_run_frame_track cfgs (0 : Fin 1) launch0 defs₀ Variants.none (rdats m) m ρ main
    (hbody := fun c => body_obligation m c) (hshare := share_full m)
    (howed := fun _ _ => rfl) (V := V m) (hmain := hmain m Variants.none) (hA := A_eq m) (hin := hin m) (hout := hout m)

/-- An input array ends as the region found it. -/
theorem arr_in (c : Dev nD) (w : Fin cfg0.W) (hw : (cfg0.win w).isOut = false)
    (G : Buf (Elt F) ((cfg0.win w).arr.view.loc (c.tc : Thread nD τ))) (h : (rdats m c).ArrAt w cfg0.N G) :
    G = V m c (Pipeline.arrRef spec0 w) := by
  rw [(rdats m c).ArrAt_in w hw] at h; exact h.trans (A_eq m c w)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      (arr_in m c 0 rfl _ ((h c).1 0)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c),
      (arr_in m c 6 rfl _ ((h c).1 6)).trans (V_main_arg6 m c),
      (arr_in m c 7 rfl _ ((h c).1 7)).trans (V_main_arg7 m c),
      ((h c).2 main_arg8 (Pipeline.mem_restRefs_of main_arg8 (by decide) (by decide))).trans (V_main_arg8 m c)⟩) (run_main m ρ)

end Cert.Kernel.Body

end
-- ==== Proof.CarriedKI.lean ====
/-
  What the kernel keeps in its three scratch arrays between grid points, as pure functions (any float instance).
  A store of a panel of whole rows [o, o + W) into a rank-2 array replaces those rows by the payload and keeps every
  other row (`rowsUpd`); reading back one such store over earlier contents is that function (`read_writes_rows`).
  `cond1` is the body's first branch condition (all three grid coordinates zero) as the body's own scalar chain.
-/
import proofs.«148102_g22909355557047_cont_8to1_1754_2_alg».proof.Proof.Gen.KernelIdeal.Skeleton
import Idealize.ShloMosaic.Lib.Pipeline.FrameBody
import Idealize.ShloMosaic.Lib.WritesUnit
import Idealize.ShloMosaic.Lib.Pipeline.Value

noncomputable section

namespace Cert.KernelIdeal.Body

open Cert.KernelIdeal Cert.KernelIdeal.Gen
open Idealize.ShloMosaic Idealize.SL.Sem

variable {F : FTy → Type} [FloatOps F]

/-- The first branch's condition, the body's scalar chain over the grid coordinates: all three are zero. -/
abbrev cond1 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- Rows `[o, o + W)` of a rank-2 array replaced by the payload `w` (read at the row's position within the panel),
    every other row kept. -/
def rowsUpd {d : Fin 2 → ℕ} {e : EltTy} {Val : EltTy → Type} (old : (⟨2, d⟩ : Shape).Idx → Val e) (o W : ℕ) (size : Fin 2 → ℕ)
    (hW : size (0 : Fin 2) = W) (hD : size (1 : Fin 2) = d (1 : Fin 2))
    (w : (Shape.mk 2 size).Idx → Val e) : (⟨2, d⟩ : Shape).Idx → Val e :=
  fun y => if h : o ≤ (y (0 : Fin 2)).val ∧ (y (0 : Fin 2)).val < o + W then
      w (Rect.unitLocal (s := ⟨2, d⟩) (off := ![o, 0]) (size := size) y (Rect.unit_rows_mem y hW hD h))
    else old y

/-- One store of a panel of whole rows over contents `f` reads back as `rowsUpd` of what `f` read as. -/
theorem read_writes_rows {sig : RefSig} {κ : Kind} {sp : Space} {d : Fin 2 → ℕ} {e : EltTy} {Val : EltTy → Type}
    (v : View sig κ sp (⟨2, d⟩ : Shape) e) (f : v.ty.Contents Val) {off size : Fin 2 → ℕ} {o W : ℕ}
    (inb : ∀ a : Fin 2, off a + size a ≤ d a) (w : (Rect.unit (s := ⟨2, d⟩) off size inb).shape.Idx → Val e)
    (hoff : off = ![o, 0]) (hW : size (0 : Fin 2) = W) (hD : size (1 : Fin 2) = d (1 : Fin 2)) :
    v.read Val (v.writes Val f [(⟨Rect.unit (s := ⟨2, d⟩) off size inb, w⟩ : View.Piece Val (⟨2, d⟩ : Shape) e)])
      = rowsUpd (v.read Val f) o W size hW hD w :=
  funext fun y => by
    rw [View.read_writes_cons_rows v f inb w [] y hoff hW hD]
    rfl

/-- The offsets of the two row-panel stores have column 0. -/
theorem off1_eq (i : grid0.Coords) : k0_off1 i = ![k0_off1 i (0 : Fin 2), 0] :=
  funext fun a => by match a with | ⟨0, _⟩ => rfl | ⟨1, _⟩ => rfl
theorem off2_eq (i : grid0.Coords) : k0_off2 i = ![k0_off2 i (0 : Fin 2), 0] :=
  funext fun a => by match a with | ⟨0, _⟩ => rfl | ⟨1, _⟩ => rfl

/-- One store through the whole-shape rectangle at zero offsets over any contents reads back as its payload. -/
theorem read_writes_unit_zero {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- The last point's output as ONE function of the bias row `x8`, the four time slices `h0 … h3` of the per-slice
    output array and the two recurrent weights `x6`, `x7`: the four recurrent steps' payloads composed as the body
    composes them, then the row softmax. -/
def finalPay (x8 : Vec F S1x64 .f32) (h0 h1 h2 h3 : Vec F S4096x16 .f32) (x6 x7 : Vec F S16x64 .f32) : FVec F S4096x16 .f32 :=
  k0_pay5
    (k0_pay18 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay19 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay20 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)
    (k0_pay21 (k0_pay6 x8) (k0_pay8 x8 h0 x6 x7) (k0_pay10 x8 h0 x6 x7 h1 x6 x7) (k0_pay11 x8 h0 x6 x7 h1 x6 x7) (k0_pay12 x8 h0 x6 x7 h1 x6 x7) (k0_pay13 x8 h0 x6 x7 h1 x6 x7) h2 x6 x7 h3 x6 x7)

/-- Time slice `k` (rows `[4096 k, 4096 (k + 1))`) of the per-slice output array, as the last point loads it. -/
abbrev slab0 (hs : Vec F S16384x16 .f32) : Vec F S4096x16 .f32 := View.ld hs (Rect.unit (s := S16384x16) ![0, 0] S4096x16.size inb_S16384x16_S4096x16_0_0)
abbrev slab1 (hs : Vec F S16384x16 .f32) : Vec F S4096x16 .f32 := View.ld hs (Rect.unit (s := S16384x16) ![4096, 0] S4096x16.size inb_S16384x16_S4096x16_4096_0)
abbrev slab2 (hs : Vec F S16384x16 .f32) : Vec F S4096x16 .f32 := View.ld hs (Rect.unit (s := S16384x16) ![8192, 0] S4096x16.size inb_S16384x16_S4096x16_8192_0)
abbrev slab3 (hs : Vec F S16384x16 .f32) : Vec F S4096x16 .f32 := View.ld hs (Rect.unit (s := S16384x16) ![12288, 0] S4096x16.size inb_S16384x16_S4096x16_12288_0)

/-! ## The scratch arrays point by point -/

/-- What the three scratch arrays hold: the first-layer product, the second-layer input, the per-slice outputs. -/
structure St (F : FTy → Type) where
  ys : Vec F S4096x32 .f32
  gs : Vec F S4096x16 .bf16
  hs : Vec F S16384x16 .f32

/-- The input blocks a point's stores read: the adjacency panel, the features of the last time step, the first
    weight, the first bias row, the second weight, the second bias row. -/
structure Blocks (F : FTy → Type) where
  x0 : Vec F S1x1024x4096 .f32
  x1 : Vec F S4096x128 .f32
  x2 : Vec F S128x32 .f32
  x3 : Vec F S1x32 .f32
  x4 : Vec F S32x16 .f32
  x5 : Vec F S1x16 .f32

/-- One grid point's effect on the scratch arrays: at the first point the first-layer product is written whole; in
    the first pass the point's row panel of the second-layer input is written from the (new) product; in the second
    pass the point's row panel of the per-slice outputs is written from the second-layer input. -/
def stepSt (i : grid0.Coords) (X : Blocks F) (s : St F) : St F :=
  let ys' : Vec F S4096x32 .f32 := if cond1 i then k0_pay1 X.x1 X.x2 else s.ys
  let gs' : Vec F S4096x16 .bf16 := if k0_cond2 i = 1#1 then
      rowsUpd s.gs (k0_off1 i (0 : Fin 2)) 1024 S1024x16.size rfl rfl (k0_pay3 X.x0 ys' X.x3 X.x4) else s.gs
  let hs' : Vec F S16384x16 .f32 := if k0_cond3 i = 1#1 then
      rowsUpd s.hs (k0_off2 i (0 : Fin 2)) 1024 S1024x16.size rfl rfl (k0_pay4 X.x0 gs' X.x5) else s.hs
  ⟨ys', gs', hs'⟩

/-- The scratch arrays after the first `n` grid points, from contents `s` before the first. -/
def runSt (X : Fin grid0.N → Blocks F) : ℕ → St F → St F
  | 0, s => s
  | n + 1, s => if h : n < grid0.N then stepSt (grid0.coords ⟨n, h⟩) (X ⟨n, h⟩) (runSt X n s) else runSt X n s

theorem runSt_succ (X : Fin grid0.N → Blocks F) (t : Fin grid0.N) (s : St F) :
    runSt X (t.val + 1) s = stepSt (grid0.coords t) (X t) (runSt X t.val s) := by
  show (if h : t.val < grid0.N then _ else _) = _
  rw [dif_pos t.isLt]

end Cert.KernelIdeal.Body

end
-- ==== Proof.RunKIa.lean ====
import proofs.«148102_g22909355557047_cont_8to1_1754_2_alg».proof.Proof.Gen.KernelIdeal.Launch
import proofs.«148102_g22909355557047_cont_8to1_1754_2_alg».proof.Proof.Gen.KernelIdeal.Skeleton
import proofs.«148102_g22909355557047_cont_8to1_1754_2_alg».proof.Proof.Gen.KernelIdeal.Points
import proofs.«148102_g22909355557047_cont_8to1_1754_2_alg».proof.Proof.Gen.KernelIdeal.Frame
import proofs.«148102_g22909355557047_cont_8to1_1754_2_alg».proof.Proof.CarriedKI
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- The first point: the body stores `k0_pay1` of the feature block and the first weight into the whole first-layer
    product array, then (first pass) `k0_pay3` of its adjacency panel, THAT product, the bias and the second weight into its
    row panel of the second-layer input array. -/
theorem runA (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : cond1 i) (hc2 : k0_cond2 i = 1#1) (hc3 : ¬k0_cond3 i = 1#1) (hc4 : ¬k0_cond4 i = 1#1)
    (x0 : Vec F S1x1024x4096 .f32) (x1 : Vec F S4096x128 .f32) (x2 : Vec F S128x32 .f32) (x3 : Vec F S1x32 .f32) (x4 : Vec F S32x16 .f32)
    (ys : Vec F S4096x32 .f32) (gs : Vec F S4096x16 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg13 fullShare ys ∗ owns (c : Thread nD τ) arg14 fullShare gs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg13 fullShare (k0_pay1 x1 x2)
            ∗ owns (c : Thread nD τ) arg14 fullShare (rowsUpd gs (k0_off1 i (0 : Fin 2)) 1024 S1024x16.size rfl rfl (k0_pay3 x0 (k0_pay1 x1 x2) x3 x4))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%fy, %hfy, HY⟩, ⟨%fg, %hfg, HG⟩, Hk⟩
  obtain rfl := harg3.eq_unread hf0; obtain rfl := harg4.eq_unread hf1; obtain rfl := harg5.eq_unread hf2
  obtain rfl := harg6.eq_unread hf3; obtain rfl := harg7.eq_unread hf4
  subst hfy; subst hfg
  sl_exec (disch := first | exact hc1 | exact hc2 | exact hc3 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have eY : arg13.view.read (Elt F) (arg13.view.writes (Elt F) fy
      [(⟨Rect.unit (s := S4096x32) ![0, 0] S4096x32.size inb_S4096x32_S4096x32_0_0,
        k0_pay1 (View.ld x1 (Rect.unit (s := S4096x128) ![0, 0] S4096x128.size inb_S4096x128_S4096x128_0_0))
          (View.ld x2 (Rect.unit (s := S128x32) ![0, 0] S128x32.size inb_S128x32_S128x32_0_0))⟩ : View.Piece (Elt F) S4096x32 .f32)])
      = k0_pay1 x1 x2 := by
    refine (read_writes_unit_zero (S := S4096x32) arg13.view fy hz2 inb_S4096x32_S4096x32_0_0 _).trans ?_
    simp only [View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
  isplitl [HY]
  · iexists _; isplitr
    swap; · iexact HY
    ipureintro
    sl_unfold_run_names
    simp only [View.readAt_eq_ld, Memref.IsWhole.read_unread]
    exact eY
  iexists _; isplitr
  swap; · iexact HG
  ipureintro
  sl_unfold_run_names
  refine (read_writes_rows (size := S1024x16.size) (o := k0_off1 i (0 : Fin 2)) (W := 1024) arg14.view fg (k0_off1_inb i hc2) _ (off1_eq i) rfl rfl).trans ?_
  simp only [View.readAt_eq_ld, Memref.IsWhole.read_unread]
  simp only [View.readCov_unit_zero (S := S4096x32) arg13.view hz2, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.KernelIdeal.Body

end
-- ==== Proof.RunKIb.lean ====
import proofs.«148102_g22909355557047_cont_8to1_1754_2_alg».proof.Proof.Gen.KernelIdeal.Launch
import proofs.«148102_g22909355557047_cont_8to1_1754_2_alg».proof.Proof.Gen.KernelIdeal.Skeleton
import proofs.«148102_g22909355557047_cont_8to1_1754_2_alg».proof.Proof.Gen.KernelIdeal.Points
import proofs.«148102_g22909355557047_cont_8to1_1754_2_alg».proof.Proof.Gen.KernelIdeal.Frame
import proofs.«148102_g22909355557047_cont_8to1_1754_2_alg».proof.Proof.CarriedKI
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- A point of the first pass that is not the first point: the body loads its adjacency panel, the first-layer
    product `ys`, the bias and the second weight, and stores `k0_pay3` of them into its row panel of the
    second-layer input array; nothing else changes. -/
theorem runB (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : k0_cond2 i = 1#1) (hc3 : ¬k0_cond3 i = 1#1) (hc4 : ¬k0_cond4 i = 1#1)
    (x0 : Vec F S1x1024x4096 .f32) (x3 : Vec F S1x32 .f32) (x4 : Vec F S32x16 .f32) (ys : Vec F S4096x32 .f32) (gs : Vec F S4096x16 .bf16)
    (E : Set ℕ) (K : PUnit → sProp 𝕄) :
    iprop(owns (c : Thread nD τ) arg3 fullShare x0 ∗ owns (c : Thread nD τ) arg6 fullShare x3 ∗ owns (c : Thread nD τ) arg7 fullShare x4 ∗ owns (c : Thread nD τ) arg13 fullShare ys ∗ owns (c : Thread nD τ) arg14 fullShare gs
        ∗ (iprop(owns (c : Thread nD τ) arg3 fullShare x0 ∗ owns (c : Thread nD τ) arg6 fullShare x3 ∗ owns (c : Thread nD τ) arg7 fullShare x4 ∗ owns (c : Thread nD τ) arg13 fullShare ys
            ∗ owns (c : Thread nD τ) arg14 fullShare (rowsUpd gs (k0_off1 i (0 : Fin 2)) 1024 S1024x16.size rfl rfl (k0_pay3 x0 ys x3 x4))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f3, %hf3, H3⟩, ⟨%f4, %hf4, H4⟩, ⟨%fy, %hfy, HY⟩, ⟨%fg, %hfg, HG⟩, Hk⟩
  obtain rfl := harg3.eq_unread hf0; obtain rfl := harg6.eq_unread hf3; obtain rfl := harg7.eq_unread hf4
  obtain rfl := harg13.eq_unread hfy
  subst hfg
  sl_exec (disch := first | exact hc1 | exact hc2 | exact hc3 | exact hc4)
  sl_step
  iapply Hk
  isplitl [H0]
  · iexists _; isplitr; · ipureintro; exact harg3.read_unread _
    iexact H0
  isplitl [H3]
  · iexists _; isplitr; · ipureintro; exact harg6.read_unread _
    iexact H3
  isplitl [H4]
  · iexists _; isplitr; · ipureintro; exact harg7.read_unread _
    iexact H4
  isplitl [HY]
  · iexists _; isplitr; · ipureintro; exact harg13.read_unread _
    iexact HY
  iexists _; isplitr
  swap; · iexact HG
  ipureintro
  refine (read_writes_rows (size := S1024x16.size) (o := k0_off1 i (0 : Fin 2)) (W := 1024) arg14.view fg (k0_off1_inb i hc2) _ (off1_eq i) rfl rfl).trans ?_
  simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.KernelIdeal.Body

end
-- ==== Proof.RunKIc.lean ====
import proofs.«148102_g22909355557047_cont_8to1_1754_2_alg».proof.Proof.Gen.KernelIdeal.Launch
import proofs.«148102_g22909355557047_cont_8to1_1754_2_alg».proof.Proof.Gen.KernelIdeal.Skeleton
import proofs.«148102_g22909355557047_cont_8to1_1754_2_alg».proof.Proof.Gen.KernelIdeal.Points
import proofs.«148102_g22909355557047_cont_8to1_1754_2_alg».proof.Proof.Gen.KernelIdeal.Frame
import proofs.«148102_g22909355557047_cont_8to1_1754_2_alg».proof.Proof.CarriedKI
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- A point of the second pass that is not the last: the body loads its adjacency panel, the whole second-layer
    input `gs` and the bias, and stores `k0_pay4` of them into its row panel of the per-slice output array; nothing else changes. -/
theorem runC (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : ¬k0_cond2 i = 1#1) (hc3 : k0_cond3 i = 1#1) (hc4 : ¬k0_cond4 i = 1#1)
    (x0 : Vec F S1x1024x4096 .f32) (x5 : Vec F S1x16 .f32) (gs : Vec F S4096x16 .bf16) (hs : Vec F S16384x16 .f32)
    (E : Set ℕ) (K : PUnit → sProp 𝕄) :
    iprop(owns (c : Thread nD τ) arg3 fullShare x0 ∗ owns (c : Thread nD τ) arg8 fullShare x5 ∗ owns (c : Thread nD τ) arg14 fullShare gs ∗ owns (c : Thread nD τ) arg15 fullShare hs
        ∗ (iprop(owns (c : Thread nD τ) arg3 fullShare x0 ∗ owns (c : Thread nD τ) arg8 fullShare x5 ∗ owns (c : Thread nD τ) arg14 fullShare gs
            ∗ owns (c : Thread nD τ) arg15 fullShare (rowsUpd hs (k0_off2 i (0 : Fin 2)) 1024 S1024x16.size rfl rfl (k0_pay4 x0 gs x5))) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f5, %hf5, H5⟩, ⟨%fg, %hfg, HG⟩, ⟨%fh, %hfh, HH⟩, Hk⟩
  obtain rfl := harg3.eq_unread hf0; obtain rfl := harg8.eq_unread hf5; obtain rfl := harg14.eq_unread hfg
  sl_exec (disch := first | exact hc1 | exact hc2 | exact hc3 | exact hc4)
  sl_step
  iapply Hk
  isplitl [H0]
  · iexists _; isplitr; · ipureintro; exact harg3.read_unread _
    iexact H0
  isplitl [H5]
  · iexists _; isplitr; · ipureintro; exact harg8.read_unread _
    iexact H5
  isplitl [HG]
  · iexists _; isplitr; · ipureintro; exact harg14.read_unread _
    iexact HG
  iexists _; isplitr
  swap; · iexact HH
  ipureintro
  subst hfh
  refine (read_writes_rows (size := S1024x16.size) (o := k0_off2 i (0 : Fin 2)) (W := 1024) arg15.view fh (k0_off2_inb i hc3) _ (off2_eq i) rfl rfl).trans ?_
  simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]

end Cert.KernelIdeal.Body

end
-- ==== Proof.RunKId.lean ====
import proofs.«148102_g22909355557047_cont_8to1_1754_2_alg».proof.Proof.Gen.KernelIdeal.Launch
import proofs.«148102_g22909355557047_cont_8to1_1754_2_alg».proof.Proof.Gen.KernelIdeal.Skeleton
import proofs.«148102_g22909355557047_cont_8to1_1754_2_alg».proof.Proof.Gen.KernelIdeal.Points
import proofs.«148102_g22909355557047_cont_8to1_1754_2_alg».proof.Proof.Gen.KernelIdeal.Frame
import proofs.«148102_g22909355557047_cont_8to1_1754_2_alg».proof.Proof.CarriedKI
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 4000000 in
/-- The last point: (second pass) the body stores `k0_pay4` into the last row panel of the per-slice output array, then
    loads that array's four time slices, the recurrent weights and the bias row, and stores `finalPay` of them into the
    whole output block. -/
theorem runD (c : Dev nD) (i : grid0.Coords) (arg3 : Memref sig .tc .vmem S1x1024x4096 .f32) (harg3 : arg3.IsWhole) (arg4 : Memref sig .tc .vmem S4096x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S4096x16 .f32) (harg12 : arg12.IsWhole) (arg13 : Memref sig .tc .vmem S4096x32 .f32) (harg13 : arg13.IsWhole) (arg14 : Memref sig .tc .vmem S4096x16 .bf16) (harg14 : arg14.IsWhole) (arg15 : Memref sig .tc .vmem S16384x16 .f32) (harg15 : arg15.IsWhole)
    (hc1 : ¬cond1 i) (hc2 : ¬k0_cond2 i = 1#1) (hc3 : k0_cond3 i = 1#1) (hc4 : k0_cond4 i = 1#1)
    (x0 : Vec F S1x1024x4096 .f32) (x5 : Vec F S1x16 .f32) (x6 : Vec F S16x64 .f32) (x7 : Vec F S16x64 .f32) (x8 : Vec F S1x64 .f32)
    (o : Vec F S4096x16 .f32) (gs : Vec F S4096x16 .bf16) (hs : Vec F S16384x16 .f32)
    (E : Set ℕ) (K : PUnit → sProp 𝕄) :
    iprop(owns (c : Thread nD τ) arg3 fullShare x0 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare o ∗ owns (c : Thread nD τ) arg14 fullShare gs ∗ owns (c : Thread nD τ) arg15 fullShare hs
        ∗ (iprop(owns (c : Thread nD τ) arg3 fullShare x0 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg14 fullShare gs
            ∗ owns (c : Thread nD τ) arg15 fullShare (rowsUpd hs (k0_off2 i (0 : Fin 2)) 1024 S1024x16.size rfl rfl (k0_pay4 x0 gs x5))
            ∗ owns (c : Thread nD τ) arg12 fullShare
                (finalPay x8 (slab0 (rowsUpd hs (k0_off2 i (0 : Fin 2)) 1024 S1024x16.size rfl rfl (k0_pay4 x0 gs x5)))
                  (slab1 (rowsUpd hs (k0_off2 i (0 : Fin 2)) 1024 S1024x16.size rfl rfl (k0_pay4 x0 gs x5)))
                  (slab2 (rowsUpd hs (k0_off2 i (0 : Fin 2)) 1024 S1024x16.size rfl rfl (k0_pay4 x0 gs x5)))
                  (slab3 (rowsUpd hs (k0_off2 i (0 : Fin 2)) 1024 S1024x16.size rfl rfl (k0_pay4 x0 gs x5))) x6 x7)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  unfold owns
  iintro ⟨⟨%f0, %hf0, H0⟩, ⟨%f5, %hf5, H5⟩, ⟨%f6, %hf6, H6⟩, ⟨%f7, %hf7, H7⟩, ⟨%f8, %hf8, H8⟩, ⟨%fo, %hfo, HO⟩, ⟨%fg, %hfg, HG⟩, ⟨%fh, %hfh, HH⟩, Hk⟩
  obtain rfl := harg3.eq_unread hf0; obtain rfl := harg8.eq_unread hf5; obtain rfl := harg9.eq_unread hf6
  obtain rfl := harg10.eq_unread hf7; obtain rfl := harg11.eq_unread hf8; obtain rfl := harg14.eq_unread hfg
  subst hfo; subst hfh
  sl_exec (disch := first | exact hc1 | exact hc2 | exact hc3 | exact hc4)
  sl_step
  iapply Hk
  isplitl [H0]
  · iexists _; isplitr; · ipureintro; exact harg3.read_unread _
    iexact H0
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [HG]
  · iexists _; isplitr; · ipureintro; exact harg14.read_unread _
    iexact HG
  have eH : arg15.view.read (Elt F) (arg15.view.writes (Elt F) fh
      [(⟨Rect.unit (s := S16384x16) (k0_off2 i) S1024x16.size (k0_off2_inb i hc3), k0_pay4 x0 gs x5⟩ : View.Piece (Elt F) S16384x16 .f32)])
      = rowsUpd (arg15.view.read (Elt F) fh) (k0_off2 i (0 : Fin 2)) 1024 S1024x16.size rfl rfl (k0_pay4 x0 gs x5) :=
    read_writes_rows (size := S1024x16.size) (o := k0_off2 i (0 : Fin 2)) (W := 1024) arg15.view fh (k0_off2_inb i hc3) _ (off2_eq i) rfl rfl
  isplitl [HH]
  · iexists _; isplitr
    swap; · iexact HH
    ipureintro
    sl_unfold_run_names
    simp only [View.readAt_eq_ld, Memref.IsWhole.read_unread, View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
    exact eH
  iexists _; isplitr
  swap; · iexact HO
  ipureintro
  sl_unfold_run_names
  refine (read_writes_unit_zero (S := S4096x16) arg12.view fo hz2 inb_S4096x16_S4096x16_0_0 _).trans ?_
  simp only [View.readAt_eq_ld, Memref.IsWhole.read_unread]
  simp only [View.ld_unit_zero (S := S1x1024x4096) hz3, View.ld_unit_zero (S := S4096x128) hz2, View.ld_unit_zero (S := S128x32) hz2, View.ld_unit_zero (S := S1x32) hz2, View.ld_unit_zero (S := S32x16) hz2, View.ld_unit_zero (S := S1x16) hz2, View.ld_unit_zero (S := S16x64) hz2, View.ld_unit_zero (S := S1x64) hz2, View.ld_unit_zero (S := S4096x16) hz2, View.ld_unit_zero (S := S4096x32) hz2]
  simp only [eH]
  rfl

end Cert.KernelIdeal.Body

end
-- ==== Proof.FrameKI.lean ====
/-
  The frame of the program whose one kernel keeps three scratch arrays between its 32 grid points: the relational proof
  data (every input buffer left as found, the output's buffer named only at the last point), the invariant (the scratch
  arrays at what the points so far made of their entry contents), the body at a generic point from the four runs, the
  launch, and the frame claim's post. Last, the result array after the run: the last point's block.
-/
import proofs.«148102_g22909355557047_cont_8to1_1754_2_alg».proof.Proof.Gen.KernelIdeal.Launch
import proofs.«148102_g22909355557047_cont_8to1_1754_2_alg».proof.Proof.Gen.KernelIdeal.Skeleton
import proofs.«148102_g22909355557047_cont_8to1_1754_2_alg».proof.Proof.Gen.KernelIdeal.Points
import proofs.«148102_g22909355557047_cont_8to1_1754_2_alg».proof.Proof.Gen.KernelIdeal.Frame
import proofs.«148102_g22909355557047_cont_8to1_1754_2_alg».proof.Proof.CarriedKI
import proofs.«148102_g22909355557047_cont_8to1_1754_2_alg».proof.Proof.RunKIa
import proofs.«148102_g22909355557047_cont_8to1_1754_2_alg».proof.Proof.RunKIb
import proofs.«148102_g22909355557047_cont_8to1_1754_2_alg».proof.Proof.RunKIc
import proofs.«148102_g22909355557047_cont_8to1_1754_2_alg».proof.Proof.RunKId
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid: point `t` is (time slice, pass, row panel) = (t / 8, (t / 4) % 2, t % 4) -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ (t.val / 4) % 2 = 0 :=
  (by decide +kernel : ∀ t : Fin grid0.N, k0_cond2 (grid0.coords t) = 1#1 ↔ (t.val / 4) % 2 = 0)
theorem hcond3 : ∀ t : Fin cfg0.N, k0_cond3 (grid0.coords t) = 1#1 ↔ (t.val / 4) % 2 = 1 :=
  (by decide +kernel : ∀ t : Fin grid0.N, k0_cond3 (grid0.coords t) = 1#1 ↔ (t.val / 4) % 2 = 1)
theorem hcond4 : ∀ t : Fin cfg0.N, k0_cond4 (grid0.coords t) = 1#1 ↔ t.val = 31 :=
  (by decide +kernel : ∀ t : Fin grid0.N, k0_cond4 (grid0.coords t) = 1#1 ↔ t.val = 31)

/-! ## The memrefs the body is called with -/

abbrev ms0 (t : Fin cfg0.N) : Memref sig .tc .vmem S1x1024x4096 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S32x16 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S16x64 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S16x64 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S4096x16 .f32 := win0_9.stage (cfg0.slots t 9)
abbrev hms9 (t : Fin cfg0.N) : (ms9 t).IsWhole := hstage0_9 ((cfg0.slots t 9).cast nbuf0_9)
abbrev scY : Memref sig .tc .vmem S4096x32 .f32 := Memref.whole cc0_scratch0
abbrev scG : Memref sig .tc .vmem S4096x16 .bf16 := Memref.whole cc0_scratch1
abbrev scH : Memref sig .tc .vmem S16384x16 .f32 := Memref.whole cc0_scratch2

/-- The class's region invariant: the three scratch arrays owned at some contents, and the generator register. -/
theorem PhiA0_eq (c : Dev nD) :
    (Pipeline.ΦA spec0 c : sProp 𝕄)
      = iprop(iprop((∃ d, owns (c : Thread nD τ) scY fullShare d) ∗ (∃ d, owns (c : Thread nD τ) scG fullShare d) ∗ (∃ d, owns (c : Thread nD τ) scH fullShare d)) ∗ (∃ r, prngReg c r)) := by
  unfold Pipeline.ΦA; rw [scopedRest0_eq]; simp only [scY, scG, scH, owns_whole]; try rfl

/-- The blocks the stores of point `t` read, off the arrays as the region finds them. -/
def blocksAt (c : Dev nD) (t : Fin cfg0.N) : Blocks F :=
  ⟨iblk m c 0 t, iblk m c 1 t, iblk m c 2 t, iblk m c 3 t, iblk m c 4 t, iblk m c 5 t⟩

/-- The invariant before point `n`: for SOME contents `s0` the scratch arrays held at the region's entry, they hold
    what the first `n` points make of it; and the generator register at some state. -/
def PhiS (c : Dev nD) (n : ℕ) : sProp 𝕄 :=
  iprop(∃ s0 : St F, iprop(owns (c : Thread nD τ) scY fullShare (runSt (blocksAt m c) n s0).ys
      ∗ owns (c : Thread nD τ) scG fullShare (runSt (blocksAt m c) n s0).gs
      ∗ owns (c : Thread nD τ) scH fullShare (runSt (blocksAt m c) n s0).hs) ∗ (∃ r, prngReg c r))

/-- What the last point stores into the output block, from contents `s0` of the scratch arrays at entry. -/
def outOf (c : Dev nD) (s0 : St F) : Vec F S4096x16 .f32 :=
  finalPay (iblk m c 8 ⟨31, by decide⟩) (slab0 (runSt (blocksAt m c) 32 s0).hs) (slab1 (runSt (blocksAt m c) 32 s0).hs)
    (slab2 (runSt (blocksAt m c) 32 s0).hs) (slab3 (runSt (blocksAt m c) 32 s0).hs) (iblk m c 6 ⟨31, by decide⟩) (iblk m c 7 ⟨31, by decide⟩)

/-- The relational proof data: the arrays as the region finds them; every input's buffer left as found; of the output's
    buffer nothing is said before the last point, which leaves `outOf` of some entry contents; the invariant `PhiS`. -/
def rdats (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => t.val = 31 → ∃ s0 : St F, X = outOf m c s0
  Φ t := PhiS m c t.val
  q _ := fullShare
  owed _ := 0

theorem A_eq (c : Dev nD) (w : Fin cfg0.W) : (rdats m c).A w = V m c (Pipeline.arrRef spec0 w) := by
  dsimp only [rdats]

/-- Input window 0's buffer holds its block wherever the body is handed it. -/
theorem finds0 (c : Dev nD) (t : Fin cfg0.N) (Y) (hY : (rdats m c).Finds 0 t Y) : Y = iblk m c 0 t := by
  obtain ⟨d, hd⟩ := (rdats m c).finds_in_eq_fetched 0 rfl (fun _ _ _ => rfl) (fun _ _ _ h => h) t Y hY
  rw [hd]; unfold RDat.fetched RDat.blockOf iblk; rw [A_eq]; try rfl
/-- Input window 1's buffer holds its block wherever the body is handed it. -/
theorem finds1 (c : Dev nD) (t : Fin cfg0.N) (Y) (hY : (rdats m c).Finds 1 t Y) : Y = iblk m c 1 t := by
  obtain ⟨d, hd⟩ := (rdats m c).finds_in_eq_fetched 1 rfl (fun _ _ _ => rfl) (fun _ _ _ h => h) t Y hY
  rw [hd]; unfold RDat.fetched RDat.blockOf iblk; rw [A_eq]; try rfl
/-- Input window 2's buffer holds its block wherever the body is handed it. -/
theorem finds2 (c : Dev nD) (t : Fin cfg0.N) (Y) (hY : (rdats m c).Finds 2 t Y) : Y = iblk m c 2 t := by
  obtain ⟨d, hd⟩ := (rdats m c).finds_in_eq_fetched 2 rfl (fun _ _ _ => rfl) (fun _ _ _ h => h) t Y hY
  rw [hd]; unfold RDat.fetched RDat.blockOf iblk; rw [A_eq]; try rfl
/-- Input window 3's buffer holds its block wherever the body is handed it. -/
theorem finds3 (c : Dev nD) (t : Fin cfg0.N) (Y) (hY : (rdats m c).Finds 3 t Y) : Y = iblk m c 3 t := by
  obtain ⟨d, hd⟩ := (rdats m c).finds_in_eq_fetched 3 rfl (fun _ _ _ => rfl) (fun _ _ _ h => h) t Y hY
  rw [hd]; unfold RDat.fetched RDat.blockOf iblk; rw [A_eq]; try rfl
/-- Input window 4's buffer holds its block wherever the body is handed it. -/
theorem finds4 (c : Dev nD) (t : Fin cfg0.N) (Y) (hY : (rdats m c).Finds 4 t Y) : Y = iblk m c 4 t := by
  obtain ⟨d, hd⟩ := (rdats m c).finds_in_eq_fetched 4 rfl (fun _ _ _ => rfl) (fun _ _ _ h => h) t Y hY
  rw [hd]; unfold RDat.fetched RDat.blockOf iblk; rw [A_eq]; try rfl
/-- Input window 5's buffer holds its block wherever the body is handed it. -/
theorem finds5 (c : Dev nD) (t : Fin cfg0.N) (Y) (hY : (rdats m c).Finds 5 t Y) : Y = iblk m c 5 t := by
  obtain ⟨d, hd⟩ := (rdats m c).finds_in_eq_fetched 5 rfl (fun _ _ _ => rfl) (fun _ _ _ h => h) t Y hY
  rw [hd]; unfold RDat.fetched RDat.blockOf iblk; rw [A_eq]; try rfl
/-- Input window 6's buffer holds its block wherever the body is handed it. -/
theorem finds6 (c : Dev nD) (t : Fin cfg0.N) (Y) (hY : (rdats m c).Finds 6 t Y) : Y = iblk m c 6 t := by
  obtain ⟨d, hd⟩ := (rdats m c).finds_in_eq_fetched 6 rfl (fun _ _ _ => rfl) (fun _ _ _ h => h) t Y hY
  rw [hd]; unfold RDat.fetched RDat.blockOf iblk; rw [A_eq]; try rfl
/-- Input window 7's buffer holds its block wherever the body is handed it. -/
theorem finds7 (c : Dev nD) (t : Fin cfg0.N) (Y) (hY : (rdats m c).Finds 7 t Y) : Y = iblk m c 7 t := by
  obtain ⟨d, hd⟩ := (rdats m c).finds_in_eq_fetched 7 rfl (fun _ _ _ => rfl) (fun _ _ _ h => h) t Y hY
  rw [hd]; unfold RDat.fetched RDat.blockOf iblk; rw [A_eq]; try rfl
/-- Input window 8's buffer holds its block wherever the body is handed it. -/
theorem finds8 (c : Dev nD) (t : Fin cfg0.N) (Y) (hY : (rdats m c).Finds 8 t Y) : Y = iblk m c 8 t := by
  obtain ⟨d, hd⟩ := (rdats m c).finds_in_eq_fetched 8 rfl (fun _ _ _ => rfl) (fun _ _ _ h => h) t Y hY
  rw [hd]; unfold RDat.fetched RDat.blockOf iblk; rw [A_eq]; try rfl

/-! ## The body at a generic point -/

set_option maxHeartbeats 4000000 in
/-- The body at any point `t`, its input buffers at their blocks and the output's buffer at anything: the grid's closed
    forms say which of the four cases the point is in, that case's run applies, the invariant hands it the scratch arrays
    at what the points before made of the entry contents and takes them back one point later. -/
theorem sound_body (c : Dev nD) (t : Fin cfg0.N) (o : Vec F S4096x16 .f32) :
    iprop(PhiS m c t.val ∗ (rdats m c).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare o)
      ⊢ wp frame (wpE (defs₀ (F := F)) Variants.none c none) Set.univ (bodyAt0 t) (fun _ =>
          iprop(PhiS m c (t.val + 1) ∗ (rdats m c).owesAt () t.castSucc
            ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t)
            ∗ (∃ X, ⌜t.val = 31 → ∃ s0 : St F, X = outOf m c s0⌝ ∗ owns (c : Thread nD τ) (ms9 t) fullShare X))) := by
  unfold PhiS bodyAt0
  have hN : t.val < 32 := lt_of_lt_of_eq t.isLt N_0
  iintro ⟨⟨%s0, ⟨HY, HG, HH⟩, Hg⟩, Ho, H0, H1, H2, H3, H4, H5, H6, H7, H8, H9⟩
  by_cases h1 : t.val = 0
  · have hc1 : cond1 (grid0.coords t) := (hcond1 t).mpr h1
    have hc2 : k0_cond2 (grid0.coords t) = 1#1 := (hcond2 t).mpr (by omega)
    have hc3 : ¬k0_cond3 (grid0.coords t) = 1#1 := fun h => by have := (hcond3 t).mp h; omega
    have hc4 : ¬k0_cond4 (grid0.coords t) = 1#1 := fun h => by have := (hcond4 t).mp h; omega
    have eS : runSt (blocksAt m c) (t.val + 1) s0
        = ⟨k0_pay1 (iblk m c 1 t) (iblk m c 2 t),
            rowsUpd (runSt (blocksAt m c) t.val s0).gs (k0_off1 (grid0.coords t) (0 : Fin 2)) 1024 S1024x16.size rfl rfl
              (k0_pay3 (iblk m c 0 t) (k0_pay1 (iblk m c 1 t) (iblk m c 2 t)) (iblk m c 3 t) (iblk m c 4 t)),
            (runSt (blocksAt m c) t.val s0).hs⟩ := by
      rw [runSt_succ]; unfold stepSt; simp only [if_pos hc1, if_pos hc2, if_neg hc3]; rfl
    iapply (runA c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [HY]; · iexact HY
    isplitl [HG]; · iexact HG
    iintro ⟨H0, H1, H2, H3, H4, HY, HG⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; omega
    iexact H9
  by_cases h4 : t.val = 31
  · have hc1 : ¬cond1 (grid0.coords t) := fun h => h1 ((hcond1 t).mp h)
    have hc2 : ¬k0_cond2 (grid0.coords t) = 1#1 := fun h => by have := (hcond2 t).mp h; omega
    have hc3 : k0_cond3 (grid0.coords t) = 1#1 := (hcond3 t).mpr (by omega)
    have hc4 : k0_cond4 (grid0.coords t) = 1#1 := (hcond4 t).mpr h4
    have eS : runSt (blocksAt m c) (t.val + 1) s0
        = ⟨(runSt (blocksAt m c) t.val s0).ys, (runSt (blocksAt m c) t.val s0).gs,
            rowsUpd (runSt (blocksAt m c) t.val s0).hs (k0_off2 (grid0.coords t) (0 : Fin 2)) 1024 S1024x16.size rfl rfl
              (k0_pay4 (iblk m c 0 t) (runSt (blocksAt m c) t.val s0).gs (iblk m c 5 t))⟩ := by
      rw [runSt_succ]; unfold stepSt; simp only [if_neg hc1, if_neg hc2, if_pos hc3]; rfl
    have eT : t = ⟨31, by decide⟩ := Fin.ext h4
    have eO : outOf m c s0 = finalPay (iblk m c 8 t) (slab0 (runSt (blocksAt m c) (t.val + 1) s0).hs) (slab1 (runSt (blocksAt m c) (t.val + 1) s0).hs)
        (slab2 (runSt (blocksAt m c) (t.val + 1) s0).hs) (slab3 (runSt (blocksAt m c) (t.val + 1) s0).hs) (iblk m c 6 t) (iblk m c 7 t) := by
      subst eT; rfl
    rw [eS] at eO
    iapply (runD c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 5 t) (iblk m c 6 t) (iblk m c 7 t) (iblk m c 8 t) o _ _ Set.univ _)
    isplitl [H0]; · iexact H0
    isplitl [H5]; · iexact H5
    isplitl [H6]; · iexact H6
    isplitl [H7]; · iexact H7
    isplitl [H8]; · iexact H8
    isplitl [H9]; · iexact H9
    isplitl [HG]; · iexact HG
    isplitl [HH]; · iexact HH
    iintro ⟨H0, H5, H6, H7, H8, HG, HH, H9⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr
    · ipureintro; exact fun _ => ⟨s0, eO.symm⟩
    iexact H9
  by_cases h2 : (t.val / 4) % 2 = 0
  · have hc1 : ¬cond1 (grid0.coords t) := fun h => h1 ((hcond1 t).mp h)
    have hc2 : k0_cond2 (grid0.coords t) = 1#1 := (hcond2 t).mpr h2
    have hc3 : ¬k0_cond3 (grid0.coords t) = 1#1 := fun h => by have := (hcond3 t).mp h; omega
    have hc4 : ¬k0_cond4 (grid0.coords t) = 1#1 := fun h => h4 ((hcond4 t).mp h)
    have eS : runSt (blocksAt m c) (t.val + 1) s0
        = ⟨(runSt (blocksAt m c) t.val s0).ys,
            rowsUpd (runSt (blocksAt m c) t.val s0).gs (k0_off1 (grid0.coords t) (0 : Fin 2)) 1024 S1024x16.size rfl rfl
              (k0_pay3 (iblk m c 0 t) (runSt (blocksAt m c) t.val s0).ys (iblk m c 3 t) (iblk m c 4 t)),
            (runSt (blocksAt m c) t.val s0).hs⟩ := by
      rw [runSt_succ]; unfold stepSt; simp only [if_neg hc1, if_pos hc2, if_neg hc3]; rfl
    iapply (runB c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 3 t) (iblk m c 4 t) _ _ Set.univ _)
    isplitl [H0]; · iexact H0
    isplitl [H3]; · iexact H3
    isplitl [H4]; · iexact H4
    isplitl [HY]; · iexact HY
    isplitl [HG]; · iexact HG
    iintro ⟨H0, H3, H4, HY, HG⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; exact absurd h h4
    iexact H9
  · have hc1 : ¬cond1 (grid0.coords t) := fun h => h1 ((hcond1 t).mp h)
    have hc2 : ¬k0_cond2 (grid0.coords t) = 1#1 := fun h => h2 ((hcond2 t).mp h)
    have hc3 : k0_cond3 (grid0.coords t) = 1#1 := (hcond3 t).mpr (by omega)
    have hc4 : ¬k0_cond4 (grid0.coords t) = 1#1 := fun h => h4 ((hcond4 t).mp h)
    have eS : runSt (blocksAt m c) (t.val + 1) s0
        = ⟨(runSt (blocksAt m c) t.val s0).ys, (runSt (blocksAt m c) t.val s0).gs,
            rowsUpd (runSt (blocksAt m c) t.val s0).hs (k0_off2 (grid0.coords t) (0 : Fin 2)) 1024 S1024x16.size rfl rfl
              (k0_pay4 (iblk m c 0 t) (runSt (blocksAt m c) t.val s0).gs (iblk m c 5 t))⟩ := by
      rw [runSt_succ]; unfold stepSt; simp only [if_neg hc1, if_neg hc2, if_pos hc3]; rfl
    iapply (runC c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scY (Memref.isWhole_whole _) scG (Memref.isWhole_whole _) scH (Memref.isWhole_whole _) hc1 hc2 hc3 hc4 (iblk m c 0 t) (iblk m c 5 t) _ _ Set.univ _)
    isplitl [H0]; · iexact H0
    isplitl [H5]; · iexact H5
    isplitl [HG]; · iexact HG
    isplitl [HH]; · iexact HH
    iintro ⟨H0, H5, HG, HH⟩
    isplitl [HY HG HH Hg]
    · iexists s0; rw [eS]; isplitl [HY HG HH]
      · isplitl [HY]; · iexact HY
        isplitl [HG]; · iexact HG
        iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists o; isplitr
    · ipureintro; intro h; exact absurd h h4
    iexact H9

/-! ## The body obligation, the launch, the frame -/

/-- The library's body obligation of the relational data, at every point. -/
theorem body_obligation (c : Dev nD) : (rdats (F := F) m c).BodyObligation (defs₀ (F := F)) Variants.none () Set.univ := fun t Y hY => by
  rw [bigSep_W0, bigSep_W0]
  have e0 := finds0 m c t (Y 0) (hY 0); have e1 := finds1 m c t (Y 1) (hY 1); have e2 := finds2 m c t (Y 2) (hY 2)
  have e3 := finds3 m c t (Y 3) (hY 3); have e4 := finds4 m c t (Y 4) (hY 4); have e5 := finds5 m c t (Y 5) (hY 5)
  have e6 := finds6 m c t (Y 6) (hY 6); have e7 := finds7 m c t (Y 7) (hY 7); have e8 := finds8 m c t (Y 8) (hY 8)
  rw [e0, e1, e2, e3, e4, e5, e6, e7, e8]
  refine (sound_body m c t (Y 9)).trans (wp_mono _ _ _ fun _ => ?_)
  dsimp only [rdats]
  iintro ⟨HΦ, Ho, H0, H1, H2, H3, H4, H5, H6, H7, H8, ⟨%X, %hX, H9⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  iexists X; isplitr; · ipureintro; exact hX
  iexact H9

/-- What the launch hands the region is the invariant before the first point, at whatever the scratch arrays hold. -/
theorem hin (c : Dev nD) : Pipeline.ΦA spec0 c ⊢ (rdats (F := F) m c).Φ 0 := by
  show _ ⊢ PhiS m c 0
  rw [PhiA0_eq]; unfold PhiS
  iintro ⟨⟨⟨%y, HY⟩, ⟨%g, HG⟩, ⟨%h, HH⟩⟩, Hg⟩
  iexists (⟨y, g, h⟩ : St F)
  isplitl [HY HG HH]
  · isplitl [HY]; · iexact HY
    isplitl [HG]; · iexact HG
    iexact HH
  iexact Hg

/-- After the last point the invariant gives the class's back: the scratch arrays' named contents are forgotten. -/
theorem hout (c : Dev nD) : (rdats (F := F) m c).Φ (Fin.last cfg0.N) ⊢ Pipeline.ΦA spec0 c := by
  show PhiS m c _ ⊢ _
  rw [PhiA0_eq]; unfold PhiS
  iintro ⟨%s0, ⟨HY, HG, HH⟩, Hg⟩
  isplitl [HY HG HH]
  · isplitl [HY]; · iexists _; iexact HY
    isplitl [HG]; · iexists _; iexact HG
    iexists _; iexact HH
  iexact Hg

theorem share_full (c : Dev nD) (w : Fin cfg0.W) : (rdats (F := F) m c).share w = fullShare := by
  unfold RDat.share; split <;> rfl

set_option backward.isDefEq.respectTransparency.types false in
/-- At the compiled mesh, for any values, from any memory with zero counters: every weakly fair execution of @main
    terminates, every array of the pipeline at some contents the relational data allows after every write-back, every
    other unscoped buffer as the region found it. -/
theorem run_main : θ_run defs (onTc (τ := τ) (main (F := F))) (s₀ m ρ) (Pipeline.RDat.FramePost cfg0 (rdats m) (V m)) :=
  Pipeline.RDat.θ_run_frame_track cfgs (0 : Fin 1) launch0 defs₀ Variants.none (rdats m) m ρ main
    (hbody := fun c => body_obligation m c) (hshare := share_full m)
    (howed := fun _ _ => rfl) (V := V m) (hmain := hmain m Variants.none) (hA := A_eq m) (hin := hin m) (hout := hout m)

/-- An input array ends as the region found it. -/
theorem arr_in (c : Dev nD) (w : Fin cfg0.W) (hw : (cfg0.win w).isOut = false)
    (G : Buf (Elt F) ((cfg0.win w).arr.view.loc (c.tc : Thread nD τ))) (h : (rdats m c).ArrAt w cfg0.N G) :
    G = V m c (Pipeline.arrRef spec0 w) := by
  rw [(rdats m c).ArrAt_in w hw] at h; exact h.trans (A_eq m c w)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      (arr_in m c 0 rfl _ ((h c).1 0)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c),
      (arr_in m c 6 rfl _ ((h c).1 6)).trans (V_main_arg6 m c),
      (arr_in m c 7 rfl _ ((h c).1 7)).trans (V_main_arg7 m c),
      ((h c).2 main_arg8 (Pipeline.mem_restRefs_of main_arg8 (by decide) (by decide))).trans (V_main_arg8 m c)⟩) (run_main m ρ)

/-! ## The result array after the run -/

/-- The last grid point. -/
abbrev tLast : Fin cfg0.N := ⟨31, by decide⟩

/-- The last point's write-back is the only one: the result array's block there (the whole array) ends at what the last
    point stored, `outOf` of SOME entry contents of the scratch arrays. -/
theorem out_of_post (c : Dev nD) (G : Buf (Elt F) ((cfg0.win 9).arr.view.loc (c.tc : Thread nD τ)))
    (h : (rdats m c).ArrAt 9 cfg0.N G) :
    ∃ s0 : St F, ((cfg0.win 9).blk tLast).view.read (Elt F) G = outOf m c s0 := by
  have h' : (rdats m c).ArrAt 9 (tLast.val + 1) G := h
  rw [(rdats m c).ArrAt_succ 9 tLast, if_pos ((flush0_9 tLast).mpr (by decide))] at h'
  obtain ⟨G₀, X, -, ⟨Y, -, hYX⟩, rfl⟩ := h'
  dsimp only [rdats] at hYX
  obtain ⟨s0, rfl⟩ := hYX rfl
  exact ⟨s0, View.read_write_univ _ _⟩

/-- The run with the result named: every weakly fair execution terminates, the result array's one block at `outOf` of some
    entry contents of the scratch arrays, the argument arrays unchanged. -/
theorem run_value : θ_run defs (onTc (τ := τ) (main (F := F))) ⟨m, fun _ => 0, ρ⟩ (fun r => ∀ c : Dev nD,
      (∃ s0 : St F, ((cfg0.win 9).blk tLast).view.read (Elt F) (r.2.mem ((c.tc : Thread nD τ).loc main_v0)) = outOf m c s0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨out_of_post m c _ ((h c).1 9),
      ((h c).2 main_arg0 (Pipeline.mem_restRefs_of main_arg0 (by decide) (by decide))).trans (V_main_arg0 m c),
      (arr_in m c 0 rfl _ ((h c).1 0)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c),
      (arr_in m c 6 rfl _ ((h c).1 6)).trans (V_main_arg6 m c),
      (arr_in m c 7 rfl _ ((h c).1 7)).trans (V_main_arg7 m c),
      ((h c).2 main_arg8 (Pipeline.mem_restRefs_of main_arg8 (by decide) (by decide))).trans (V_main_arg8 m c)⟩) (run_main m ρ)

end Cert.KernelIdeal.Body

end
-- ==== Proof.RefFrame.lean ====
/- The reference program's side of the certificate, read off its run.
   The reference is a straight line of 253 whole-array operations. Its run terminates on every device with each argument
   array unchanged and the result array equal to the composition of those operations applied to the nine argument arrays.
   (a) `frame_ri`: the run with the result forgotten is the frame claim: termination, arguments unchanged.
   (b) `ref_result`: the same run with the result named by the staged reading of the program: the result array is the
       last stage (the row-wise normalization `e / Σ e` of the soft-max) of the chain of stages, one per operation, each a
       function of the argument arrays alone, which the index-by-index lemmas read at an index. -/
import proofs.«148102_g22909355557047_cont_8to1_1754_2_alg».proof.Defs
import proofs.«148102_g22909355557047_cont_8to1_1754_2_alg».proof.Proof.Gen.ReferenceIdeal
import proofs.«148102_g22909355557047_cont_8to1_1754_2_alg».proof.Proof.Gen.Pre_finite_inputs
import proofs.«148102_g22909355557047_cont_8to1_1754_2_alg».proof.Proof.RefRunP
import proofs.«148102_g22909355557047_cont_8to1_1754_2_alg».proof.Proof.RefReadP
import proofs.«148102_g22909355557047_cont_8to1_1754_2_alg».proof.Proof.RefReadEqP

noncomputable section

namespace Cert.RefSide

open Idealize.ShloMosaic Idealize.SL.Sem

/-- The reference terminates with its nine argument arrays unchanged: its run, the result's conjunct dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's run with its result stated by stages: from any memory `m` with zero counters, every weakly fair
    execution terminates, on each device the result array is the last stage of the staged program at the nine argument
    arrays as `m` holds them, and those arrays are unchanged. -/
theorem ref_result (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v215)
        = Cert.ReferenceIdeal.ReadP.val_main_v215 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run Cert.ReferenceIdeal.defs _ _).mono
    (fun _ h c => ⟨(h c).1.trans (Cert.ReferenceIdeal.ReadP.val_main_v215_eq m c), (h c).2⟩)
    (Cert.ReferenceIdeal.ValueP.run (F := Ideal) m g)

end Cert.RefSide

end
-- ==== Proof.BlocksKI.lean ====
/- The kernel's input windows and its output window, read at an index.
   The kernel runs over a grid of 4 x 2 x 4 = 32 points; point t has coordinates (t / 8, (t / 4) % 2, t % 4): the time slice,
   the layer phase, the panel of 1024 rows. Ten arrays are staged block by block:
   window 0 is the [4,4096,4096] adjacency, in blocks [1,1024,4096]: at point t the block holds rows
     (t % 4) * 1024 … (t % 4) * 1024 + 1023 of time slice t / 8;
   windows 1 … 8 are the whole arrays of the features' last time step (the [4096,4,128] argument at time step 3, as a
     [4096,128] matrix), the two layers' weights [128,32], [32,16] and biases (vectors of 32 and 16 entries, each as one
     row), the recurrent cell's two [16,64] weights and its bias (64 entries as one row): the same block at every point;
   window 9 is the whole [4096,16] result.
   Each lemma `bW` says which entry of which argument array an entry of window W's block at point t is; `out9` says that
   reading the result array through window 9's block is reading the array. All hold for any float values. -/
import proofs.«148102_g22909355557047_cont_8to1_1754_2_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem t_lt (t : Fin cfg0.N) : t.val < 32 := lt_of_lt_of_eq t.isLt N_0

/-- The grid's 32 points in row-major order: point `t` has coordinates (t / 8, (t / 4) % 2, t % 4). -/
theorem coords_t : ∀ t : Fin grid0.N, ((grid0.coords t) 0).val = t.val / 8 ∧ ((grid0.coords t) 1).val = (t.val / 4) % 2
    ∧ ((grid0.coords t) 2).val = t.val % 4 := by
  decide +kernel

/-! ## Window 0: the adjacency, one time slice and one panel of 1024 rows per grid point -/

theorem idx0 : ∀ t : Fin grid0.N, win0_0.index t 0 = t.val / 8 ∧ win0_0.index t 1 = t.val % 4 ∧ win0_0.index t 2 = 0 := by
  decide +kernel

/-- At grid point `t` (coordinates (t / 8, (t / 4) % 2, t % 4)) window 0 holds rows (t % 4)·1024 … + 1023 of time slice
    t / 8 of the [4,4096,4096] adjacency `main_arg1`. -/
theorem b0 (c : Dev nD) (t : Fin cfg0.N) (p : Fin 1024) (j : Fin 4096) :
    (iblk m c 0 t : S1x1024x4096.Idx → Elt F .f32) (ix3 0 p j)
      = (m ((c.tc : Thread nD τ).loc main_arg1) : S4x4096x4096.Idx → Elt F .f32)
          (ix3 ⟨t.val / 8, by have := t_lt t; omega⟩ ⟨(t.val % 4) * 1024 + p.val, by have := p.isLt; omega⟩ j) := by
  obtain ⟨h0, h1, h2⟩ := idx0 t
  unfold iblk
  rw [View.read_apply]
  show V m c main_arg1 _ = _
  rw [V_main_arg1]
  refine congrArg _ (funext fun a => Fin.ext ?_)
  match a with
  | ⟨0, _⟩ => show win0_0.index t 0 * 1 + 1 * 0 = t.val / 8; rw [h0]; omega
  | ⟨1, _⟩ => show win0_0.index t 1 * 1024 + 1 * p.val = (t.val % 4) * 1024 + p.val; rw [h1]; omega
  | ⟨2, _⟩ => show win0_0.index t 2 * 4096 + 1 * j.val = j.val; rw [h2]; omega

/-! ## Window 1: the last time step of the features, as a [4096,128] matrix -/

theorem idx1 : ∀ t : Fin grid0.N, win0_1.index t 0 = 0 ∧ win0_1.index t 1 = 0 := by decide +kernel

/-- The [4096,128] array `main_call0_v1` the region finds is time step 3 of the [4096,4,128] array `main_arg0`, the unit
    axis dropped. -/
theorem V_main_call0_v1 (c : Dev nD) : (V m c main_call0_v1 : S4096x128.Idx → Elt F .f32)
    = shapeCast S4096x128 (extractStridedSlice S4096x1x128 ![0, 3, 0]
        (m ((c.tc : Thread nD τ).loc main_arg0) : S4096x4x128.Idx → Elt F .f32) slices_S4096x4x128_S4096x1x128_0_3_0)
        shapeCasts_S4096x1x128_S4096x128 := by
  dsimp only [Gen.V, Gen.hostOps0]; after_results; rfl

/-- Window 1 is that whole matrix at every grid point: entry (i, d) is entry (i, 3, d) of `main_arg0`. -/
theorem b1 (c : Dev nD) (t : Fin cfg0.N) (i : Fin 4096) (d : Fin 128) :
    (iblk m c 1 t : S4096x128.Idx → Elt F .f32) (ix2 i d)
      = (m ((c.tc : Thread nD τ).loc main_arg0) : S4096x4x128.Idx → Elt F .f32) (ix3 i 3 d) := by
  obtain ⟨h0, h1⟩ := idx1 t
  have e : ∀ y : S4096x128.Idx, (y 0).val = i.val → (y 1).val = d.val →
      (V m c main_call0_v1 : S4096x128.Idx → Elt F .f32) y
        = (m ((c.tc : Thread nD τ).loc main_arg0) : S4096x4x128.Idx → Elt F .f32) (ix3 i 3 d) := by
    intro y hy0 hy1
    rw [V_main_call0_v1]
    rw [shapeCast_apply _ shapeCasts_S4096x1x128_S4096x128 y (ix3 i 0 d)
      (by rewrite [Shape.rowMajor_val_three, Shape.rowMajor_val_two]
          have hd : d.val < 128 := d.isLt
          show (i.val * 1 + 0) * 128 + d.val = (y 0).val * 128 + (y 1).val; rw [hy0, hy1]; omega)]
    exact extractStridedSlice_apply ![0, 3, 0] _ slices_S4096x4x128_S4096x1x128_0_3_0 (ix3 i 0 d) (ix3 i 3 d) (fun a => match a with
      | ⟨0, _⟩ => by show i.val = 0 + i.val; omega
      | ⟨1, _⟩ => by show 3 = 3 + 0; rfl
      | ⟨2, _⟩ => by show d.val = 0 + d.val; omega)
  unfold iblk
  rw [View.read_apply]
  show V m c main_call0_v1 _ = _
  refine e _ ?_ ?_
  · show win0_1.index t 0 * 4096 + 1 * i.val = i.val; rw [h0]; omega
  · show win0_1.index t 1 * 128 + 1 * d.val = d.val; rw [h1]; omega

/-! ## Windows 2 … 8: the weights and biases, whole at every grid point -/

theorem idx2 : ∀ t : Fin grid0.N, win0_2.index t 0 = 0 ∧ win0_2.index t 1 = 0 := by decide +kernel

/-- Window 2 is the whole [128,32] array `main_arg2`, at every grid point. -/
theorem b2 (c : Dev nD) (t : Fin cfg0.N) (d : Fin 128) (k : Fin 32) :
    (iblk m c 2 t : S128x32.Idx → Elt F .f32) (ix2 d k)
      = (m ((c.tc : Thread nD τ).loc main_arg2) : S128x32.Idx → Elt F .f32) (ix2 d k) := by
  obtain ⟨h0, h1⟩ := idx2 t
  unfold iblk
  rw [View.read_apply]
  show V m c main_arg2 _ = _
  rw [V_main_arg2]
  refine congrArg _ (funext fun a => Fin.ext ?_)
  match a with
  | ⟨0, _⟩ => show win0_2.index t 0 * 128 + 1 * d.val = d.val; rw [h0]; omega
  | ⟨1, _⟩ => show win0_2.index t 1 * 32 + 1 * k.val = k.val; rw [h1]; omega

theorem idx3 : ∀ t : Fin grid0.N, win0_3.index t 0 = 0 ∧ win0_3.index t 1 = 0 := by decide +kernel

/-- The [1,32] array `main_call0_v2` the region finds is the vector `main_arg3` laid out as one row. -/
theorem V_main_call0_v2 (c : Dev nD) : (V m c main_call0_v2 : S1x32.Idx → Elt F .f32)
    = shapeCast S1x32 (m ((c.tc : Thread nD τ).loc main_arg3) : S32.Idx → Elt F .f32) shapeCasts_S32_S1x32 := by
  dsimp only [Gen.V, Gen.hostOps0]; after_results; rfl

/-- Window 3 is that whole one-row array at every grid point: entry (0, k) is entry k of the vector `main_arg3`. -/
theorem b3 (c : Dev nD) (t : Fin cfg0.N) (k : Fin 32) :
    (iblk m c 3 t : S1x32.Idx → Elt F .f32) (ix2 0 k)
      = (m ((c.tc : Thread nD τ).loc main_arg3) : S32.Idx → Elt F .f32) (ix1 k) := by
  obtain ⟨h0, h1⟩ := idx3 t
  have e : ∀ y : S1x32.Idx, (y 1).val = k.val →
      (V m c main_call0_v2 : S1x32.Idx → Elt F .f32) y = (m ((c.tc : Thread nD τ).loc main_arg3) : S32.Idx → Elt F .f32) (ix1 k) := by
    intro y hy
    rw [V_main_call0_v2]
    exact shapeCast_apply _ shapeCasts_S32_S1x32 y (ix1 k)
      (by rewrite [Shape.rowMajor_val_one, Shape.rowMajor_val_two]
          have hy0 : (y 0).val < 1 := (y 0).isLt
          show k.val = (y 0).val * 32 + (y 1).val; omega)
  unfold iblk
  rw [View.read_apply]
  show V m c main_call0_v2 _ = _
  refine e _ ?_
  show win0_3.index t 1 * 32 + 1 * k.val = k.val; rw [h1]; omega

theorem idx4 : ∀ t : Fin grid0.N, win0_4.index t 0 = 0 ∧ win0_4.index t 1 = 0 := by decide +kernel

/-- Window 4 is the whole [32,16] array `main_arg4`, at every grid point. -/
theorem b4 (c : Dev nD) (t : Fin cfg0.N) (k : Fin 32) (q : Fin 16) :
    (iblk m c 4 t : S32x16.Idx → Elt F .f32) (ix2 k q)
      = (m ((c.tc : Thread nD τ).loc main_arg4) : S32x16.Idx → Elt F .f32) (ix2 k q) := by
  obtain ⟨h0, h1⟩ := idx4 t
  unfold iblk
  rw [View.read_apply]
  show V m c main_arg4 _ = _
  rw [V_main_arg4]
  refine congrArg _ (funext fun a => Fin.ext ?_)
  match a with
  | ⟨0, _⟩ => show win0_4.index t 0 * 32 + 1 * k.val = k.val; rw [h0]; omega
  | ⟨1, _⟩ => show win0_4.index t 1 * 16 + 1 * q.val = q.val; rw [h1]; omega

theorem idx5 : ∀ t : Fin grid0.N, win0_5.index t 0 = 0 ∧ win0_5.index t 1 = 0 := by decide +kernel

/-- The [1,16] array `main_call0_v3` the region finds is the vector `main_arg5` laid out as one row. -/
theorem V_main_call0_v3 (c : Dev nD) : (V m c main_call0_v3 : S1x16.Idx → Elt F .f32)
    = shapeCast S1x16 (m ((c.tc : Thread nD τ).loc main_arg5) : S16.Idx → Elt F .f32) shapeCasts_S16_S1x16 := by
  dsimp only [Gen.V, Gen.hostOps0]; after_results; rfl

/-- Window 5 is that whole one-row array at every grid point: entry (0, q) is entry q of the vector `main_arg5`. -/
theorem b5 (c : Dev nD) (t : Fin cfg0.N) (q : Fin 16) :
    (iblk m c 5 t : S1x16.Idx → Elt F .f32) (ix2 0 q)
      = (m ((c.tc : Thread nD τ).loc main_arg5) : S16.Idx → Elt F .f32) (ix1 q) := by
  obtain ⟨h0, h1⟩ := idx5 t
  have e : ∀ y : S1x16.Idx, (y 1).val = q.val →
      (V m c main_call0_v3 : S1x16.Idx → Elt F .f32) y = (m ((c.tc : Thread nD τ).loc main_arg5) : S16.Idx → Elt F .f32) (ix1 q) := by
    intro y hy
    rw [V_main_call0_v3]
    exact shapeCast_apply _ shapeCasts_S16_S1x16 y (ix1 q)
      (by rewrite [Shape.rowMajor_val_one, Shape.rowMajor_val_two]
          have hy0 : (y 0).val < 1 := (y 0).isLt
          show q.val = (y 0).val * 16 + (y 1).val; omega)
  unfold iblk
  rw [View.read_apply]
  show V m c main_call0_v3 _ = _
  refine e _ ?_
  show win0_5.index t 1 * 16 + 1 * q.val = q.val; rw [h1]; omega

theorem idx6 : ∀ t : Fin grid0.N, win0_6.index t 0 = 0 ∧ win0_6.index t 1 = 0 := by decide +kernel

/-- Window 6 is the whole [16,64] array `main_arg6`, at every grid point. -/
theorem b6 (c : Dev nD) (t : Fin cfg0.N) (d : Fin 16) (q : Fin 64) :
    (iblk m c 6 t : S16x64.Idx → Elt F .f32) (ix2 d q)
      = (m ((c.tc : Thread nD τ).loc main_arg6) : S16x64.Idx → Elt F .f32) (ix2 d q) := by
  obtain ⟨h0, h1⟩ := idx6 t
  unfold iblk
  rw [View.read_apply]
  show V m c main_arg6 _ = _
  rw [V_main_arg6]
  refine congrArg _ (funext fun a => Fin.ext ?_)
  match a with
  | ⟨0, _⟩ => show win0_6.index t 0 * 16 + 1 * d.val = d.val; rw [h0]; omega
  | ⟨1, _⟩ => show win0_6.index t 1 * 64 + 1 * q.val = q.val; rw [h1]; omega

theorem idx7 : ∀ t : Fin grid0.N, win0_7.index t 0 = 0 ∧ win0_7.index t 1 = 0 := by decide +kernel

/-- Window 7 is the whole [16,64] array `main_arg7`, at every grid point. -/
theorem b7 (c : Dev nD) (t : Fin cfg0.N) (d : Fin 16) (q : Fin 64) :
    (iblk m c 7 t : S16x64.Idx → Elt F .f32) (ix2 d q)
      = (m ((c.tc : Thread nD τ).loc main_arg7) : S16x64.Idx → Elt F .f32) (ix2 d q) := by
  obtain ⟨h0, h1⟩ := idx7 t
  unfold iblk
  rw [View.read_apply]
  show V m c main_arg7 _ = _
  rw [V_main_arg7]
  refine congrArg _ (funext fun a => Fin.ext ?_)
  match a with
  | ⟨0, _⟩ => show win0_7.index t 0 * 16 + 1 * d.val = d.val; rw [h0]; omega
  | ⟨1, _⟩ => show win0_7.index t 1 * 64 + 1 * q.val = q.val; rw [h1]; omega

theorem idx8 : ∀ t : Fin grid0.N, win0_8.index t 0 = 0 ∧ win0_8.index t 1 = 0 := by decide +kernel

/-- The [1,64] array `main_call0_v4` the region finds is the vector `main_arg8` laid out as one row. -/
theorem V_main_call0_v4 (c : Dev nD) : (V m c main_call0_v4 : S1x64.Idx → Elt F .f32)
    = shapeCast S1x64 (m ((c.tc : Thread nD τ).loc main_arg8) : S64.Idx → Elt F .f32) shapeCasts_S64_S1x64 := by
  dsimp only [Gen.V, Gen.hostOps0]; after_results; rfl

/-- Window 8 is that whole one-row array at every grid point: entry (0, q) is entry q of the vector `main_arg8`. -/
theorem b8 (c : Dev nD) (t : Fin cfg0.N) (q : Fin 64) :
    (iblk m c 8 t : S1x64.Idx → Elt F .f32) (ix2 0 q)
      = (m ((c.tc : Thread nD τ).loc main_arg8) : S64.Idx → Elt F .f32) (ix1 q) := by
  obtain ⟨h0, h1⟩ := idx8 t
  have e : ∀ y : S1x64.Idx, (y 1).val = q.val →
      (V m c main_call0_v4 : S1x64.Idx → Elt F .f32) y = (m ((c.tc : Thread nD τ).loc main_arg8) : S64.Idx → Elt F .f32) (ix1 q) := by
    intro y hy
    rw [V_main_call0_v4]
    exact shapeCast_apply _ shapeCasts_S64_S1x64 y (ix1 q)
      (by rewrite [Shape.rowMajor_val_one, Shape.rowMajor_val_two]
          have hy0 : (y 0).val < 1 := (y 0).isLt
          show q.val = (y 0).val * 64 + (y 1).val; omega)
  unfold iblk
  rw [View.read_apply]
  show V m c main_call0_v4 _ = _
  refine e _ ?_
  show win0_8.index t 1 * 64 + 1 * q.val = q.val; rw [h1]; omega

/-! ## Window 9: the result, whole -/

theorem idx9 : ∀ t : Fin grid0.N, win0_9.index t 0 = 0 ∧ win0_9.index t 1 = 0 := by decide +kernel

/-- Window 9's block at any grid point is the whole [4096,16] result array: read through the block, contents `G` of the
    array are `G`. -/
theorem out9 (c : Dev nD) (t : Fin cfg0.N) (G : Buf (Elt F) ((c.tc : Thread nD τ).loc main_v0)) (i : Fin 4096) (q : Fin 16) :
    (((cfg0.win 9).blk t).view.read (Elt F) G : S4096x16.Idx → Elt F .f32) (ix2 i q) = (G : S4096x16.Idx → Elt F .f32) (ix2 i q) := by
  obtain ⟨h0, h1⟩ := idx9 t
  rw [View.read_apply]
  show (G : S4096x16.Idx → Elt F .f32) _ = _
  refine congrArg _ (funext fun a => Fin.ext ?_)
  match a with
  | ⟨0, _⟩ => show win0_9.index t 0 * 4096 + 1 * i.val = i.val; rw [h0]; omega
  | ⟨1, _⟩ => show win0_9.index t 1 * 16 + 1 * q.val = q.val; rw [h1]; omega

end Cert.KernelIdeal.Blocks

end
-- ==== Proof.SlabsKI.lean ====
/-
  The four time slices of the per-slice output array read at an index: slice `k` at row `i` is the array's row
  `4096 k + i`.
-/
import proofs.«148102_g22909355557047_cont_8to1_1754_2_alg».proof.Proof.CarriedKI
import Idealize.ShloMosaic.Lib.ValueIdx

noncomputable section

namespace Cert.KernelIdeal.Body

open Cert.KernelIdeal Cert.KernelIdeal.Gen
open Idealize.ShloMosaic Idealize.SL.Sem Idealize.ShloMosaic.ValueIdx

variable {F : FTy → Type} [FloatOps F]

theorem slab0_apply (hs : Vec F S16384x16 .f32) (i : Fin 4096) (c : Fin 16) (r : Fin 16384) (hr : r.val = 0 + i.val) :
    slab0 hs (ix2 i c) = hs (ix2 r c) := by
  show hs ((Rect.unit (s := S16384x16) ![0, 0] S4096x16.size inb_S16384x16_S4096x16_0_0).idx (ix2 i c)) = hs (ix2 r c)
  refine congrArg hs (funext fun a => ?_)
  match a with
  | ⟨0, _⟩ => exact Fin.ext (by show 0 + 1 * i.val = r.val; omega)
  | ⟨1, _⟩ => exact Fin.ext (by show 0 + 1 * c.val = c.val; omega)
theorem slab1_apply (hs : Vec F S16384x16 .f32) (i : Fin 4096) (c : Fin 16) (r : Fin 16384) (hr : r.val = 4096 + i.val) :
    slab1 hs (ix2 i c) = hs (ix2 r c) := by
  show hs ((Rect.unit (s := S16384x16) ![4096, 0] S4096x16.size inb_S16384x16_S4096x16_4096_0).idx (ix2 i c)) = hs (ix2 r c)
  refine congrArg hs (funext fun a => ?_)
  match a with
  | ⟨0, _⟩ => exact Fin.ext (by show 4096 + 1 * i.val = r.val; omega)
  | ⟨1, _⟩ => exact Fin.ext (by show 0 + 1 * c.val = c.val; omega)
theorem slab2_apply (hs : Vec F S16384x16 .f32) (i : Fin 4096) (c : Fin 16) (r : Fin 16384) (hr : r.val = 8192 + i.val) :
    slab2 hs (ix2 i c) = hs (ix2 r c) := by
  show hs ((Rect.unit (s := S16384x16) ![8192, 0] S4096x16.size inb_S16384x16_S4096x16_8192_0).idx (ix2 i c)) = hs (ix2 r c)
  refine congrArg hs (funext fun a => ?_)
  match a with
  | ⟨0, _⟩ => exact Fin.ext (by show 8192 + 1 * i.val = r.val; omega)
  | ⟨1, _⟩ => exact Fin.ext (by show 0 + 1 * c.val = c.val; omega)
theorem slab3_apply (hs : Vec F S16384x16 .f32) (i : Fin 4096) (c : Fin 16) (r : Fin 16384) (hr : r.val = 12288 + i.val) :
    slab3 hs (ix2 i c) = hs (ix2 r c) := by
  show hs ((Rect.unit (s := S16384x16) ![12288, 0] S4096x16.size inb_S16384x16_S4096x16_12288_0).idx (ix2 i c)) = hs (ix2 r c)
  refine congrArg hs (funext fun a => ?_)
  match a with
  | ⟨0, _⟩ => exact Fin.ext (by show 12288 + 1 * i.val = r.val; omega)
  | ⟨1, _⟩ => exact Fin.ext (by show 0 + 1 * c.val = c.val; omega)

end Cert.KernelIdeal.Body

end
-- ==== Proof.SpecLstm.lean ====
/-
  The last stage of the computation, as ONE function of its inputs, element by element: a four-step LSTM over four
  [4096,16] slices followed by a softmax along each row.

  With input slices x_1 … x_4, weights Wi, Wh : [16,64] and a bias b : [64], and h_0 = c_0 = 0 (the word 0x00000000):
    z_s[i,q] = ((Σ_d x_s[i,d] · Wi[d,q]) + (Σ_d h_{s-1}[i,d] · Wh[d,q])) + b[q]
    c_s[i,k] = σ(z_s[i,16+k]) · c_{s-1}[i,k] + σ(z_s[i,k]) · tanh(z_s[i,32+k])
    h_s[i,k] = σ(z_s[i,48+k]) · tanh(c_s[i,k])
  and the result is exp(h_4[i,k] − M_i) / Σ_k' exp(h_4[i,k'] − M_i), where M_i is the maximum of row i of h_4, taken as
  the fold of max over the row's sixteen entries starting from the word 0xFF800000 (−∞). Every operation is the exact one
  on the extended reals; σ is 1/(1 + exp(−·)). Sums, products and the order of the operands are written in the order
  the two programs compute them, so that neither side needs a law of arithmetic to meet this form.
-/
import Idealize.ShloMosaic.PureOps.Ideal
import Mathlib.Algebra.BigOperators.Group.Finset.Basic
import Mathlib.Data.Finset.Fold

noncomputable section

open scoped BigOperators

namespace Cert.SpecLstm

open Idealize.ShloMosaic

/-- The four gate columns of hidden unit `k` among the 64 columns of the pre-activation: input gate. -/
def colI (k : Fin 16) : Fin 64 := ⟨k.val, by have := k.isLt; omega⟩
/-- Forget gate: column `16 + k`. -/
def colF (k : Fin 16) : Fin 64 := ⟨16 + k.val, by have := k.isLt; omega⟩
/-- Candidate: column `32 + k`. -/
def colG (k : Fin 16) : Fin 64 := ⟨32 + k.val, by have := k.isLt; omega⟩
/-- Output gate: column `48 + k`. -/
def colO (k : Fin 16) : Fin 64 := ⟨48 + k.val, by have := k.isLt; omega⟩

/-- The state before the first step: every entry the value of the zero word. -/
def init : Fin 4096 → Fin 16 → EReal := fun _ _ => Ideal.ofBits .f32 0x00000000#32

/-- The cell update from a pre-activation with entries `Z` and an old cell state `C`:
    `σ(Z[i,16+k]) · C[i,k] + σ(Z[i,k]) · tanh(Z[i,32+k])`. -/
def cellZ (Z : Fin 4096 → Fin 64 → EReal) (C : Fin 4096 → Fin 16 → EReal) (i : Fin 4096) (k : Fin 16) : EReal :=
  Ideal.logistic (Z i (colF k)) * C i k + Ideal.logistic (Z i (colI k)) * Ideal.tanh (Z i (colG k))

/-- The hidden update from a pre-activation with entries `Z` and the new cell state `C`: `σ(Z[i,48+k]) · tanh(C[i,k])`. -/
def hidZ (Z : Fin 4096 → Fin 64 → EReal) (C : Fin 4096 → Fin 16 → EReal) (i : Fin 4096) (k : Fin 16) : EReal :=
  Ideal.logistic (Z i (colO k)) * Ideal.tanh (C i k)

section Step
variable (Wi Wh : Fin 16 → Fin 64 → EReal) (bl : Fin 64 → EReal)

/-- The pre-activation of one step: input slice times `Wi`, plus previous hidden state times `Wh`, plus the bias. -/
def pre (xs h : Fin 4096 → Fin 16 → EReal) (i : Fin 4096) (q : Fin 64) : EReal :=
  ((∑ d : Fin 16, xs i d * Wi d q) + (∑ d : Fin 16, h i d * Wh d q)) + bl q

/-- The next cell state: forget gate times the old cell state, plus input gate times candidate. -/
def cell (xs h c : Fin 4096 → Fin 16 → EReal) : Fin 4096 → Fin 16 → EReal :=
  cellZ (pre Wi Wh bl xs h) c

/-- The next hidden state: output gate times tanh of the next cell state. -/
def hid (xs h c : Fin 4096 → Fin 16 → EReal) : Fin 4096 → Fin 16 → EReal :=
  hidZ (pre Wi Wh bl xs h) (cell Wi Wh bl xs h c)

end Step

section Run
variable (x : Fin 4 → Fin 4096 → Fin 16 → EReal) (Wi Wh : Fin 16 → Fin 64 → EReal) (bl : Fin 64 → EReal)

/-- Cell and hidden state after each of the four steps. -/
def c1 : Fin 4096 → Fin 16 → EReal := cell Wi Wh bl (x 0) init init
def h1 : Fin 4096 → Fin 16 → EReal := hid Wi Wh bl (x 0) init init
def c2 : Fin 4096 → Fin 16 → EReal := cell Wi Wh bl (x 1) (h1 x Wi Wh bl) (c1 x Wi Wh bl)
def h2 : Fin 4096 → Fin 16 → EReal := hid Wi Wh bl (x 1) (h1 x Wi Wh bl) (c1 x Wi Wh bl)
def c3 : Fin 4096 → Fin 16 → EReal := cell Wi Wh bl (x 2) (h2 x Wi Wh bl) (c2 x Wi Wh bl)
def h3 : Fin 4096 → Fin 16 → EReal := hid Wi Wh bl (x 2) (h2 x Wi Wh bl) (c2 x Wi Wh bl)
def c4 : Fin 4096 → Fin 16 → EReal := cell Wi Wh bl (x 3) (h3 x Wi Wh bl) (c3 x Wi Wh bl)
def h4 : Fin 4096 → Fin 16 → EReal := hid Wi Wh bl (x 3) (h3 x Wi Wh bl) (c3 x Wi Wh bl)

end Run

/-- A row's maximum: the fold of `max` over its sixteen entries, from the value of the word 0xFF800000. -/
def rowMax (r : Fin 16 → EReal) : EReal :=
  (Finset.univ : Finset (Fin 16)).fold max (Ideal.ofBits .f32 0xFF800000#32) r

/-- The softmax of each row, shifted by the row's maximum. -/
def softmax (h : Fin 4096 → Fin 16 → EReal) (i : Fin 4096) (k : Fin 16) : EReal :=
  Ideal.div (Ideal.exp (h i k - rowMax (h i))) (∑ k' : Fin 16, Ideal.exp (h i k' - rowMax (h i)))

/-- The result: the softmax of the hidden state after the fourth step. -/
def out (x : Fin 4 → Fin 4096 → Fin 16 → EReal) (Wi Wh : Fin 16 → Fin 64 → EReal) (bl : Fin 64 → EReal) :
    Fin 4096 → Fin 16 → EReal :=
  softmax (h4 x Wi Wh bl)

/-- The word 0xFF800000 denotes −∞, the least extended real. -/
theorem negInf_eq_bot : Ideal.ofBits .f32 0xFF800000#32 = ⊥ := by simp [Ideal.ofBits, Ideal.ieee]

/-- The word 0x3F800000 denotes 1. -/
theorem one_word : Ideal.ofBits .f32 0x3F800000#32 = 1 := by
  simp [Ideal.ofBits, Ideal.ieee, -EReal.coe_mul]; norm_num

/-- The word 0x00000000 denotes 0. -/
theorem zero_word : Ideal.ofBits .f32 0x00000000#32 = 0 := by simp [Ideal.ofBits, Ideal.ieee]

/-- Taking the maximum with −∞ once more changes nothing. -/
theorem max_negInf_left (a : EReal) : max (Ideal.ofBits .f32 0xFF800000#32) a = a := by
  rw [negInf_eq_bot]; exact max_bot_left a

/-- The logistic function spelled with the word for 1: `1 / (1 + exp(−a))`. -/
theorem logistic_words (a : EReal) :
    Ideal.div (Ideal.ofBits .f32 0x3F800000#32) (Ideal.ofBits .f32 0x3F800000#32 + Ideal.exp (-a)) = Ideal.logistic a := by
  rw [one_word]; rfl

end Cert.SpecLstm

end
-- ==== Proof.KernelLstmOps.lean ====
/-
  The vector operations of the LSTM and softmax stage, each read at ONE element, over the extended reals.

  * A product of a [4096,16] matrix with a [16,64] matrix into a zero accumulator is, at (i, q), the sum over the sixteen
    contracted coordinates d of a[i,d] · w[d,q] (`mm_apply`).
  * A slice of sixteen columns at offset 0, 16, 32 or 48 of a [4096,64] matrix reads column k, 16 + k, 32 + k, 48 + k.
  * A [1,64] row broadcast down 4096 rows reads the row's entry of that column.
  * So a step's pre-activation (input · Wi + hidden · Wh + bias) at (i, q) is the specification's `pre`, and the cell and
    hidden updates built from its four column slices are the specification's `cell` and `hid`.
  * The maximum of a row is the fold of max over the row's sixteen entries; the sum of a row is the sum over them; a
    column of row statistics broadcast back along the row reads the row's statistic. So the shifted-exponential
    quotient at (i, k) is the specification's `softmax`.
-/
import proofs.«148102_g22909355557047_cont_8to1_1754_2_alg».proof.Proof.Gen.KernelIdeal.Skeleton
import proofs.«148102_g22909355557047_cont_8to1_1754_2_alg».proof.Proof.SpecLstm
import Idealize.ShloMosaic.Lib.ValueIdx
import Idealize.ShloMosaic.Lib.Pipeline.Value
import Idealize.ShloMosaic.PureOps.Ideal.Laws

noncomputable section

open scoped BigOperators

namespace Cert.KernelLstm

open Idealize.ShloMosaic Idealize.ShloMosaic.ValueIdx Cert.KernelIdeal Cert.KernelIdeal.Gen Cert.SpecLstm

/-! ## The matrix product at an element -/

/-- The left operand's row coordinate is the result's row. -/
theorem lhs0 (j : S4096x64.Idx) (q : dot_S4096x16_S16x64_S4096x64_1_0_0_1_n_n.contr.Idx) :
    (dot_S4096x16_S16x64_S4096x64_1_0_0_1_n_n.lhsIdx j q 0).val = (j 0).val := by
  unfold DotDims.lhsIdx
  rw [dif_neg (show ¬(0 : Fin S4096x16.rank) ∈ dot_S4096x16_S16x64_S4096x64_1_0_0_1_n_n.lhsBatch by decide),
    dif_pos (show (0 : Fin S4096x16.rank) ∈ dot_S4096x16_S16x64_S4096x64_1_0_0_1_n_n.lhsNonContracting by decide)]
  rfl

/-- The right operand's column coordinate is the result's column. -/
theorem rhs1 (j : S4096x64.Idx) (q : dot_S4096x16_S16x64_S4096x64_1_0_0_1_n_n.contr.Idx) :
    (dot_S4096x16_S16x64_S4096x64_1_0_0_1_n_n.rhsIdx j q 1).val = (j 1).val := by
  unfold DotDims.rhsIdx
  rw [dif_neg (show ¬(1 : Fin S16x64.rank) ∈ dot_S4096x16_S16x64_S4096x64_1_0_0_1_n_n.rhsBatch by decide),
    dif_pos (show (1 : Fin S16x64.rank) ∈ dot_S4096x16_S16x64_S4096x64_1_0_0_1_n_n.rhsNonContracting by decide)]
  rfl

set_option maxHeartbeats 400000 in
/-- `(a · w)[i, q] = Σ_d a[i, d] · w[d, q]`, into a zero accumulator. -/
theorem mm_apply (a : FVec Ideal S4096x16 .f32) (w : FVec Ideal S16x64 .f32) (i : Fin 4096) (q : Fin 64) :
    matmul dot_S4096x16_S16x64_S4096x64_1_0_0_1_n_n none a w (constant (F := Ideal) S4096x64 .f32 0x00000000#32) (ix2 i q)
      = ∑ d : Fin 16, a (ix2 i d) * w (ix2 d q) := by
  simp only [matmul]
  rw [Ideal.matmul_constant_zero_apply,
    ← Equiv.sum_comp (contrEquiv1 dot_S4096x16_S16x64_S4096x64_1_0_0_1_n_n 16 rfl rfl).symm]
  refine Finset.sum_congr rfl fun k _ => ?_
  have hk := contrEquiv1_symm_val dot_S4096x16_S16x64_S4096x64_1_0_0_1_n_n 16 rfl rfl k
  have el : dot_S4096x16_S16x64_S4096x64_1_0_0_1_n_n.lhsIdx (ix2 i q)
      ((contrEquiv1 dot_S4096x16_S16x64_S4096x64_1_0_0_1_n_n 16 rfl rfl).symm k) = ix2 i k :=
    funext fun a => Fin.ext (by
      match a with
      | ⟨0, _⟩ => exact lhs0 _ _
      | ⟨1, _⟩ => exact (dot_S4096x16_S16x64_S4096x64_1_0_0_1_n_n.lhsIdx_val_of_single rfl _ _).trans hk)
  have er : dot_S4096x16_S16x64_S4096x64_1_0_0_1_n_n.rhsIdx (ix2 i q)
      ((contrEquiv1 dot_S4096x16_S16x64_S4096x64_1_0_0_1_n_n 16 rfl rfl).symm k) = ix2 k q :=
    funext fun a => Fin.ext (by
      match a with
      | ⟨0, _⟩ => exact (dot_S4096x16_S16x64_S4096x64_1_0_0_1_n_n.rhsIdx_val_of_single rfl _ _).trans hk
      | ⟨1, _⟩ => exact rhs1 _ _)
  rw [el, er]

/-! ## The four gate slices, and the bias row -/

/-- Columns 0 … 15: the input gate's. -/
theorem sliceI (Z : FVec Ideal S4096x64 .f32) (i : Fin 4096) (k : Fin 16) :
    extractStridedSlice S4096x16 ![0, 0] Z slices_S4096x64_o0_0_S4096x16 (ix2 i k) = Z (ix2 i (colI k)) :=
  extractStridedSlice_apply ![0, 0] Z slices_S4096x64_o0_0_S4096x16 (ix2 i k) (ix2 i (colI k)) (fun a => match a with
    | ⟨0, _⟩ => by show i.val = 0 + i.val; omega
    | ⟨1, _⟩ => by show k.val = 0 + k.val; omega)

/-- Columns 16 … 31: the forget gate's. -/
theorem sliceF (Z : FVec Ideal S4096x64 .f32) (i : Fin 4096) (k : Fin 16) :
    extractStridedSlice S4096x16 ![0, 16] Z slices_S4096x64_o0_16_S4096x16 (ix2 i k) = Z (ix2 i (colF k)) :=
  extractStridedSlice_apply ![0, 16] Z slices_S4096x64_o0_16_S4096x16 (ix2 i k) (ix2 i (colF k)) (fun a => match a with
    | ⟨0, _⟩ => by show i.val = 0 + i.val; omega
    | ⟨1, _⟩ => by show 16 + k.val = 16 + k.val; rfl)

/-- Columns 32 … 47: the candidate's. -/
theorem sliceG (Z : FVec Ideal S4096x64 .f32) (i : Fin 4096) (k : Fin 16) :
    extractStridedSlice S4096x16 ![0, 32] Z slices_S4096x64_o0_32_S4096x16 (ix2 i k) = Z (ix2 i (colG k)) :=
  extractStridedSlice_apply ![0, 32] Z slices_S4096x64_o0_32_S4096x16 (ix2 i k) (ix2 i (colG k)) (fun a => match a with
    | ⟨0, _⟩ => by show i.val = 0 + i.val; omega
    | ⟨1, _⟩ => by show 32 + k.val = 32 + k.val; rfl)

/-- Columns 48 … 63: the output gate's. -/
theorem sliceO (Z : FVec Ideal S4096x64 .f32) (i : Fin 4096) (k : Fin 16) :
    extractStridedSlice S4096x16 ![0, 48] Z slices_S4096x64_o0_48_S4096x16 (ix2 i k) = Z (ix2 i (colO k)) :=
  extractStridedSlice_apply ![0, 48] Z slices_S4096x64_o0_48_S4096x16 (ix2 i k) (ix2 i (colO k)) (fun a => match a with
    | ⟨0, _⟩ => by show i.val = 0 + i.val; omega
    | ⟨1, _⟩ => by show 48 + k.val = 48 + k.val; rfl)

/-- The bias row broadcast down the rows reads the row's entry of the column. -/
theorem bias_apply (b : FVec Ideal S1x64 .f32) (i : Fin 4096) (q : Fin 64) :
    broadcastTo S4096x64 b broadcasts_S1x64_S4096x64 (ix2 i q) = b (ix2 (0 : Fin 1) q) :=
  broadcastTo_apply b broadcasts_S1x64_S4096x64 (ix2 i q) (ix2 (0 : Fin 1) q) (fun a => match a with
    | ⟨0, _⟩ => by show 0 = if (1 : Nat) = 1 then 0 else i.val; rw [if_pos rfl]
    | ⟨1, _⟩ => by show q.val = if (64 : Nat) = 1 then 0 else q.val; rw [if_neg (by decide)])

/-! ## One step: pre-activation, cell state, hidden state -/

/-- The pre-activation at (i, q), for a previous hidden state whose entries are `H`. -/
theorem pre_apply (b : FVec Ideal S1x64 .f32) (a hp : FVec Ideal S4096x16 .f32) (wi wh : FVec Ideal S16x64 .f32)
    (H : Fin 4096 → Fin 16 → EReal) (hH : ∀ i d, hp (ix2 i d) = H i d) (i : Fin 4096) (q : Fin 64) :
    addf (addf (matmul dot_S4096x16_S16x64_S4096x64_1_0_0_1_n_n none a wi (constant (F := Ideal) S4096x64 .f32 0x00000000#32))
            (matmul dot_S4096x16_S16x64_S4096x64_1_0_0_1_n_n none hp wh (constant (F := Ideal) S4096x64 .f32 0x00000000#32)))
        (broadcastTo S4096x64 b broadcasts_S1x64_S4096x64) (ix2 i q)
      = pre (fun d q => wi (ix2 d q)) (fun d q => wh (ix2 d q)) (fun q => b (ix2 (0 : Fin 1) q)) (fun i d => a (ix2 i d)) H i q := by
  rw [addf_apply, addf_apply, mm_apply, mm_apply, bias_apply]
  unfold pre
  simp only [hH]

/-- The next cell state at (i, k) from a pre-activation with entries `Z` and an old cell state with entries `C`. -/
theorem cell_apply (z : FVec Ideal S4096x64 .f32) (cp : FVec Ideal S4096x16 .f32) (Z : Fin 4096 → Fin 64 → EReal)
    (C : Fin 4096 → Fin 16 → EReal) (hz : ∀ i q, z (ix2 i q) = Z i q) (hc : ∀ i k, cp (ix2 i k) = C i k) (i : Fin 4096) (k : Fin 16) :
    addf (mulf (logistic (extractStridedSlice S4096x16 ![0, 16] z slices_S4096x64_o0_16_S4096x16)) cp)
        (mulf (logistic (extractStridedSlice S4096x16 ![0, 0] z slices_S4096x64_o0_0_S4096x16))
          (tanh (extractStridedSlice S4096x16 ![0, 32] z slices_S4096x64_o0_32_S4096x16))) (ix2 i k)
      = cellZ Z C i k := by
  show Ideal.logistic (extractStridedSlice S4096x16 ![0, 16] z slices_S4096x64_o0_16_S4096x16 (ix2 i k)) * cp (ix2 i k)
      + Ideal.logistic (extractStridedSlice S4096x16 ![0, 0] z slices_S4096x64_o0_0_S4096x16 (ix2 i k))
        * Ideal.tanh (extractStridedSlice S4096x16 ![0, 32] z slices_S4096x64_o0_32_S4096x16 (ix2 i k)) = _
  rw [sliceF, sliceI, sliceG, hz, hz, hz, hc]
  rfl

/-- The next hidden state at (i, k) from a pre-activation with entries `Z` and the new cell state with entries `C`. -/
theorem hid_apply (z : FVec Ideal S4096x64 .f32) (c : FVec Ideal S4096x16 .f32) (Z : Fin 4096 → Fin 64 → EReal)
    (C : Fin 4096 → Fin 16 → EReal) (hz : ∀ i q, z (ix2 i q) = Z i q) (hc : ∀ i k, c (ix2 i k) = C i k) (i : Fin 4096) (k : Fin 16) :
    mulf (logistic (extractStridedSlice S4096x16 ![0, 48] z slices_S4096x64_o0_48_S4096x16)) (tanh c) (ix2 i k)
      = hidZ Z C i k := by
  show Ideal.logistic (extractStridedSlice S4096x16 ![0, 48] z slices_S4096x64_o0_48_S4096x16 (ix2 i k))
      * Ideal.tanh (c (ix2 i k)) = _
  rw [sliceO, hz, hc]
  rfl

/-! ## The softmax of a row -/

/-- The source index over row `i` with column `k` inserted. -/
theorem lift_eq (i : Fin 4096) (k : Fin 16) : reduces_S4096x16_S4096.lift (ix1 i) k = ix2 i k := by
  funext a
  apply Fin.ext
  match a with
  | ⟨0, _⟩ => rfl
  | ⟨1, _⟩ => rfl

/-- The maximum over a row, from −∞, is the fold of max over the row's sixteen entries. -/
theorem rowmax_apply (h : FVec Ideal S4096x16 .f32) (i : Fin 4096) :
    multiReduction (F := Ideal) .maximumf [1] S4096 h 0xFF800000#32 reduces_S4096x16_S4096 (.inl rfl) rfl (ix1 i)
      = rowMax (fun k => h (ix2 i k)) := by
  refine (Ideal.multiReduction_maximumf_single h 0xFF800000#32 reduces_S4096x16_S4096 (.inl rfl) rfl (ix1 i)).trans ?_
  unfold rowMax
  refine congrArg (Finset.fold max _ · Finset.univ) ?_
  funext k
  exact congrArg h (lift_eq i k)

/-- The sum over a row is the sum of the row's sixteen entries. -/
theorem rowsum_apply (e : FVec Ideal S4096x16 .f32) (i : Fin 4096) :
    multiReduction (F := Ideal) .add [1] S4096 e 0x00000000#32 reduces_S4096x16_S4096 (.inl rfl) rfl (ix1 i)
      = ∑ k : Fin 16, e (ix2 i k) := by
  refine (Ideal.multiReduction_add_single e 0x00000000#32 reduces_S4096x16_S4096 (.inl rfl) rfl (ix1 i)).trans ?_
  exact Finset.sum_congr rfl fun k _ => congrArg e (lift_eq i k)

/-- A vector of row statistics, viewed as a column and broadcast along the rows, reads the row's statistic. -/
theorem keepdims_apply (v : FVec Ideal S4096 .f32) (i : Fin 4096) (k : Fin 16) :
    broadcastTo S4096x16 (shapeCast S4096x1 v shapeCasts_S4096_S4096x1) broadcasts_S4096x1_S4096x16 (ix2 i k) = v (ix1 i) := by
  refine (broadcastTo_apply _ broadcasts_S4096x1_S4096x16 (ix2 i k) (ix2 i (0 : Fin 1)) (fun a => match a with
    | ⟨0, _⟩ => by show i.val = if (4096 : Nat) = 1 then 0 else i.val; rw [if_neg (by decide)]
    | ⟨1, _⟩ => by show 0 = if (1 : Nat) = 1 then 0 else k.val; rw [if_pos rfl])).trans ?_
  exact shapeCast_apply v shapeCasts_S4096_S4096x1 (ix2 i (0 : Fin 1)) (ix1 i)
    (by rw [Shape.rowMajor_val_one, Shape.rowMajor_val_two]; show i.val = i.val * 1 + 0; omega)

/-- The shifted exponentials of a matrix with entries `H`. -/
theorem shiftexp_apply (h : FVec Ideal S4096x16 .f32) (H : Fin 4096 → Fin 16 → EReal) (hH : ∀ i k, h (ix2 i k) = H i k)
    (i : Fin 4096) (k : Fin 16) :
    exp (subf h (broadcastTo S4096x16 (shapeCast S4096x1
        (multiReduction (F := Ideal) .maximumf [1] S4096 h 0xFF800000#32 reduces_S4096x16_S4096 (.inl rfl) rfl)
        shapeCasts_S4096_S4096x1) broadcasts_S4096x1_S4096x16)) (ix2 i k)
      = Ideal.exp (H i k - rowMax (H i)) := by
  show Ideal.exp (h (ix2 i k) - broadcastTo S4096x16 (shapeCast S4096x1
        (multiReduction (F := Ideal) .maximumf [1] S4096 h 0xFF800000#32 reduces_S4096x16_S4096 (.inl rfl) rfl)
        shapeCasts_S4096_S4096x1) broadcasts_S4096x1_S4096x16 (ix2 i k)) = _
  rw [keepdims_apply, rowmax_apply, hH]
  simp only [hH]

/-- The softmax at (i, k) of a matrix with entries `H`. -/
theorem softmax_apply (h : FVec Ideal S4096x16 .f32) (H : Fin 4096 → Fin 16 → EReal) (hH : ∀ i k, h (ix2 i k) = H i k)
    (i : Fin 4096) (k : Fin 16) :
    divf (exp (subf h (broadcastTo S4096x16 (shapeCast S4096x1
          (multiReduction (F := Ideal) .maximumf [1] S4096 h 0xFF800000#32 reduces_S4096x16_S4096 (.inl rfl) rfl)
          shapeCasts_S4096_S4096x1) broadcasts_S4096x1_S4096x16)))
        (broadcastTo S4096x16 (shapeCast S4096x1
          (multiReduction (F := Ideal) .add [1] S4096
            (exp (subf h (broadcastTo S4096x16 (shapeCast S4096x1
              (multiReduction (F := Ideal) .maximumf [1] S4096 h 0xFF800000#32 reduces_S4096x16_S4096 (.inl rfl) rfl)
              shapeCasts_S4096_S4096x1) broadcasts_S4096x1_S4096x16)))
            0x00000000#32 reduces_S4096x16_S4096 (.inl rfl) rfl)
          shapeCasts_S4096_S4096x1) broadcasts_S4096x1_S4096x16) (ix2 i k)
      = softmax H i k := by
  rw [divf_apply, keepdims_apply, rowsum_apply, shiftexp_apply h H hH]
  unfold softmax
  simp only [shiftexp_apply h H hH]

end Cert.KernelLstm

end
-- ==== Proof.KernelLstm.lean ====
/-
  The LSTM and softmax stage of the kernel's last grid point, read at one element.

  The stage is a composition of sixteen pure payloads of the body. Read one at a time at an element (i, q) or (i, k):
  the first step's pre-activation starts from the zero hidden state, its cell state from the zero cell state; each
  later pre-activation is input slice · Wi + previous hidden state · Wh + bias, with the previous hidden state
  σ(output columns) · tanh(cell state); each cell state is σ(forget columns) · old cell state + σ(input columns) ·
  tanh(candidate columns); and the last payload forms the fourth cell and hidden state and the row softmax. Composed,
  the stage at (i, k) is the specification's `out` of the four input slices, the two weight matrices and the bias row.
-/
import proofs.«148102_g22909355557047_cont_8to1_1754_2_alg».proof.Proof.KernelLstmOps

noncomputable section

open scoped BigOperators

namespace Cert.KernelLstm

open Idealize.ShloMosaic Idealize.ShloMosaic.ValueIdx Cert.KernelIdeal Cert.KernelIdeal.Gen Cert.SpecLstm

/-- A [16,64] weight matrix, a [1,64] bias row and a [4096,16] slice as functions of their coordinates. -/
abbrev mW (w : FVec Ideal S16x64 .f32) : Fin 16 → Fin 64 → EReal := fun d q => w (ix2 d q)
abbrev mB (b : FVec Ideal S1x64 .f32) : Fin 64 → EReal := fun q => b (ix2 (0 : Fin 1) q)
abbrev mX (x : FVec Ideal S4096x16 .f32) : Fin 4096 → Fin 16 → EReal := fun i d => x (ix2 i d)

/-- The zero state the first step starts from, as the body spells it. -/
abbrev zeroState : FVec Ideal S4096x16 .f32 := broadcast S4096x16 (Scalar.ofBits (F := Ideal) .f32 0x00000000#32)

theorem zeroState_apply (i : Fin 4096) (k : Fin 16) : zeroState (ix2 i k) = init i k := rfl

/-! ## The composition, generic in the float instance -/

section Def
variable {F : FTy → Type} [FloatOps F]

/-- The stage: bias row `bl`, the four input slices `h0 … h3`, the weights `wi`, `wh`. -/
def finalPay (bl : Vec F S1x64 .f32) (h0 h1 h2 h3 : Vec F S4096x16 .f32) (wi wh : Vec F S16x64 .f32) : FVec F S4096x16 .f32 :=
  k0_pay5
    (k0_pay18 (k0_pay6 bl) (k0_pay8 bl h0 wi wh) (k0_pay10 bl h0 wi wh h1 wi wh) (k0_pay11 bl h0 wi wh h1 wi wh)
      (k0_pay12 bl h0 wi wh h1 wi wh) (k0_pay13 bl h0 wi wh h1 wi wh) h2 wi wh h3 wi wh)
    (k0_pay19 (k0_pay6 bl) (k0_pay8 bl h0 wi wh) (k0_pay10 bl h0 wi wh h1 wi wh) (k0_pay11 bl h0 wi wh h1 wi wh)
      (k0_pay12 bl h0 wi wh h1 wi wh) (k0_pay13 bl h0 wi wh h1 wi wh) h2 wi wh h3 wi wh)
    (k0_pay20 (k0_pay6 bl) (k0_pay8 bl h0 wi wh) (k0_pay10 bl h0 wi wh h1 wi wh) (k0_pay11 bl h0 wi wh h1 wi wh)
      (k0_pay12 bl h0 wi wh h1 wi wh) (k0_pay13 bl h0 wi wh h1 wi wh) h2 wi wh h3 wi wh)
    (k0_pay21 (k0_pay6 bl) (k0_pay8 bl h0 wi wh) (k0_pay10 bl h0 wi wh h1 wi wh) (k0_pay11 bl h0 wi wh h1 wi wh)
      (k0_pay12 bl h0 wi wh h1 wi wh) (k0_pay13 bl h0 wi wh h1 wi wh) h2 wi wh h3 wi wh)

end Def

/-! ## The first two steps' payloads, over the loaded vectors -/

section Part1
variable (bl : FVec Ideal S1x64 .f32) (x0 x1 : FVec Ideal S4096x16 .f32) (wi wh : FVec Ideal S16x64 .f32)

/-- The bias row is read as loaded. -/
theorem pay6_eq : k0_pay6 (F := Ideal) bl = bl := shapeCast_self bl shapeCasts_S1x64_S1x64

/-- Step 1's pre-activation. -/
theorem pay7_apply (i : Fin 4096) (q : Fin 64) :
    k0_pay7 (F := Ideal) bl x0 wi wh (ix2 i q) = pre (mW wi) (mW wh) (mB bl) (mX x0) init i q := by
  unfold k0_pay7
  refine (pre_apply (k0_pay6 (F := Ideal) bl) x0 zeroState wi wh init zeroState_apply i q).trans ?_
  rw [pay6_eq]

/-- Step 1's cell state. -/
theorem pay8_apply (i : Fin 4096) (k : Fin 16) :
    k0_pay8 (F := Ideal) bl x0 wi wh (ix2 i k) = cell (mW wi) (mW wh) (mB bl) (mX x0) init init i k := by
  unfold k0_pay8
  exact cell_apply (k0_pay7 (F := Ideal) bl x0 wi wh) zeroState (pre (mW wi) (mW wh) (mB bl) (mX x0) init) init
    (pay7_apply bl x0 wi wh) zeroState_apply i k

/-- Step 2's pre-activation: its hidden operand is step 1's hidden state. -/
theorem pay9_apply (i : Fin 4096) (q : Fin 64) :
    k0_pay9 (F := Ideal) bl x0 wi wh x1 wi wh (ix2 i q)
      = pre (mW wi) (mW wh) (mB bl) (mX x1) (hid (mW wi) (mW wh) (mB bl) (mX x0) init init) i q := by
  have hh := hid_apply (k0_pay7 (F := Ideal) bl x0 wi wh) (k0_pay8 (F := Ideal) bl x0 wi wh)
    (pre (mW wi) (mW wh) (mB bl) (mX x0) init) (cell (mW wi) (mW wh) (mB bl) (mX x0) init init)
    (pay7_apply bl x0 wi wh) (pay8_apply bl x0 wi wh)
  unfold k0_pay9
  refine (pre_apply (k0_pay6 (F := Ideal) bl) x1 _ wi wh _ hh i q).trans ?_
  rw [pay6_eq]
  rfl

/-- Step 2's gates: σ of the input columns, σ of the forget columns, tanh of the candidate columns, and the output
    columns themselves. -/
theorem pay10_apply (i : Fin 4096) (k : Fin 16) :
    k0_pay10 (F := Ideal) bl x0 wi wh x1 wi wh (ix2 i k)
      = Ideal.logistic (pre (mW wi) (mW wh) (mB bl) (mX x1) (hid (mW wi) (mW wh) (mB bl) (mX x0) init init) i (colI k)) := by
  unfold k0_pay10
  exact congrArg Ideal.logistic ((sliceI _ i k).trans (pay9_apply bl x0 x1 wi wh i (colI k)))

theorem pay11_apply (i : Fin 4096) (k : Fin 16) :
    k0_pay11 (F := Ideal) bl x0 wi wh x1 wi wh (ix2 i k)
      = Ideal.logistic (pre (mW wi) (mW wh) (mB bl) (mX x1) (hid (mW wi) (mW wh) (mB bl) (mX x0) init init) i (colF k)) := by
  unfold k0_pay11
  exact congrArg Ideal.logistic ((sliceF _ i k).trans (pay9_apply bl x0 x1 wi wh i (colF k)))

theorem pay12_apply (i : Fin 4096) (k : Fin 16) :
    k0_pay12 (F := Ideal) bl x0 wi wh x1 wi wh (ix2 i k)
      = Ideal.tanh (pre (mW wi) (mW wh) (mB bl) (mX x1) (hid (mW wi) (mW wh) (mB bl) (mX x0) init init) i (colG k)) := by
  unfold k0_pay12
  exact congrArg Ideal.tanh ((sliceG _ i k).trans (pay9_apply bl x0 x1 wi wh i (colG k)))

theorem pay13_apply (i : Fin 4096) (k : Fin 16) :
    k0_pay13 (F := Ideal) bl x0 wi wh x1 wi wh (ix2 i k)
      = pre (mW wi) (mW wh) (mB bl) (mX x1) (hid (mW wi) (mW wh) (mB bl) (mX x0) init init) i (colO k) := by
  unfold k0_pay13
  exact (sliceO _ i k).trans (pay9_apply bl x0 x1 wi wh i (colO k))

end Part1

/-! ## The last two steps' payloads, over the values the first two hand on

The values handed on are variables here: the bias row `v26`, step 1's cell state `v45` with entries `C1`, and step 2's
three gates `v57`, `v59`, `v61` and output columns `v62` read off a pre-activation with entries `Z2`. -/

section Part2
variable (v26 : FVec Ideal S1x64 .f32) (v45 v57 v59 v61 v62 x2 x3 : FVec Ideal S4096x16 .f32) (wi wh : FVec Ideal S16x64 .f32)
variable (Z2 : Fin 4096 → Fin 64 → EReal) (C1 : Fin 4096 → Fin 16 → EReal)
variable (h45 : ∀ i k, v45 (ix2 i k) = C1 i k) (h57 : ∀ i k, v57 (ix2 i k) = Ideal.logistic (Z2 i (colI k)))
  (h59 : ∀ i k, v59 (ix2 i k) = Ideal.logistic (Z2 i (colF k))) (h61 : ∀ i k, v61 (ix2 i k) = Ideal.tanh (Z2 i (colG k)))
  (h62 : ∀ i k, v62 (ix2 i k) = Z2 i (colO k))

include h45 h57 h59 h61 in
/-- Step 2's cell state. -/
theorem pay14_apply (i : Fin 4096) (k : Fin 16) : k0_pay14 v45 v57 v59 v61 (ix2 i k) = cellZ Z2 C1 i k := by
  unfold k0_pay14
  show v59 (ix2 i k) * v45 (ix2 i k) + v57 (ix2 i k) * v61 (ix2 i k) = _
  rw [h59, h45, h57, h61]
  rfl

/-- Step 3's pre-activation, cell state; step 4's pre-activation, as functions of the coordinates. -/
abbrev Z3 : Fin 4096 → Fin 64 → EReal := pre (mW wi) (mW wh) (mB v26) (mX x2) (hidZ Z2 (cellZ Z2 C1))
abbrev C3 : Fin 4096 → Fin 16 → EReal := cellZ (Z3 v26 x2 wi wh Z2 C1) (cellZ Z2 C1)
abbrev Z4 : Fin 4096 → Fin 64 → EReal :=
  pre (mW wi) (mW wh) (mB v26) (mX x3) (hidZ (Z3 v26 x2 wi wh Z2 C1) (C3 v26 x2 wi wh Z2 C1))

include h45 h57 h59 h61 h62 in
/-- Step 3's pre-activation: its hidden operand is step 2's hidden state. -/
theorem pay15_apply (i : Fin 4096) (q : Fin 64) :
    k0_pay15 v26 v45 v57 v59 v61 v62 x2 wi wh (ix2 i q) = Z3 v26 x2 wi wh Z2 C1 i q := by
  unfold k0_pay15
  exact pre_apply v26 x2 (mulf (logistic v62) (tanh (k0_pay14 v45 v57 v59 v61))) wi wh (hidZ Z2 (cellZ Z2 C1))
    (fun i d => by
      show Ideal.logistic (v62 (ix2 i d)) * Ideal.tanh (k0_pay14 v45 v57 v59 v61 (ix2 i d)) = _
      rw [h62, pay14_apply v45 v57 v59 v61 Z2 C1 h45 h57 h59 h61]
      rfl) i q

include h45 h57 h59 h61 h62 in
/-- Step 3's cell state. -/
theorem pay16_apply (i : Fin 4096) (k : Fin 16) :
    k0_pay16 v26 v45 v57 v59 v61 v62 x2 wi wh (ix2 i k) = C3 v26 x2 wi wh Z2 C1 i k := by
  unfold k0_pay16
  exact cell_apply (k0_pay15 v26 v45 v57 v59 v61 v62 x2 wi wh) (k0_pay14 v45 v57 v59 v61) (Z3 v26 x2 wi wh Z2 C1) (cellZ Z2 C1)
    (pay15_apply v26 v45 v57 v59 v61 v62 x2 wi wh Z2 C1 h45 h57 h59 h61 h62)
    (pay14_apply v45 v57 v59 v61 Z2 C1 h45 h57 h59 h61) i k

include h45 h57 h59 h61 h62 in
/-- Step 4's pre-activation: its hidden operand is step 3's hidden state. -/
theorem pay17_apply (i : Fin 4096) (q : Fin 64) :
    k0_pay17 v26 v45 v57 v59 v61 v62 x2 wi wh x3 wi wh (ix2 i q) = Z4 v26 x2 x3 wi wh Z2 C1 i q := by
  have hh := hid_apply (k0_pay15 v26 v45 v57 v59 v61 v62 x2 wi wh) (k0_pay16 v26 v45 v57 v59 v61 v62 x2 wi wh)
    (Z3 v26 x2 wi wh Z2 C1) (C3 v26 x2 wi wh Z2 C1)
    (pay15_apply v26 v45 v57 v59 v61 v62 x2 wi wh Z2 C1 h45 h57 h59 h61 h62)
    (pay16_apply v26 v45 v57 v59 v61 v62 x2 wi wh Z2 C1 h45 h57 h59 h61 h62)
  unfold k0_pay17
  exact pre_apply v26 x3 _ wi wh _ hh i q

include h45 h57 h59 h61 h62 in
/-- Step 4's hidden state, from the four payloads the last one reads: input gate, candidate, output gate, and forget
    gate times step 3's cell state. -/
theorem h4_apply (i : Fin 4096) (k : Fin 16) :
    mulf (k0_pay20 v26 v45 v57 v59 v61 v62 x2 wi wh x3 wi wh)
        (tanh (addf (k0_pay21 v26 v45 v57 v59 v61 v62 x2 wi wh x3 wi wh)
          (mulf (k0_pay18 v26 v45 v57 v59 v61 v62 x2 wi wh x3 wi wh) (k0_pay19 v26 v45 v57 v59 v61 v62 x2 wi wh x3 wi wh))))
        (ix2 i k)
      = hidZ (Z4 v26 x2 x3 wi wh Z2 C1) (cellZ (Z4 v26 x2 x3 wi wh Z2 C1) (C3 v26 x2 wi wh Z2 C1)) i k := by
  have hz := pay17_apply v26 v45 v57 v59 v61 v62 x2 x3 wi wh Z2 C1 h45 h57 h59 h61 h62
  have hc := pay16_apply v26 v45 v57 v59 v61 v62 x2 wi wh Z2 C1 h45 h57 h59 h61 h62
  unfold k0_pay18 k0_pay19 k0_pay20 k0_pay21
  show Ideal.logistic (extractStridedSlice S4096x16 ![0, 48] (k0_pay17 v26 v45 v57 v59 v61 v62 x2 wi wh x3 wi wh) slices_S4096x64_o0_48_S4096x16 (ix2 i k))
      * Ideal.tanh (Ideal.logistic (extractStridedSlice S4096x16 ![0, 16] (k0_pay17 v26 v45 v57 v59 v61 v62 x2 wi wh x3 wi wh) slices_S4096x64_o0_16_S4096x16 (ix2 i k))
            * k0_pay16 v26 v45 v57 v59 v61 v62 x2 wi wh (ix2 i k)
          + Ideal.logistic (extractStridedSlice S4096x16 ![0, 0] (k0_pay17 v26 v45 v57 v59 v61 v62 x2 wi wh x3 wi wh) slices_S4096x64_o0_0_S4096x16 (ix2 i k))
            * Ideal.tanh (extractStridedSlice S4096x16 ![0, 32] (k0_pay17 v26 v45 v57 v59 v61 v62 x2 wi wh x3 wi wh) slices_S4096x64_o0_32_S4096x16 (ix2 i k))) = _
  rw [sliceO, sliceF, sliceI, sliceG, hz, hz, hz, hz, hc]
  rfl

include h45 h57 h59 h61 h62 in
/-- The last payload over the last two steps' payloads: the softmax of step 4's hidden state. -/
theorem tail_apply (i : Fin 4096) (k : Fin 16) :
    k0_pay5 (k0_pay18 v26 v45 v57 v59 v61 v62 x2 wi wh x3 wi wh) (k0_pay19 v26 v45 v57 v59 v61 v62 x2 wi wh x3 wi wh)
        (k0_pay20 v26 v45 v57 v59 v61 v62 x2 wi wh x3 wi wh) (k0_pay21 v26 v45 v57 v59 v61 v62 x2 wi wh x3 wi wh) (ix2 i k)
      = softmax (hidZ (Z4 v26 x2 x3 wi wh Z2 C1) (cellZ (Z4 v26 x2 x3 wi wh Z2 C1) (C3 v26 x2 wi wh Z2 C1))) i k := by
  unfold k0_pay5
  exact softmax_apply _ _ (h4_apply v26 v45 v57 v59 v61 v62 x2 x3 wi wh Z2 C1 h45 h57 h59 h61 h62) i k

end Part2

/-! ## The stage is the specification -/

/-- The kernel's LSTM and softmax stage at (i, c) is the specification's `out` of the four input slices, the two
    weight matrices and the bias row. -/
theorem final_apply (bl : FVec Ideal S1x64 .f32) (h0 h1 h2 h3 : FVec Ideal S4096x16 .f32) (wi wh : FVec Ideal S16x64 .f32)
    (i : Fin 4096) (c : Fin 16) :
    finalPay (F := Ideal) bl h0 h1 h2 h3 wi wh (ix2 i c)
      = out (fun s i c => (![h0, h1, h2, h3] s) (ix2 i c)) (fun d q => wi (ix2 d q)) (fun d q => wh (ix2 d q))
          (fun q => bl (ix2 (0 : Fin 1) q)) i c := by
  unfold finalPay
  refine (tail_apply (k0_pay6 (F := Ideal) bl) (k0_pay8 (F := Ideal) bl h0 wi wh) (k0_pay10 (F := Ideal) bl h0 wi wh h1 wi wh) (k0_pay11 (F := Ideal) bl h0 wi wh h1 wi wh)
    (k0_pay12 (F := Ideal) bl h0 wi wh h1 wi wh) (k0_pay13 (F := Ideal) bl h0 wi wh h1 wi wh) h2 h3 wi wh
    (pre (mW wi) (mW wh) (mB bl) (mX h1) (hid (mW wi) (mW wh) (mB bl) (mX h0) init init))
    (cell (mW wi) (mW wh) (mB bl) (mX h0) init init)
    (pay8_apply bl h0 wi wh) (pay10_apply bl h0 h1 wi wh) (pay11_apply bl h0 h1 wi wh) (pay12_apply bl h0 h1 wi wh)
    (pay13_apply bl h0 h1 wi wh) i c).trans ?_
  rw [pay6_eq]
  rfl

end Cert.KernelLstm

end
-- ==== Proof.RefLstmOps.lean ====
/-
  The reference's LSTM and softmax operations, each read at ONE element, over the extended reals.

  The reference spells the stage with whole-array host operations. Here they are grouped as functions of vectors:
  * `xsV s y`: time slice `s` of the stacked [4096,4,16] input, reshaped to [4096,16] — its (i, d) entry is y[i, s, d];
  * `preV`: input · Wi + hidden · Wh + bias (two products over the sixteen contracted coordinates, the bias vector
    broadcast to a row and then down the rows) — at (i, q) the specification's `pre`;
  * `sigV`: 1 / (1 + exp(−z)) spelled with the word for 1 — at every element the logistic function;
  * `cellV`, `hidV`: the cell and hidden updates from the four sixteen-column slices — the specification's `cellZ`, `hidZ`;
  * `smV`: the row maximum (a fold of max from −∞, then once more the maximum with −∞), the shifted exponentials, their
    row sum (from the zero word) and the quotient — at (i, k) the specification's `softmax`.
-/
import proofs.«148102_g22909355557047_cont_8to1_1754_2_alg».proof.Proof.RefReadP
import proofs.«148102_g22909355557047_cont_8to1_1754_2_alg».proof.Proof.SpecLstm

noncomputable section

open scoped BigOperators

namespace Cert.RefLstm

open Idealize.ShloMosaic Idealize.ShloMosaic.ValueIdx Cert.ReferenceIdeal Cert.ReferenceIdeal.Gen Cert.SpecLstm

/-! ## Constants broadcast to a vector -/

/-- The word for 1 at every element of a [4096,16] vector. -/
def oneV : FVec Ideal S4096x16 .f32 :=
  broadcastInDim S4096x16 ![] bcast_S_S4096x16 (constant (F := Ideal) S_ .f32 0x3F800000#32)

/-- The zero word at every element of a [4096,16] vector. -/
def zeroV : FVec Ideal S4096x16 .f32 :=
  broadcastInDim S4096x16 ![] bcast_S_S4096x16 (constant (F := Ideal) S_ .f32 0x00000000#32)

theorem oneV_apply (j : S4096x16.Idx) : oneV j = Ideal.ofBits .f32 0x3F800000#32 :=
  broadcastInDim_apply _ bcast_S_S4096x16 (constant (F := Ideal) S_ .f32 0x3F800000#32) j (fun a => a.elim0) (fun a => a.elim0)

theorem zeroV_apply (i : Fin 4096) (k : Fin 16) : zeroV (ix2 i k) = init i k :=
  broadcastInDim_apply _ bcast_S_S4096x16 (constant (F := Ideal) S_ .f32 0x00000000#32) (ix2 i k) (fun a => a.elim0) (fun a => a.elim0)

/-! ## The input slices -/

/-- Time slice 0 … 3 of the stacked input, as a [4096,16] matrix. -/
def xsV0 (y : FVec Ideal S4096x4x16 .f32) : FVec Ideal S4096x16 .f32 :=
  shapeCast S4096x16 (extractStridedSlice S4096x1x16 ![0, 0, 0] y slices_S4096x4x16_S4096x1x16_0_0_0) shapeCasts_S4096x1x16_S4096x16
def xsV1 (y : FVec Ideal S4096x4x16 .f32) : FVec Ideal S4096x16 .f32 :=
  shapeCast S4096x16 (extractStridedSlice S4096x1x16 ![0, 1, 0] y slices_S4096x4x16_S4096x1x16_0_1_0) shapeCasts_S4096x1x16_S4096x16
def xsV2 (y : FVec Ideal S4096x4x16 .f32) : FVec Ideal S4096x16 .f32 :=
  shapeCast S4096x16 (extractStridedSlice S4096x1x16 ![0, 2, 0] y slices_S4096x4x16_S4096x1x16_0_2_0) shapeCasts_S4096x1x16_S4096x16
def xsV3 (y : FVec Ideal S4096x4x16 .f32) : FVec Ideal S4096x16 .f32 :=
  shapeCast S4096x16 (extractStridedSlice S4096x1x16 ![0, 3, 0] y slices_S4096x4x16_S4096x1x16_0_3_0) shapeCasts_S4096x1x16_S4096x16

/-- A [4096,1,16] slice reshaped to [4096,16] reads (i, 0, d) at (i, d). -/
theorem reshape_apply (v : FVec Ideal S4096x1x16 .f32) (i : Fin 4096) (d : Fin 16) :
    shapeCast S4096x16 v shapeCasts_S4096x1x16_S4096x16 (ix2 i d) = v (ix3 i (0 : Fin 1) d) :=
  shapeCast_apply v shapeCasts_S4096x1x16_S4096x16 (ix2 i d) (ix3 i (0 : Fin 1) d)
    (by rw [Shape.rowMajor_val_three, Shape.rowMajor_val_two]; show (i.val * 1 + 0) * 16 + d.val = i.val * 16 + d.val; omega)

theorem xsV0_apply (y : FVec Ideal S4096x4x16 .f32) (i : Fin 4096) (d : Fin 16) : xsV0 y (ix2 i d) = y (ix3 i (0 : Fin 4) d) := by
  unfold xsV0
  refine (reshape_apply _ i d).trans ?_
  exact extractStridedSlice_apply ![0, 0, 0] y slices_S4096x4x16_S4096x1x16_0_0_0 (ix3 i (0 : Fin 1) d) (ix3 i (0 : Fin 4) d)
    (fun a => match a with
      | ⟨0, _⟩ => by show i.val = 0 + i.val; omega
      | ⟨1, _⟩ => by show 0 = 0 + 0; rfl
      | ⟨2, _⟩ => by show d.val = 0 + d.val; omega)

theorem xsV1_apply (y : FVec Ideal S4096x4x16 .f32) (i : Fin 4096) (d : Fin 16) : xsV1 y (ix2 i d) = y (ix3 i (1 : Fin 4) d) := by
  unfold xsV1
  refine (reshape_apply _ i d).trans ?_
  exact extractStridedSlice_apply ![0, 1, 0] y slices_S4096x4x16_S4096x1x16_0_1_0 (ix3 i (0 : Fin 1) d) (ix3 i (1 : Fin 4) d)
    (fun a => match a with
      | ⟨0, _⟩ => by show i.val = 0 + i.val; omega
      | ⟨1, _⟩ => by show 1 = 1 + 0; rfl
      | ⟨2, _⟩ => by show d.val = 0 + d.val; omega)

theorem xsV2_apply (y : FVec Ideal S4096x4x16 .f32) (i : Fin 4096) (d : Fin 16) : xsV2 y (ix2 i d) = y (ix3 i (2 : Fin 4) d) := by
  unfold xsV2
  refine (reshape_apply _ i d).trans ?_
  exact extractStridedSlice_apply ![0, 2, 0] y slices_S4096x4x16_S4096x1x16_0_2_0 (ix3 i (0 : Fin 1) d) (ix3 i (2 : Fin 4) d)
    (fun a => match a with
      | ⟨0, _⟩ => by show i.val = 0 + i.val; omega
      | ⟨1, _⟩ => by show 2 = 2 + 0; rfl
      | ⟨2, _⟩ => by show d.val = 0 + d.val; omega)

theorem xsV3_apply (y : FVec Ideal S4096x4x16 .f32) (i : Fin 4096) (d : Fin 16) : xsV3 y (ix2 i d) = y (ix3 i (3 : Fin 4) d) := by
  unfold xsV3
  refine (reshape_apply _ i d).trans ?_
  exact extractStridedSlice_apply ![0, 3, 0] y slices_S4096x4x16_S4096x1x16_0_3_0 (ix3 i (0 : Fin 1) d) (ix3 i (3 : Fin 4) d)
    (fun a => match a with
      | ⟨0, _⟩ => by show i.val = 0 + i.val; omega
      | ⟨1, _⟩ => by show 3 = 3 + 0; rfl
      | ⟨2, _⟩ => by show d.val = 0 + d.val; omega)

/-! ## The pre-activation -/

set_option maxHeartbeats 400000 in
/-- `(a · w)[i, q] = Σ_d a[i, d] · w[d, q]`. -/
theorem dg_apply (a : FVec Ideal S4096x16 .f32) (w : FVec Ideal S16x64 .f32) (i : Fin 4096) (q : Fin 64) :
    Host.dotGeneral (F := Ideal) dot_S4096x16_S16x64_S4096x64_1_0_0_1_n_n none a w (ix2 i q)
      = ∑ d : Fin 16, a (ix2 i d) * w (ix2 d q) := by
  simp only [Host.dotGeneral]
  rw [Ideal.dotGeneral_apply,
    ← Equiv.sum_comp (contrEquiv1 dot_S4096x16_S16x64_S4096x64_1_0_0_1_n_n 16 rfl rfl).symm]
  refine Finset.sum_congr rfl fun k _ => ?_
  have hk := contrEquiv1_symm_val dot_S4096x16_S16x64_S4096x64_1_0_0_1_n_n 16 rfl rfl k
  have el : dot_S4096x16_S16x64_S4096x64_1_0_0_1_n_n.lhsIdx (ix2 i q)
      ((contrEquiv1 dot_S4096x16_S16x64_S4096x64_1_0_0_1_n_n 16 rfl rfl).symm k) = ix2 i k :=
    funext fun a => Fin.ext (by
      match a with
      | ⟨0, _⟩ => exact ReadP.lhs_main_v63_0 _ _
      | ⟨1, _⟩ => exact (ReadP.lhs_main_v63_1 _ _).trans hk)
  have er : dot_S4096x16_S16x64_S4096x64_1_0_0_1_n_n.rhsIdx (ix2 i q)
      ((contrEquiv1 dot_S4096x16_S16x64_S4096x64_1_0_0_1_n_n 16 rfl rfl).symm k) = ix2 k q :=
    funext fun a => Fin.ext (by
      match a with
      | ⟨0, _⟩ => exact (ReadP.rhs_main_v63_0 _ _).trans hk
      | ⟨1, _⟩ => exact ReadP.rhs_main_v63_1 _ _)
  rw [el, er]

/-- The bias vector as a row, broadcast down the rows. -/
def biasV (b : FVec Ideal S64 .f32) : FVec Ideal S4096x64 .f32 :=
  broadcastInDim S4096x64 ![0, 1] bcast_S1x64_S4096x64_0_1 (broadcastInDim S1x64 ![1] bcast_S64_S1x64_1 b)

theorem biasV_apply (b : FVec Ideal S64 .f32) (i : Fin 4096) (q : Fin 64) : biasV b (ix2 i q) = b (ix1 q) := by
  unfold biasV
  refine (broadcastInDim_apply _ bcast_S1x64_S4096x64_0_1 _ (ix2 i q) (ix2 (0 : Fin 1) q) (fun a => match a with
    | ⟨0, _⟩ => by show 0 = if (1 : Nat) = 1 then 0 else i.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- A step's pre-activation. -/
def preV (xs hp : FVec Ideal S4096x16 .f32) (w6 w7 : FVec Ideal S16x64 .f32) (b8 : FVec Ideal S64 .f32) : FVec Ideal S4096x64 .f32 :=
  addf (addf (Host.dotGeneral (F := Ideal) dot_S4096x16_S16x64_S4096x64_1_0_0_1_n_n none xs w6)
      (Host.dotGeneral (F := Ideal) dot_S4096x16_S16x64_S4096x64_1_0_0_1_n_n none hp w7)) (biasV b8)

theorem preV_apply (xs hp : FVec Ideal S4096x16 .f32) (w6 w7 : FVec Ideal S16x64 .f32) (b8 : FVec Ideal S64 .f32)
    (X H : Fin 4096 → Fin 16 → EReal) (hX : ∀ i d, xs (ix2 i d) = X i d) (hH : ∀ i d, hp (ix2 i d) = H i d)
    (i : Fin 4096) (q : Fin 64) :
    preV xs hp w6 w7 b8 (ix2 i q)
      = pre (fun d q => w6 (ix2 d q)) (fun d q => w7 (ix2 d q)) (fun q => b8 (ix1 q)) X H i q := by
  unfold preV
  rw [addf_apply, addf_apply, dg_apply, dg_apply, biasV_apply]
  unfold pre
  simp only [hX, hH]

/-! ## The gates, the cell state, the hidden state -/

/-- `1 / (1 + exp(−z))`, with the word for 1. -/
def sigV (z : FVec Ideal S4096x16 .f32) : FVec Ideal S4096x16 .f32 :=
  Host.divf oneV (addf oneV (Host.exp (Host.negf z)))

theorem sigV_apply (z : FVec Ideal S4096x16 .f32) (j : S4096x16.Idx) : sigV z j = Ideal.logistic (z j) := by
  show Ideal.div (oneV j) (oneV j + Ideal.exp (-(z j))) = _
  rw [oneV_apply]
  exact logistic_words (z j)

theorem hsliceI (Z : FVec Ideal S4096x64 .f32) (i : Fin 4096) (k : Fin 16) :
    extractStridedSlice S4096x16 ![0, 0] Z slices_S4096x64_S4096x16_0_0 (ix2 i k) = Z (ix2 i (colI k)) :=
  extractStridedSlice_apply ![0, 0] Z slices_S4096x64_S4096x16_0_0 (ix2 i k) (ix2 i (colI k)) (fun a => match a with
    | ⟨0, _⟩ => by show i.val = 0 + i.val; omega
    | ⟨1, _⟩ => by show k.val = 0 + k.val; omega)
theorem hsliceF (Z : FVec Ideal S4096x64 .f32) (i : Fin 4096) (k : Fin 16) :
    extractStridedSlice S4096x16 ![0, 16] Z slices_S4096x64_S4096x16_0_16 (ix2 i k) = Z (ix2 i (colF k)) :=
  extractStridedSlice_apply ![0, 16] Z slices_S4096x64_S4096x16_0_16 (ix2 i k) (ix2 i (colF k)) (fun a => match a with
    | ⟨0, _⟩ => by show i.val = 0 + i.val; omega
    | ⟨1, _⟩ => by show 16 + k.val = 16 + k.val; rfl)
theorem hsliceG (Z : FVec Ideal S4096x64 .f32) (i : Fin 4096) (k : Fin 16) :
    extractStridedSlice S4096x16 ![0, 32] Z slices_S4096x64_S4096x16_0_32 (ix2 i k) = Z (ix2 i (colG k)) :=
  extractStridedSlice_apply ![0, 32] Z slices_S4096x64_S4096x16_0_32 (ix2 i k) (ix2 i (colG k)) (fun a => match a with
    | ⟨0, _⟩ => by show i.val = 0 + i.val; omega
    | ⟨1, _⟩ => by show 32 + k.val = 32 + k.val; rfl)
theorem hsliceO (Z : FVec Ideal S4096x64 .f32) (i : Fin 4096) (k : Fin 16) :
    extractStridedSlice S4096x16 ![0, 48] Z slices_S4096x64_S4096x16_0_48 (ix2 i k) = Z (ix2 i (colO k)) :=
  extractStridedSlice_apply ![0, 48] Z slices_S4096x64_S4096x16_0_48 (ix2 i k) (ix2 i (colO k)) (fun a => match a with
    | ⟨0, _⟩ => by show i.val = 0 + i.val; omega
    | ⟨1, _⟩ => by show 48 + k.val = 48 + k.val; rfl)

/-- The next cell state: forget gate times the old cell state, plus input gate times candidate. -/
def cellV (z : FVec Ideal S4096x64 .f32) (cp : FVec Ideal S4096x16 .f32) : FVec Ideal S4096x16 .f32 :=
  addf (mulf (sigV (extractStridedSlice S4096x16 ![0, 16] z slices_S4096x64_S4096x16_0_16)) cp)
    (mulf (sigV (extractStridedSlice S4096x16 ![0, 0] z slices_S4096x64_S4096x16_0_0))
      (Host.tanh (extractStridedSlice S4096x16 ![0, 32] z slices_S4096x64_S4096x16_0_32)))

/-- The next hidden state: output gate times tanh of the cell state. -/
def hidV (z : FVec Ideal S4096x64 .f32) (c : FVec Ideal S4096x16 .f32) : FVec Ideal S4096x16 .f32 :=
  mulf (sigV (extractStridedSlice S4096x16 ![0, 48] z slices_S4096x64_S4096x16_0_48)) (Host.tanh c)

theorem cellV_apply (z : FVec Ideal S4096x64 .f32) (cp : FVec Ideal S4096x16 .f32) (Z : Fin 4096 → Fin 64 → EReal)
    (C : Fin 4096 → Fin 16 → EReal) (hz : ∀ i q, z (ix2 i q) = Z i q) (hc : ∀ i k, cp (ix2 i k) = C i k) (i : Fin 4096) (k : Fin 16) :
    cellV z cp (ix2 i k) = cellZ Z C i k := by
  show sigV (extractStridedSlice S4096x16 ![0, 16] z slices_S4096x64_S4096x16_0_16) (ix2 i k) * cp (ix2 i k)
      + sigV (extractStridedSlice S4096x16 ![0, 0] z slices_S4096x64_S4096x16_0_0) (ix2 i k)
        * Ideal.tanh (extractStridedSlice S4096x16 ![0, 32] z slices_S4096x64_S4096x16_0_32 (ix2 i k)) = _
  rw [sigV_apply, sigV_apply, hsliceF, hsliceI, hsliceG, hz, hz, hz, hc]
  rfl

theorem hidV_apply (z : FVec Ideal S4096x64 .f32) (c : FVec Ideal S4096x16 .f32) (Z : Fin 4096 → Fin 64 → EReal)
    (C : Fin 4096 → Fin 16 → EReal) (hz : ∀ i q, z (ix2 i q) = Z i q) (hc : ∀ i k, c (ix2 i k) = C i k) (i : Fin 4096) (k : Fin 16) :
    hidV z c (ix2 i k) = hidZ Z C i k := by
  show sigV (extractStridedSlice S4096x16 ![0, 48] z slices_S4096x64_S4096x16_0_48) (ix2 i k) * Ideal.tanh (c (ix2 i k)) = _
  rw [sigV_apply, hsliceO, hz, hc]
  rfl

/-! ## The softmax of a row -/

theorem red : S4096x16.Reduces [1] S4096 := by decide

/-- The source index over row `i` with column `k` inserted. -/
theorem lift_eq (i : Fin 4096) (k : Fin 16) : red.lift (ix1 i) k = ix2 i k := by
  funext a
  apply Fin.ext
  match a with
  | ⟨0, _⟩ => rfl
  | ⟨1, _⟩ => rfl

/-- The row maximum as the reference takes it: the fold of max from −∞ over the row, then the maximum with −∞. -/
def rowMaxV (h : FVec Ideal S4096x16 .f32) : FVec Ideal S4096 .f32 :=
  maximumf (broadcastInDim S4096 ![] bcast_S_S4096 (constant (F := Ideal) S_ .f32 0xFF800000#32))
    (Host.reduce FloatOps.maximumf h (constant (F := Ideal) S_ .f32 0xFF800000#32) reducesTo_S4096x16_S4096_d1 h_S_)

theorem rowMaxV_apply (h : FVec Ideal S4096x16 .f32) (i : Fin 4096) : rowMaxV h (ix1 i) = rowMax (fun k => h (ix2 i k)) := by
  show max (broadcastInDim S4096 ![] bcast_S_S4096 (constant (F := Ideal) S_ .f32 0xFF800000#32) (ix1 i))
      (Host.reduce FloatOps.maximumf h (constant (F := Ideal) S_ .f32 0xFF800000#32) reducesTo_S4096x16_S4096_d1 h_S_ (ix1 i)) = _
  rw [broadcastInDim_apply _ bcast_S_S4096 (constant (F := Ideal) S_ .f32 0xFF800000#32) (ix1 i) (fun a => a.elim0) (fun a => a.elim0),
    Host.reduce_eq_fold_single FloatOps.maximumf h (constant (F := Ideal) S_ .f32 0xFF800000#32) reducesTo_S4096x16_S4096_d1 red h_S_ (ix1 i)]
  refine (max_negInf_left _).trans ?_
  unfold rowMax
  refine congrArg (Finset.fold max _ · Finset.univ) ?_
  funext k
  exact congrArg h (lift_eq i k)

/-- A vector of row statistics as a column, broadcast along the rows. -/
def colV (v : FVec Ideal S4096 .f32) : FVec Ideal S4096x16 .f32 :=
  broadcastInDim S4096x16 ![0, 1] bcast_S4096x1_S4096x16_0_1 (broadcastInDim S4096x1 ![0] bcast_S4096_S4096x1_0 v)

theorem colV_apply (v : FVec Ideal S4096 .f32) (i : Fin 4096) (k : Fin 16) : colV v (ix2 i k) = v (ix1 i) := by
  unfold colV
  refine (broadcastInDim_apply _ bcast_S4096x1_S4096x16_0_1 _ (ix2 i k) (ix2 i (0 : Fin 1)) (fun a => match a with
    | ⟨0, _⟩ => by show i.val = if (4096 : Nat) = 1 then 0 else i.val; rw [if_neg (by decide)]
    | ⟨1, _⟩ => by show 0 = if (1 : Nat) = 1 then 0 else k.val; rw [if_pos rfl])).trans ?_
  exact broadcastInDim_apply _ bcast_S4096_S4096x1_0 v (ix2 i (0 : Fin 1)) (ix1 i) (fun a => match a with
    | ⟨0, _⟩ => by show i.val = if (4096 : Nat) = 1 then 0 else i.val; rw [if_neg (by decide)])

/-- The exponentials shifted by the row maximum. -/
def expV (h : FVec Ideal S4096x16 .f32) : FVec Ideal S4096x16 .f32 := Host.exp (subf h (colV (rowMaxV h)))

theorem expV_apply (h : FVec Ideal S4096x16 .f32) (H : Fin 4096 → Fin 16 → EReal) (hH : ∀ i k, h (ix2 i k) = H i k)
    (i : Fin 4096) (k : Fin 16) : expV h (ix2 i k) = Ideal.exp (H i k - rowMax (H i)) := by
  show Ideal.exp (h (ix2 i k) - colV (rowMaxV h) (ix2 i k)) = _
  rw [colV_apply, rowMaxV_apply, hH]
  simp only [hH]

/-- The row sum of a [4096,16] matrix from the zero word. -/
theorem rowsumV_apply (e : FVec Ideal S4096x16 .f32) (i : Fin 4096) :
    Host.reduceAdd (F := Ideal) e (constant (F := Ideal) S_ .f32 0x00000000#32) reducesTo_S4096x16_S4096_d1 h_S_ (ix1 i)
      = ∑ k : Fin 16, e (ix2 i k) := by
  simp only [Host.reduceAdd, Ideal.hostReduceAdd_def]
  rw [Ideal.hostReduceAdd_single reducesTo_S4096x16_S4096_d1 red]
  show Ideal.ofBits .f32 0x00000000#32 + _ = _
  rw [zero_word, zero_add]
  exact Finset.sum_congr rfl fun k _ => congrArg e (lift_eq i k)

/-- The softmax as the reference computes it. -/
def smV (h : FVec Ideal S4096x16 .f32) : FVec Ideal S4096x16 .f32 :=
  Host.divf (expV h)
    (colV (Host.reduceAdd (F := Ideal) (expV h) (constant (F := Ideal) S_ .f32 0x00000000#32) reducesTo_S4096x16_S4096_d1 h_S_))

theorem smV_apply (h : FVec Ideal S4096x16 .f32) (H : Fin 4096 → Fin 16 → EReal) (hH : ∀ i k, h (ix2 i k) = H i k)
    (i : Fin 4096) (k : Fin 16) : smV h (ix2 i k) = softmax H i k := by
  show Ideal.div (expV h (ix2 i k))
    (colV (Host.reduceAdd (F := Ideal) (expV h) (constant (F := Ideal) S_ .f32 0x00000000#32) reducesTo_S4096x16_S4096_d1 h_S_) (ix2 i k)) = _
  rw [colV_apply, rowsumV_apply, expV_apply h H hH]
  unfold softmax
  simp only [expV_apply h H hH]

end Cert.RefLstm

end
-- ==== Proof.RefLstm.lean ====
/-
  The reference's LSTM and softmax stage is the specification.

  After the stacked [4096,4,16] input, the reference's program is four copies of one step followed by a softmax. Each
  numbered stage of a step is, by unfolding its definition, the generic composition of the previous stages — slice and
  reshape of the input, the two products plus the bias, the gates, the cell and the hidden update. Reading each at an
  element in turn: the pre-activation is the specification's `pre` of the time slice and the previous hidden state, the
  cell and hidden states are the specification's `c1 … c4`, `h1 … h4`, and the last stage is the softmax of `h4`.
  The stacked input enters only as an opaque array: its (i, s, d) entry is the specification's input slice s at (i, d).
-/
import proofs.«148102_g22909355557047_cont_8to1_1754_2_alg».proof.Proof.RefLstmOps

noncomputable section

open scoped BigOperators

namespace Cert.RefLstm

open Idealize.ShloMosaic Idealize.ShloMosaic.ValueIdx Cert.ReferenceIdeal Cert.ReferenceIdeal.Gen Cert.ReferenceIdeal.ReadP
  Cert.SpecLstm

/-- The stacked input, the weights and the bias as functions of their coordinates. -/
abbrev Xs (y : FVec Ideal S4096x4x16 .f32) : Fin 4 → Fin 4096 → Fin 16 → EReal := fun s i c => y (ix3 i s c)
abbrev mW (w : FVec Ideal S16x64 .f32) : Fin 16 → Fin 64 → EReal := fun d q => w (ix2 d q)
abbrev mB8 (b : FVec Ideal S64 .f32) : Fin 64 → EReal := fun q => b (ix1 q)

section
variable (x0 : (⟨S4096x4x128, .f32⟩ : BufTy).Contents (Elt Ideal)) (x1 : (⟨S4x4096x4096, .f32⟩ : BufTy).Contents (Elt Ideal))
  (x2 : (⟨S128x32, .f32⟩ : BufTy).Contents (Elt Ideal)) (x3 : (⟨S32, .f32⟩ : BufTy).Contents (Elt Ideal))
  (x4 : (⟨S32x16, .f32⟩ : BufTy).Contents (Elt Ideal)) (x5 : (⟨S16, .f32⟩ : BufTy).Contents (Elt Ideal))
  (x6 x7 : (⟨S16x64, .f32⟩ : BufTy).Contents (Elt Ideal)) (x8 : (⟨S64, .f32⟩ : BufTy).Contents (Elt Ideal))

/-! ## Each stage is the generic composition of the previous ones -/

theorem z1_eq : val_main_v68 (F := Ideal) x0 x1 x2 x3 x4 x5 x6 x7 x8 = preV (xsV0 (val_main_v58 (F := Ideal) x0 x1 x2 x3 x4 x5)) zeroV x6 x7 x8 := rfl
theorem c1_eq : val_main_v94 (F := Ideal) x0 x1 x2 x3 x4 x5 x6 x7 x8 = cellV (val_main_v68 (F := Ideal) x0 x1 x2 x3 x4 x5 x6 x7 x8) zeroV := rfl
theorem h1_eq : val_main_v96 (F := Ideal) x0 x1 x2 x3 x4 x5 x6 x7 x8 = hidV (val_main_v68 (F := Ideal) x0 x1 x2 x3 x4 x5 x6 x7 x8) (val_main_v94 (F := Ideal) x0 x1 x2 x3 x4 x5 x6 x7 x8) := rfl
theorem z2_eq : val_main_v104 (F := Ideal) x0 x1 x2 x3 x4 x5 x6 x7 x8 = preV (xsV1 (val_main_v58 (F := Ideal) x0 x1 x2 x3 x4 x5)) (val_main_v96 (F := Ideal) x0 x1 x2 x3 x4 x5 x6 x7 x8) x6 x7 x8 := rfl
theorem c2_eq : val_main_v130 (F := Ideal) x0 x1 x2 x3 x4 x5 x6 x7 x8 = cellV (val_main_v104 (F := Ideal) x0 x1 x2 x3 x4 x5 x6 x7 x8) (val_main_v94 (F := Ideal) x0 x1 x2 x3 x4 x5 x6 x7 x8) := rfl
theorem h2_eq : val_main_v132 (F := Ideal) x0 x1 x2 x3 x4 x5 x6 x7 x8 = hidV (val_main_v104 (F := Ideal) x0 x1 x2 x3 x4 x5 x6 x7 x8) (val_main_v130 (F := Ideal) x0 x1 x2 x3 x4 x5 x6 x7 x8) := rfl
theorem z3_eq : val_main_v140 (F := Ideal) x0 x1 x2 x3 x4 x5 x6 x7 x8 = preV (xsV2 (val_main_v58 (F := Ideal) x0 x1 x2 x3 x4 x5)) (val_main_v132 (F := Ideal) x0 x1 x2 x3 x4 x5 x6 x7 x8) x6 x7 x8 := rfl
theorem c3_eq : val_main_v166 (F := Ideal) x0 x1 x2 x3 x4 x5 x6 x7 x8 = cellV (val_main_v140 (F := Ideal) x0 x1 x2 x3 x4 x5 x6 x7 x8) (val_main_v130 (F := Ideal) x0 x1 x2 x3 x4 x5 x6 x7 x8) := rfl
theorem h3_eq : val_main_v168 (F := Ideal) x0 x1 x2 x3 x4 x5 x6 x7 x8 = hidV (val_main_v140 (F := Ideal) x0 x1 x2 x3 x4 x5 x6 x7 x8) (val_main_v166 (F := Ideal) x0 x1 x2 x3 x4 x5 x6 x7 x8) := rfl
theorem z4_eq : val_main_v176 (F := Ideal) x0 x1 x2 x3 x4 x5 x6 x7 x8 = preV (xsV3 (val_main_v58 (F := Ideal) x0 x1 x2 x3 x4 x5)) (val_main_v168 (F := Ideal) x0 x1 x2 x3 x4 x5 x6 x7 x8) x6 x7 x8 := rfl
theorem c4_eq : val_main_v202 (F := Ideal) x0 x1 x2 x3 x4 x5 x6 x7 x8 = cellV (val_main_v176 (F := Ideal) x0 x1 x2 x3 x4 x5 x6 x7 x8) (val_main_v166 (F := Ideal) x0 x1 x2 x3 x4 x5 x6 x7 x8) := rfl
theorem h4_eq : val_main_v204 (F := Ideal) x0 x1 x2 x3 x4 x5 x6 x7 x8 = hidV (val_main_v176 (F := Ideal) x0 x1 x2 x3 x4 x5 x6 x7 x8) (val_main_v202 (F := Ideal) x0 x1 x2 x3 x4 x5 x6 x7 x8) := rfl
theorem out_eq : val_main_v215 (F := Ideal) x0 x1 x2 x3 x4 x5 x6 x7 x8 = smV (val_main_v204 (F := Ideal) x0 x1 x2 x3 x4 x5 x6 x7 x8) := rfl

/-! ## The chain -/

/-- The reference's result at (i, c) is the specification's `out` of the stacked input's slices, the two weight
    matrices and the bias vector. -/
theorem ref_apply (i : Fin 4096) (c : Fin 16) :
    val_main_v215 (F := Ideal) x0 x1 x2 x3 x4 x5 x6 x7 x8 (ix2 i c)
      = out (fun s i c => val_main_v58 (F := Ideal) x0 x1 x2 x3 x4 x5 (ix3 i s c)) (fun d q => x6 (ix2 d q)) (fun d q => x7 (ix2 d q)) (fun q => x8 (ix1 q)) i c := by
  have hz1 : ∀ i q, val_main_v68 (F := Ideal) x0 x1 x2 x3 x4 x5 x6 x7 x8 (ix2 i q) = pre (mW x6) (mW x7) (mB8 x8) (Xs (val_main_v58 (F := Ideal) x0 x1 x2 x3 x4 x5) 0) init i q := fun i q =>
    (congrFun (z1_eq x0 x1 x2 x3 x4 x5 x6 x7 x8) (ix2 i q)).trans
      (preV_apply (xsV0 (val_main_v58 (F := Ideal) x0 x1 x2 x3 x4 x5)) zeroV x6 x7 x8 (Xs (val_main_v58 (F := Ideal) x0 x1 x2 x3 x4 x5) 0) init (xsV0_apply (val_main_v58 (F := Ideal) x0 x1 x2 x3 x4 x5)) zeroV_apply i q)
  have hc1 : ∀ i k, val_main_v94 (F := Ideal) x0 x1 x2 x3 x4 x5 x6 x7 x8 (ix2 i k) = c1 (Xs (val_main_v58 (F := Ideal) x0 x1 x2 x3 x4 x5)) (mW x6) (mW x7) (mB8 x8) i k := fun i k =>
    (congrFun (c1_eq x0 x1 x2 x3 x4 x5 x6 x7 x8) (ix2 i k)).trans
      (cellV_apply (val_main_v68 (F := Ideal) x0 x1 x2 x3 x4 x5 x6 x7 x8) zeroV (pre (mW x6) (mW x7) (mB8 x8) (Xs (val_main_v58 (F := Ideal) x0 x1 x2 x3 x4 x5) 0) init) init hz1 zeroV_apply i k)
  have hh1 : ∀ i k, val_main_v96 (F := Ideal) x0 x1 x2 x3 x4 x5 x6 x7 x8 (ix2 i k) = h1 (Xs (val_main_v58 (F := Ideal) x0 x1 x2 x3 x4 x5)) (mW x6) (mW x7) (mB8 x8) i k := fun i k =>
    (congrFun (h1_eq x0 x1 x2 x3 x4 x5 x6 x7 x8) (ix2 i k)).trans
      (hidV_apply (val_main_v68 (F := Ideal) x0 x1 x2 x3 x4 x5 x6 x7 x8) (val_main_v94 (F := Ideal) x0 x1 x2 x3 x4 x5 x6 x7 x8) (pre (mW x6) (mW x7) (mB8 x8) (Xs (val_main_v58 (F := Ideal) x0 x1 x2 x3 x4 x5) 0) init) (c1 (Xs (val_main_v58 (F := Ideal) x0 x1 x2 x3 x4 x5)) (mW x6) (mW x7) (mB8 x8)) hz1 hc1 i k)
  have hz2 : ∀ i q, val_main_v104 (F := Ideal) x0 x1 x2 x3 x4 x5 x6 x7 x8 (ix2 i q) = pre (mW x6) (mW x7) (mB8 x8) (Xs (val_main_v58 (F := Ideal) x0 x1 x2 x3 x4 x5) 1) (h1 (Xs (val_main_v58 (F := Ideal) x0 x1 x2 x3 x4 x5)) (mW x6) (mW x7) (mB8 x8)) i q := fun i q =>
    (congrFun (z2_eq x0 x1 x2 x3 x4 x5 x6 x7 x8) (ix2 i q)).trans
      (preV_apply (xsV1 (val_main_v58 (F := Ideal) x0 x1 x2 x3 x4 x5)) (val_main_v96 (F := Ideal) x0 x1 x2 x3 x4 x5 x6 x7 x8) x6 x7 x8 (Xs (val_main_v58 (F := Ideal) x0 x1 x2 x3 x4 x5) 1) (h1 (Xs (val_main_v58 (F := Ideal) x0 x1 x2 x3 x4 x5)) (mW x6) (mW x7) (mB8 x8)) (xsV1_apply (val_main_v58 (F := Ideal) x0 x1 x2 x3 x4 x5)) hh1 i q)
  have hc2 : ∀ i k, val_main_v130 (F := Ideal) x0 x1 x2 x3 x4 x5 x6 x7 x8 (ix2 i k) = c2 (Xs (val_main_v58 (F := Ideal) x0 x1 x2 x3 x4 x5)) (mW x6) (mW x7) (mB8 x8) i k := fun i k =>
    (congrFun (c2_eq x0 x1 x2 x3 x4 x5 x6 x7 x8) (ix2 i k)).trans
      (cellV_apply (val_main_v104 (F := Ideal) x0 x1 x2 x3 x4 x5 x6 x7 x8) (val_main_v94 (F := Ideal) x0 x1 x2 x3 x4 x5 x6 x7 x8) (pre (mW x6) (mW x7) (mB8 x8) (Xs (val_main_v58 (F := Ideal) x0 x1 x2 x3 x4 x5) 1) (h1 (Xs (val_main_v58 (F := Ideal) x0 x1 x2 x3 x4 x5)) (mW x6) (mW x7) (mB8 x8))) (c1 (Xs (val_main_v58 (F := Ideal) x0 x1 x2 x3 x4 x5)) (mW x6) (mW x7) (mB8 x8)) hz2 hc1 i k)
  have hh2 : ∀ i k, val_main_v132 (F := Ideal) x0 x1 x2 x3 x4 x5 x6 x7 x8 (ix2 i k) = h2 (Xs (val_main_v58 (F := Ideal) x0 x1 x2 x3 x4 x5)) (mW x6) (mW x7) (mB8 x8) i k := fun i k =>
    (congrFun (h2_eq x0 x1 x2 x3 x4 x5 x6 x7 x8) (ix2 i k)).trans
      (hidV_apply (val_main_v104 (F := Ideal) x0 x1 x2 x3 x4 x5 x6 x7 x8) (val_main_v130 (F := Ideal) x0 x1 x2 x3 x4 x5 x6 x7 x8) (pre (mW x6) (mW x7) (mB8 x8) (Xs (val_main_v58 (F := Ideal) x0 x1 x2 x3 x4 x5) 1) (h1 (Xs (val_main_v58 (F := Ideal) x0 x1 x2 x3 x4 x5)) (mW x6) (mW x7) (mB8 x8))) (c2 (Xs (val_main_v58 (F := Ideal) x0 x1 x2 x3 x4 x5)) (mW x6) (mW x7) (mB8 x8)) hz2 hc2 i k)
  have hz3 : ∀ i q, val_main_v140 (F := Ideal) x0 x1 x2 x3 x4 x5 x6 x7 x8 (ix2 i q) = pre (mW x6) (mW x7) (mB8 x8) (Xs (val_main_v58 (F := Ideal) x0 x1 x2 x3 x4 x5) 2) (h2 (Xs (val_main_v58 (F := Ideal) x0 x1 x2 x3 x4 x5)) (mW x6) (mW x7) (mB8 x8)) i q := fun i q =>
    (congrFun (z3_eq x0 x1 x2 x3 x4 x5 x6 x7 x8) (ix2 i q)).trans
      (preV_apply (xsV2 (val_main_v58 (F := Ideal) x0 x1 x2 x3 x4 x5)) (val_main_v132 (F := Ideal) x0 x1 x2 x3 x4 x5 x6 x7 x8) x6 x7 x8 (Xs (val_main_v58 (F := Ideal) x0 x1 x2 x3 x4 x5) 2) (h2 (Xs (val_main_v58 (F := Ideal) x0 x1 x2 x3 x4 x5)) (mW x6) (mW x7) (mB8 x8)) (xsV2_apply (val_main_v58 (F := Ideal) x0 x1 x2 x3 x4 x5)) hh2 i q)
  have hc3 : ∀ i k, val_main_v166 (F := Ideal) x0 x1 x2 x3 x4 x5 x6 x7 x8 (ix2 i k) = c3 (Xs (val_main_v58 (F := Ideal) x0 x1 x2 x3 x4 x5)) (mW x6) (mW x7) (mB8 x8) i k := fun i k =>
    (congrFun (c3_eq x0 x1 x2 x3 x4 x5 x6 x7 x8) (ix2 i k)).trans
      (cellV_apply (val_main_v140 (F := Ideal) x0 x1 x2 x3 x4 x5 x6 x7 x8) (val_main_v130 (F := Ideal) x0 x1 x2 x3 x4 x5 x6 x7 x8) (pre (mW x6) (mW x7) (mB8 x8) (Xs (val_main_v58 (F := Ideal) x0 x1 x2 x3 x4 x5) 2) (h2 (Xs (val_main_v58 (F := Ideal) x0 x1 x2 x3 x4 x5)) (mW x6) (mW x7) (mB8 x8))) (c2 (Xs (val_main_v58 (F := Ideal) x0 x1 x2 x3 x4 x5)) (mW x6) (mW x7) (mB8 x8)) hz3 hc2 i k)
  have hh3 : ∀ i k, val_main_v168 (F := Ideal) x0 x1 x2 x3 x4 x5 x6 x7 x8 (ix2 i k) = h3 (Xs (val_main_v58 (F := Ideal) x0 x1 x2 x3 x4 x5)) (mW x6) (mW x7) (mB8 x8) i k := fun i k =>
    (congrFun (h3_eq x0 x1 x2 x3 x4 x5 x6 x7 x8) (ix2 i k)).trans
      (hidV_apply (val_main_v140 (F := Ideal) x0 x1 x2 x3 x4 x5 x6 x7 x8) (val_main_v166 (F := Ideal) x0 x1 x2 x3 x4 x5 x6 x7 x8) (pre (mW x6) (mW x7) (mB8 x8) (Xs (val_main_v58 (F := Ideal) x0 x1 x2 x3 x4 x5) 2) (h2 (Xs (val_main_v58 (F := Ideal) x0 x1 x2 x3 x4 x5)) (mW x6) (mW x7) (mB8 x8))) (c3 (Xs (val_main_v58 (F := Ideal) x0 x1 x2 x3 x4 x5)) (mW x6) (mW x7) (mB8 x8)) hz3 hc3 i k)
  have hz4 : ∀ i q, val_main_v176 (F := Ideal) x0 x1 x2 x3 x4 x5 x6 x7 x8 (ix2 i q) = pre (mW x6) (mW x7) (mB8 x8) (Xs (val_main_v58 (F := Ideal) x0 x1 x2 x3 x4 x5) 3) (h3 (Xs (val_main_v58 (F := Ideal) x0 x1 x2 x3 x4 x5)) (mW x6) (mW x7) (mB8 x8)) i q := fun i q =>
    (congrFun (z4_eq x0 x1 x2 x3 x4 x5 x6 x7 x8) (ix2 i q)).trans
      (preV_apply (xsV3 (val_main_v58 (F := Ideal) x0 x1 x2 x3 x4 x5)) (val_main_v168 (F := Ideal) x0 x1 x2 x3 x4 x5 x6 x7 x8) x6 x7 x8 (Xs (val_main_v58 (F := Ideal) x0 x1 x2 x3 x4 x5) 3) (h3 (Xs (val_main_v58 (F := Ideal) x0 x1 x2 x3 x4 x5)) (mW x6) (mW x7) (mB8 x8)) (xsV3_apply (val_main_v58 (F := Ideal) x0 x1 x2 x3 x4 x5)) hh3 i q)
  have hc4 : ∀ i k, val_main_v202 (F := Ideal) x0 x1 x2 x3 x4 x5 x6 x7 x8 (ix2 i k) = c4 (Xs (val_main_v58 (F := Ideal) x0 x1 x2 x3 x4 x5)) (mW x6) (mW x7) (mB8 x8) i k := fun i k =>
    (congrFun (c4_eq x0 x1 x2 x3 x4 x5 x6 x7 x8) (ix2 i k)).trans
      (cellV_apply (val_main_v176 (F := Ideal) x0 x1 x2 x3 x4 x5 x6 x7 x8) (val_main_v166 (F := Ideal) x0 x1 x2 x3 x4 x5 x6 x7 x8) (pre (mW x6) (mW x7) (mB8 x8) (Xs (val_main_v58 (F := Ideal) x0 x1 x2 x3 x4 x5) 3) (h3 (Xs (val_main_v58 (F := Ideal) x0 x1 x2 x3 x4 x5)) (mW x6) (mW x7) (mB8 x8))) (c3 (Xs (val_main_v58 (F := Ideal) x0 x1 x2 x3 x4 x5)) (mW x6) (mW x7) (mB8 x8)) hz4 hc3 i k)
  have hh4 : ∀ i k, val_main_v204 (F := Ideal) x0 x1 x2 x3 x4 x5 x6 x7 x8 (ix2 i k) = h4 (Xs (val_main_v58 (F := Ideal) x0 x1 x2 x3 x4 x5)) (mW x6) (mW x7) (mB8 x8) i k := fun i k =>
    (congrFun (h4_eq x0 x1 x2 x3 x4 x5 x6 x7 x8) (ix2 i k)).trans
      (hidV_apply (val_main_v176 (F := Ideal) x0 x1 x2 x3 x4 x5 x6 x7 x8) (val_main_v202 (F := Ideal) x0 x1 x2 x3 x4 x5 x6 x7 x8) (pre (mW x6) (mW x7) (mB8 x8) (Xs (val_main_v58 (F := Ideal) x0 x1 x2 x3 x4 x5) 3) (h3 (Xs (val_main_v58 (F := Ideal) x0 x1 x2 x3 x4 x5)) (mW x6) (mW x7) (mB8 x8))) (c4 (Xs (val_main_v58 (F := Ideal) x0 x1 x2 x3 x4 x5)) (mW x6) (mW x7) (mB8 x8)) hz4 hc4 i k)
  exact (congrFun (out_eq x0 x1 x2 x3 x4 x5 x6 x7 x8) (ix2 i c)).trans
    (smV_apply (val_main_v204 (F := Ideal) x0 x1 x2 x3 x4 x5 x6 x7 x8) (h4 (Xs (val_main_v58 (F := Ideal) x0 x1 x2 x3 x4 x5)) (mW x6) (mW x7) (mB8 x8)) hh4 i c)

end

end Cert.RefLstm

end
-- ==== Proof.SpecGcn.lean ====
/-
  The graph-convolution stages as one index-by-index function of the argument arrays, over the extended
  reals. With node features `feats` [4096, 4, 128], four dense adjacency slices `adj` [4, 4096, 4096], and the
  two layers' weights and biases:

    Y  i k     = ∑ d, feats i 3 d * W1 d k                       (the last time step's features times W1)
    H1 t i k   = max ((∑ j, adj t i j * Y j k) + b1 k) 0          (first layer, rectified)
    G  t i c   = ∑ k, H1 t i k * W2 k c                           (second layer's feature transform)
    H2 t i c   = (∑ j, adj t i j * G t j c) + b2 c               (second layer's aggregation)

  Every sum is a finite sum in the extended reals; the order of the factors inside each product and of the
  summands' grouping is the one both programs use, so no algebraic law of the extended reals is needed to meet
  this specification: each side unfolds to these sums over the same index sets. The zero of the rectifier is
  kept as the f32 pattern of +0.0 (it is the extended real 0, but nothing here needs to evaluate it).
-/
import Idealize.ShloMosaic.PureOps.Ideal
import Mathlib.Algebra.BigOperators.Group.Finset.Basic

noncomputable section

namespace Cert.SpecGcn

open Idealize.ShloMosaic
open scoped BigOperators

/-- The rectifier's zero: the f32 pattern of +0.0 read as an extended real. -/
abbrev zero : EReal := Ideal.ofBits .f32 0x00000000#32

/-- The rectifier `max x 0`. -/
abbrev relu (x : EReal) : EReal := max x zero

/-- The last time step's features times the first layer's weights. -/
def Y (feats : Fin 4096 → Fin 4 → Fin 128 → EReal) (W1 : Fin 128 → Fin 32 → EReal) (i : Fin 4096) (k : Fin 32) : EReal :=
  ∑ d : Fin 128, feats i 3 d * W1 d k

/-- First layer at time slice `t`: aggregate `Y` over the neighbours, add the bias, rectify. -/
def H1 (feats : Fin 4096 → Fin 4 → Fin 128 → EReal) (adj : Fin 4 → Fin 4096 → Fin 4096 → EReal)
    (W1 : Fin 128 → Fin 32 → EReal) (b1 : Fin 32 → EReal) (t : Fin 4) (i : Fin 4096) (k : Fin 32) : EReal :=
  relu ((∑ j : Fin 4096, adj t i j * Y feats W1 j k) + b1 k)

/-- Second layer's feature transform of the first layer's output. -/
def G (feats : Fin 4096 → Fin 4 → Fin 128 → EReal) (adj : Fin 4 → Fin 4096 → Fin 4096 → EReal)
    (W1 : Fin 128 → Fin 32 → EReal) (b1 : Fin 32 → EReal) (W2 : Fin 32 → Fin 16 → EReal)
    (t : Fin 4) (i : Fin 4096) (c : Fin 16) : EReal :=
  ∑ k : Fin 32, H1 feats adj W1 b1 t i k * W2 k c

/-- Second layer at time slice `t`: aggregate `G` over the neighbours and add the bias. -/
def H2 (feats : Fin 4096 → Fin 4 → Fin 128 → EReal) (adj : Fin 4 → Fin 4096 → Fin 4096 → EReal)
    (W1 : Fin 128 → Fin 32 → EReal) (b1 : Fin 32 → EReal) (W2 : Fin 32 → Fin 16 → EReal) (b2 : Fin 16 → EReal)
    (t : Fin 4) (i : Fin 4096) (c : Fin 16) : EReal :=
  (∑ j : Fin 4096, adj t i j * G feats adj W1 b1 W2 t j c) + b2 c

end Cert.SpecGcn
-- ==== Proof.RefGcn.lean ====
/-
  The reference's graph-convolution stages are the specification `SpecGcn.H2`.

  For each of the four time slices the reference takes the adjacency slice `A_t` (a slice of the leading axis, the
  unit axis dropped), computes `Y = x_last · W1` (the features' last time step), then

      relu (A_t · Y + b1) · W2,       A_t · (that) + b2,

  each product a host `dot_general`, each bias a row broadcast, and stacks the four [4096, 16] results along a new
  middle axis. Read at an index a product is the finite sum over its contracted axis, so each slice's result at
  `(i, c)` is literally `SpecGcn.H2 … t i c`: the arithmetic is read once, for a variable adjacency slice
  (`stage`, `stage_apply`), and the four slices differ only in which slice of the adjacency array they read. The
  stacked tensor at `(i, t, c)` is piece `t` of the concatenation at `(i, 0, c)`.
-/
import proofs.«148102_g22909355557047_cont_8to1_1754_2_alg».proof.Proof.RefReadP
import proofs.«148102_g22909355557047_cont_8to1_1754_2_alg».proof.Proof.SpecGcn
import Idealize.ShloMosaic.Lib.ValueIdx
import Idealize.ShloMosaic.Lib.ValueLayout
import Idealize.ShloMosaic.Lib.Pipeline.Value
import Idealize.ShloMosaic.PureOps.Ideal.Laws

noncomputable section

namespace Cert.RefGcn

open Cert.ReferenceIdeal Cert.ReferenceIdeal.Gen Cert.ReferenceIdeal.ReadP Idealize.ShloMosaic Idealize.ShloMosaic.ValueIdx
open scoped BigOperators

/-! ## Host products at an index -/

/-- A host product `S4096x128` × `S128x32` read at `(p, c)`: the sum over the contracted axis of the left operand's row
    `p` times the right operand's column `c`. -/
theorem dgY_apply {φ₁ φ₂ : FTy} (l : FVec Ideal S4096x128 φ₁) (r : FVec Ideal S128x32 φ₂) (p : Fin 4096) (c : Fin 32) :
    Host.dotGeneral (F := Ideal) dot_S4096x128_S128x32_S4096x32_1_0_0_1_n_n none l r (ix2 p c)
      = ∑ k : Fin 128, l (ix2 p k) * r (ix2 k c) := by
  simp only [Host.dotGeneral]
  rw [Ideal.dotGeneral_apply, ← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx (ix2 p c) ((contrEquiv1 dot_S4096x128_S128x32_S4096x32_1_0_0_1_n_n 128 rfl rfl).symm k) = ix2 p k :=
    funext fun a => Fin.ext (by
      match a with
      | ⟨0, _⟩ => exact lhs_main_v4_0 _ _
      | ⟨1, _⟩ => exact (lhs_main_v4_1 _ _).trans hk)
  have er : dot_S4096x128_S128x32_S4096x32_1_0_0_1_n_n.rhsIdx (ix2 p c) ((contrEquiv1 dot_S4096x128_S128x32_S4096x32_1_0_0_1_n_n 128 rfl rfl).symm k) = ix2 k c :=
    funext fun a => Fin.ext (by
      match a with
      | ⟨0, _⟩ => exact (rhs_main_v4_0 _ _).trans hk
      | ⟨1, _⟩ => exact rhs_main_v4_1 _ _)
  rw [el, er]

/-- A host product `S4096x4096` × `S4096x32` read at `(p, c)`: the sum over the contracted axis of the left operand's row
    `p` times the right operand's column `c`. -/
theorem dgA1_apply {φ₁ φ₂ : FTy} (l : FVec Ideal S4096x4096 φ₁) (r : FVec Ideal S4096x32 φ₂) (p : Fin 4096) (c : Fin 32) :
    Host.dotGeneral (F := Ideal) dot_S4096x4096_S4096x32_S4096x32_1_0_0_1_n_n none l r (ix2 p c)
      = ∑ k : Fin 4096, l (ix2 p k) * r (ix2 k c) := by
  simp only [Host.dotGeneral]
  rw [Ideal.dotGeneral_apply, ← Equiv.sum_comp (contrEquiv1 dot_S4096x4096_S4096x32_S4096x32_1_0_0_1_n_n 4096 rfl rfl).symm]
  refine Finset.sum_congr rfl fun k _ => ?_
  have hk := contrEquiv1_symm_val dot_S4096x4096_S4096x32_S4096x32_1_0_0_1_n_n 4096 rfl rfl k
  have el : dot_S4096x4096_S4096x32_S4096x32_1_0_0_1_n_n.lhsIdx (ix2 p c) ((contrEquiv1 dot_S4096x4096_S4096x32_S4096x32_1_0_0_1_n_n 4096 rfl rfl).symm k) = ix2 p k :=
    funext fun a => Fin.ext (by
      match a with
      | ⟨0, _⟩ => exact lhs_main_v5_0 _ _
      | ⟨1, _⟩ => exact (lhs_main_v5_1 _ _).trans hk)
  have er : dot_S4096x4096_S4096x32_S4096x32_1_0_0_1_n_n.rhsIdx (ix2 p c) ((contrEquiv1 dot_S4096x4096_S4096x32_S4096x32_1_0_0_1_n_n 4096 rfl rfl).symm k) = ix2 k c :=
    funext fun a => Fin.ext (by
      match a with
      | ⟨0, _⟩ => exact (rhs_main_v5_0 _ _).trans hk
      | ⟨1, _⟩ => exact rhs_main_v5_1 _ _)
  rw [el, er]

/-- A host product `S4096x32` × `S32x16` read at `(p, c)`: the sum over the contracted axis of the left operand's row
    `p` times the right operand's column `c`. -/
theorem dgW2_apply {φ₁ φ₂ : FTy} (l : FVec Ideal S4096x32 φ₁) (r : FVec Ideal S32x16 φ₂) (p : Fin 4096) (c : Fin 16) :
    Host.dotGeneral (F := Ideal) dot_S4096x32_S32x16_S4096x16_1_0_0_1_n_n none l r (ix2 p c)
      = ∑ k : Fin 32, l (ix2 p k) * r (ix2 k c) := by
  simp only [Host.dotGeneral]
  rw [Ideal.dotGeneral_apply, ← Equiv.sum_comp (contrEquiv1 dot_S4096x32_S32x16_S4096x16_1_0_0_1_n_n 32 rfl rfl).symm]
  refine Finset.sum_congr rfl fun k _ => ?_
  have hk := contrEquiv1_symm_val dot_S4096x32_S32x16_S4096x16_1_0_0_1_n_n 32 rfl rfl k
  have el : dot_S4096x32_S32x16_S4096x16_1_0_0_1_n_n.lhsIdx (ix2 p c) ((contrEquiv1 dot_S4096x32_S32x16_S4096x16_1_0_0_1_n_n 32 rfl rfl).symm k) = ix2 p k :=
    funext fun a => Fin.ext (by
      match a with
      | ⟨0, _⟩ => exact lhs_main_v10_0 _ _
      | ⟨1, _⟩ => exact (lhs_main_v10_1 _ _).trans hk)
  have er : dot_S4096x32_S32x16_S4096x16_1_0_0_1_n_n.rhsIdx (ix2 p c) ((contrEquiv1 dot_S4096x32_S32x16_S4096x16_1_0_0_1_n_n 32 rfl rfl).symm k) = ix2 k c :=
    funext fun a => Fin.ext (by
      match a with
      | ⟨0, _⟩ => exact (rhs_main_v10_0 _ _).trans hk
      | ⟨1, _⟩ => exact rhs_main_v10_1 _ _)
  rw [el, er]

/-- A host product `S4096x4096` × `S4096x16` read at `(p, c)`: the sum over the contracted axis of the left operand's row
    `p` times the right operand's column `c`. -/
theorem dgA2_apply {φ₁ φ₂ : FTy} (l : FVec Ideal S4096x4096 φ₁) (r : FVec Ideal S4096x16 φ₂) (p : Fin 4096) (c : Fin 16) :
    Host.dotGeneral (F := Ideal) dot_S4096x4096_S4096x16_S4096x16_1_0_0_1_n_n none l r (ix2 p c)
      = ∑ k : Fin 4096, l (ix2 p k) * r (ix2 k c) := by
  simp only [Host.dotGeneral]
  rw [Ideal.dotGeneral_apply, ← Equiv.sum_comp (contrEquiv1 dot_S4096x4096_S4096x16_S4096x16_1_0_0_1_n_n 4096 rfl rfl).symm]
  refine Finset.sum_congr rfl fun k _ => ?_
  have hk := contrEquiv1_symm_val dot_S4096x4096_S4096x16_S4096x16_1_0_0_1_n_n 4096 rfl rfl k
  have el : dot_S4096x4096_S4096x16_S4096x16_1_0_0_1_n_n.lhsIdx (ix2 p c) ((contrEquiv1 dot_S4096x4096_S4096x16_S4096x16_1_0_0_1_n_n 4096 rfl rfl).symm k) = ix2 p k :=
    funext fun a => Fin.ext (by
      match a with
      | ⟨0, _⟩ => exact lhs_main_v11_0 _ _
      | ⟨1, _⟩ => exact (lhs_main_v11_1 _ _).trans hk)
  have er : dot_S4096x4096_S4096x16_S4096x16_1_0_0_1_n_n.rhsIdx (ix2 p c) ((contrEquiv1 dot_S4096x4096_S4096x16_S4096x16_1_0_0_1_n_n 4096 rfl rfl).symm k) = ix2 k c :=
    funext fun a => Fin.ext (by
      match a with
      | ⟨0, _⟩ => exact (rhs_main_v11_0 _ _).trans hk
      | ⟨1, _⟩ => exact rhs_main_v11_1 _ _)
  rw [el, er]

/-! ## One time slice's arithmetic, over a variable adjacency slice -/

/-- One time slice's two layers as the reference spells them, over a variable adjacency slice `A`, the feature
    product `Yv`, the two broadcast biases, the rectifier's zero splat and the second layer's weights. -/
def stage (A : FVec Ideal S4096x4096 .f32) (Yv b1v z : FVec Ideal S4096x32 .f32) (W2 : FVec Ideal S32x16 .f32)
    (b2v : FVec Ideal S4096x16 .f32) : FVec Ideal S4096x16 .f32 :=
  addf (Host.dotGeneral (F := Ideal) dot_S4096x4096_S4096x16_S4096x16_1_0_0_1_n_n none A
    (Host.dotGeneral (F := Ideal) dot_S4096x32_S32x16_S4096x16_1_0_0_1_n_n none
      (maximumf (addf (Host.dotGeneral (F := Ideal) dot_S4096x4096_S4096x32_S4096x32_1_0_0_1_n_n none A Yv) b1v) z) W2)) b2v

/-- That stage at `(i, c)`, from what its operands are at an index: the second layer's sum over the neighbours
    `j` of the adjacency row times the transformed rectified first layer at `j`, plus the bias. -/
theorem stage_apply (A : FVec Ideal S4096x4096 .f32) (Yv b1v z : FVec Ideal S4096x32 .f32) (W2 : FVec Ideal S32x16 .f32)
    (b2v : FVec Ideal S4096x16 .f32)
    (adjt : Fin 4096 → Fin 4096 → EReal) (Yf : Fin 4096 → Fin 32 → EReal) (b1f : Fin 32 → EReal)
    (W2f : Fin 32 → Fin 16 → EReal) (b2f : Fin 16 → EReal)
    (hA : ∀ i j, A (ix2 i j) = adjt i j) (hY : ∀ j k, Yv (ix2 j k) = Yf j k) (hb1 : ∀ i k, b1v (ix2 i k) = b1f k)
    (hz : ∀ i k, z (ix2 i k) = SpecGcn.zero) (hW2 : ∀ k c, W2 (ix2 k c) = W2f k c) (hb2 : ∀ i c, b2v (ix2 i c) = b2f c)
    (i : Fin 4096) (c : Fin 16) :
    stage A Yv b1v z W2 b2v (ix2 i c)
      = (∑ j : Fin 4096, adjt i j * ∑ k : Fin 32, SpecGcn.relu ((∑ j' : Fin 4096, adjt j j' * Yf j' k) + b1f k) * W2f k c)
          + b2f c := by
  unfold stage
  refine (addf_apply _ _ _).trans ?_
  refine congrArg₂ (· + ·) ?_ (hb2 i c)
  refine (dgA2_apply (φ₁ := .f32) (φ₂ := .f32) A _ i c).trans ?_
  refine Finset.sum_congr rfl fun j _ => ?_
  refine congrArg₂ (· * ·) (hA i j) ?_
  refine (dgW2_apply (φ₁ := .f32) (φ₂ := .f32) _ W2 j c).trans ?_
  refine Finset.sum_congr rfl fun k _ => ?_
  refine congrArg₂ (· * ·) ?_ (hW2 k c)
  refine (maximumf_apply _ _ _).trans ?_
  refine congrArg₂ max ?_ (hz j k)
  refine (addf_apply _ _ _).trans ?_
  refine congrArg₂ (· + ·) ?_ (hb1 j k)
  refine (dgA1_apply (φ₁ := .f32) (φ₂ := .f32) A Yv j k).trans ?_
  refine Finset.sum_congr rfl fun j' _ => ?_
  exact congrArg₂ (· * ·) (hA j j') (hY j' k)

/-! ## The feature product, shared by the four time slices -/

/-- The last time step's features: slice 3 of the middle axis, that unit axis dropped. -/
theorem xlast_apply (x0 : (⟨S4096x4x128, .f32⟩ : BufTy).Contents (Elt Ideal)) (j : Fin 4096) (d : Fin 128) :
    val_main_v1 (F := Ideal) x0 (ix2 j d) = x0 (ix3 j (3 : Fin 4) d) := by
  rw [val_main_v1_apply, val_main_v0_apply]
  refine congrArg x0 (funext fun a => Fin.ext ?_)
  have hd := d.isLt
  match a with
  | ⟨0, _⟩ => show (j.val * 128 + d.val) / 128 = j.val; omega
  | ⟨1, _⟩ => rfl
  | ⟨2, _⟩ => show (j.val * 128 + d.val) % 128 = d.val; omega

/-- `x_last · W1` is the specification's `Y`. -/
theorem Y_apply (x0 : (⟨S4096x4x128, .f32⟩ : BufTy).Contents (Elt Ideal)) (x2 : (⟨S128x32, .f32⟩ : BufTy).Contents (Elt Ideal))
    (j : Fin 4096) (k : Fin 32) :
    val_main_v4 (F := Ideal) x0 x2 (ix2 j k) = SpecGcn.Y (fun i s d => x0 (ix3 i s d)) (fun d k => x2 (ix2 d k)) j k := by
  unfold val_main_v4 SpecGcn.Y
  refine (dgY_apply (φ₁ := .f32) (φ₂ := .f32) _ x2 j k).trans ?_
  refine Finset.sum_congr rfl fun d _ => ?_
  exact congrArg (fun x => x * x2 (ix2 d k)) (xlast_apply x0 j d)

/-! ## Time slice 0 -/

/-- Adjacency slice 0, its leading unit axis dropped. -/
theorem adj0_apply (x1 : (⟨S4x4096x4096, .f32⟩ : BufTy).Contents (Elt Ideal)) (i j : Fin 4096) :
    val_main_v3 (F := Ideal) x1 (ix2 i j) = x1 (ix3 (0 : Fin 4) i j) := by
  rw [val_main_v3_apply, val_main_v2_apply]
  refine congrArg x1 (funext fun a => Fin.ext ?_)
  have hj := j.isLt
  have hi := i.isLt
  match a with
  | ⟨0, _⟩ => rfl
  | ⟨1, _⟩ => show (i.val * 4096 + j.val) / 4096 % 4096 = i.val; omega
  | ⟨2, _⟩ => show (i.val * 4096 + j.val) % 4096 = j.val; omega

/-- The first bias broadcast over the rows. -/
theorem b1_0_apply (x3 : (⟨S32, .f32⟩ : BufTy).Contents (Elt Ideal)) (i : Fin 4096) (k : Fin 32) :
    val_main_v7 (F := Ideal) x3 (ix2 i k) = x3 (ix1 k) := by
  rw [val_main_v7_apply, val_main_v6_apply]
  refine congrArg x3 (funext fun a => Fin.ext ?_)
  match a with
  | ⟨0, _⟩ => rfl

/-- The rectifier's zero splat. -/
theorem z0_apply (i : Fin 4096) (k : Fin 32) : val_main_call0_v0 (F := Ideal) (ix2 i k) = SpecGcn.zero := by
  rw [val_main_call0_v0_apply]
  rfl

/-- The second bias broadcast over the rows. -/
theorem b2_0_apply (x5 : (⟨S16, .f32⟩ : BufTy).Contents (Elt Ideal)) (i : Fin 4096) (c : Fin 16) :
    val_main_v13 (F := Ideal) x5 (ix2 i c) = x5 (ix1 c) := by
  rw [val_main_v13_apply, val_main_v12_apply]
  refine congrArg x5 (funext fun a => Fin.ext ?_)
  match a with
  | ⟨0, _⟩ => rfl

/-- Time slice 0's second-layer output is the specification's `H2` at `t = 0`. -/
theorem H2_0_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v14 (F := Ideal) x0 x1 x2 x3 x4 x5 (ix2 i c) = SpecGcn.H2 (fun i s d => x0 (ix3 i s d)) (fun t i j => x1 (ix3 t i j)) (fun d k => x2 (ix2 d k)) (fun k => x3 (ix1 k)) (fun k c => x4 (ix2 k c)) (fun c => x5 (ix1 c)) (0 : Fin 4) i c := by
  have e : val_main_v14 (F := Ideal) x0 x1 x2 x3 x4 x5
      = stage (val_main_v3 (F := Ideal) x1) (val_main_v4 (F := Ideal) x0 x2) (val_main_v7 (F := Ideal) x3) (val_main_call0_v0 (F := Ideal)) x4
          (val_main_v13 (F := Ideal) x5) := by
    unfold val_main_v14 val_main_v11 val_main_v10 val_main_v9 val_main_v8 val_main_v5 stage
    rfl
  rw [e]
  unfold SpecGcn.H2 SpecGcn.G SpecGcn.H1
  exact stage_apply _ _ _ _ _ _ (fun i j => x1 (ix3 (0 : Fin 4) i j))
    (SpecGcn.Y (fun i s d => x0 (ix3 i s d)) (fun d k => x2 (ix2 d k))) (fun k => x3 (ix1 k)) (fun k c => x4 (ix2 k c))
    (fun c => x5 (ix1 c)) (adj0_apply x1) (Y_apply x0 x2)
    (b1_0_apply x3) z0_apply (fun _ _ => rfl) (b2_0_apply x5) i c

/-! ## Time slice 1 -/

/-- Adjacency slice 1, its leading unit axis dropped. -/
theorem adj1_apply (x1 : (⟨S4x4096x4096, .f32⟩ : BufTy).Contents (Elt Ideal)) (i j : Fin 4096) :
    val_main_v16 (F := Ideal) x1 (ix2 i j) = x1 (ix3 (1 : Fin 4) i j) := by
  rw [val_main_v16_apply, val_main_v15_apply]
  refine congrArg x1 (funext fun a => Fin.ext ?_)
  have hj := j.isLt
  have hi := i.isLt
  match a with
  | ⟨0, _⟩ => rfl
  | ⟨1, _⟩ => show (i.val * 4096 + j.val) / 4096 % 4096 = i.val; omega
  | ⟨2, _⟩ => show (i.val * 4096 + j.val) % 4096 = j.val; omega

/-- The first bias broadcast over the rows. -/
theorem b1_1_apply (x3 : (⟨S32, .f32⟩ : BufTy).Contents (Elt Ideal)) (i : Fin 4096) (k : Fin 32) :
    val_main_v20 (F := Ideal) x3 (ix2 i k) = x3 (ix1 k) := by
  rw [val_main_v20_apply, val_main_v19_apply]
  refine congrArg x3 (funext fun a => Fin.ext ?_)
  match a with
  | ⟨0, _⟩ => rfl

/-- The rectifier's zero splat. -/
theorem z1_apply (i : Fin 4096) (k : Fin 32) : val_main_call1_v0 (F := Ideal) (ix2 i k) = SpecGcn.zero := by
  rw [val_main_call1_v0_apply]
  rfl

/-- The second bias broadcast over the rows. -/
theorem b2_1_apply (x5 : (⟨S16, .f32⟩ : BufTy).Contents (Elt Ideal)) (i : Fin 4096) (c : Fin 16) :
    val_main_v26 (F := Ideal) x5 (ix2 i c) = x5 (ix1 c) := by
  rw [val_main_v26_apply, val_main_v25_apply]
  refine congrArg x5 (funext fun a => Fin.ext ?_)
  match a with
  | ⟨0, _⟩ => rfl

/-- Time slice 1's second-layer output is the specification's `H2` at `t = 1`. -/
theorem H2_1_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v27 (F := Ideal) x0 x1 x2 x3 x4 x5 (ix2 i c) = SpecGcn.H2 (fun i s d => x0 (ix3 i s d)) (fun t i j => x1 (ix3 t i j)) (fun d k => x2 (ix2 d k)) (fun k => x3 (ix1 k)) (fun k c => x4 (ix2 k c)) (fun c => x5 (ix1 c)) (1 : Fin 4) i c := by
  have e : val_main_v27 (F := Ideal) x0 x1 x2 x3 x4 x5
      = stage (val_main_v16 (F := Ideal) x1) (val_main_v17 (F := Ideal) x0 x2) (val_main_v20 (F := Ideal) x3) (val_main_call1_v0 (F := Ideal)) x4
          (val_main_v26 (F := Ideal) x5) := by
    unfold val_main_v27 val_main_v24 val_main_v23 val_main_v22 val_main_v21 val_main_v18 stage
    rfl
  rw [e]
  unfold SpecGcn.H2 SpecGcn.G SpecGcn.H1
  exact stage_apply _ _ _ _ _ _ (fun i j => x1 (ix3 (1 : Fin 4) i j))
    (SpecGcn.Y (fun i s d => x0 (ix3 i s d)) (fun d k => x2 (ix2 d k))) (fun k => x3 (ix1 k)) (fun k c => x4 (ix2 k c))
    (fun c => x5 (ix1 c)) (adj1_apply x1) (fun j k => (congrFun (show val_main_v17 (F := Ideal) x0 x2 = val_main_v4 (F := Ideal) x0 x2 from rfl) _).trans (Y_apply x0 x2 j k))
    (b1_1_apply x3) z1_apply (fun _ _ => rfl) (b2_1_apply x5) i c

/-! ## Time slice 2 -/

/-- Adjacency slice 2, its leading unit axis dropped. -/
theorem adj2_apply (x1 : (⟨S4x4096x4096, .f32⟩ : BufTy).Contents (Elt Ideal)) (i j : Fin 4096) :
    val_main_v29 (F := Ideal) x1 (ix2 i j) = x1 (ix3 (2 : Fin 4) i j) := by
  rw [val_main_v29_apply, val_main_v28_apply]
  refine congrArg x1 (funext fun a => Fin.ext ?_)
  have hj := j.isLt
  have hi := i.isLt
  match a with
  | ⟨0, _⟩ => rfl
  | ⟨1, _⟩ => show (i.val * 4096 + j.val) / 4096 % 4096 = i.val; omega
  | ⟨2, _⟩ => show (i.val * 4096 + j.val) % 4096 = j.val; omega

/-- The first bias broadcast over the rows. -/
theorem b1_2_apply (x3 : (⟨S32, .f32⟩ : BufTy).Contents (Elt Ideal)) (i : Fin 4096) (k : Fin 32) :
    val_main_v33 (F := Ideal) x3 (ix2 i k) = x3 (ix1 k) := by
  rw [val_main_v33_apply, val_main_v32_apply]
  refine congrArg x3 (funext fun a => Fin.ext ?_)
  match a with
  | ⟨0, _⟩ => rfl

/-- The rectifier's zero splat. -/
theorem z2_apply (i : Fin 4096) (k : Fin 32) : val_main_call2_v0 (F := Ideal) (ix2 i k) = SpecGcn.zero := by
  rw [val_main_call2_v0_apply]
  rfl

/-- The second bias broadcast over the rows. -/
theorem b2_2_apply (x5 : (⟨S16, .f32⟩ : BufTy).Contents (Elt Ideal)) (i : Fin 4096) (c : Fin 16) :
    val_main_v39 (F := Ideal) x5 (ix2 i c) = x5 (ix1 c) := by
  rw [val_main_v39_apply, val_main_v38_apply]
  refine congrArg x5 (funext fun a => Fin.ext ?_)
  match a with
  | ⟨0, _⟩ => rfl

/-- Time slice 2's second-layer output is the specification's `H2` at `t = 2`. -/
theorem H2_2_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v40 (F := Ideal) x0 x1 x2 x3 x4 x5 (ix2 i c) = SpecGcn.H2 (fun i s d => x0 (ix3 i s d)) (fun t i j => x1 (ix3 t i j)) (fun d k => x2 (ix2 d k)) (fun k => x3 (ix1 k)) (fun k c => x4 (ix2 k c)) (fun c => x5 (ix1 c)) (2 : Fin 4) i c := by
  have e : val_main_v40 (F := Ideal) x0 x1 x2 x3 x4 x5
      = stage (val_main_v29 (F := Ideal) x1) (val_main_v30 (F := Ideal) x0 x2) (val_main_v33 (F := Ideal) x3) (val_main_call2_v0 (F := Ideal)) x4
          (val_main_v39 (F := Ideal) x5) := by
    unfold val_main_v40 val_main_v37 val_main_v36 val_main_v35 val_main_v34 val_main_v31 stage
    rfl
  rw [e]
  unfold SpecGcn.H2 SpecGcn.G SpecGcn.H1
  exact stage_apply _ _ _ _ _ _ (fun i j => x1 (ix3 (2 : Fin 4) i j))
    (SpecGcn.Y (fun i s d => x0 (ix3 i s d)) (fun d k => x2 (ix2 d k))) (fun k => x3 (ix1 k)) (fun k c => x4 (ix2 k c))
    (fun c => x5 (ix1 c)) (adj2_apply x1) (fun j k => (congrFun (show val_main_v30 (F := Ideal) x0 x2 = val_main_v4 (F := Ideal) x0 x2 from rfl) _).trans (Y_apply x0 x2 j k))
    (b1_2_apply x3) z2_apply (fun _ _ => rfl) (b2_2_apply x5) i c

/-! ## Time slice 3 -/

/-- Adjacency slice 3, its leading unit axis dropped. -/
theorem adj3_apply (x1 : (⟨S4x4096x4096, .f32⟩ : BufTy).Contents (Elt Ideal)) (i j : Fin 4096) :
    val_main_v42 (F := Ideal) x1 (ix2 i j) = x1 (ix3 (3 : Fin 4) i j) := by
  rw [val_main_v42_apply, val_main_v41_apply]
  refine congrArg x1 (funext fun a => Fin.ext ?_)
  have hj := j.isLt
  have hi := i.isLt
  match a with
  | ⟨0, _⟩ => rfl
  | ⟨1, _⟩ => show (i.val * 4096 + j.val) / 4096 % 4096 = i.val; omega
  | ⟨2, _⟩ => show (i.val * 4096 + j.val) % 4096 = j.val; omega

/-- The first bias broadcast over the rows. -/
theorem b1_3_apply (x3 : (⟨S32, .f32⟩ : BufTy).Contents (Elt Ideal)) (i : Fin 4096) (k : Fin 32) :
    val_main_v46 (F := Ideal) x3 (ix2 i k) = x3 (ix1 k) := by
  rw [val_main_v46_apply, val_main_v45_apply]
  refine congrArg x3 (funext fun a => Fin.ext ?_)
  match a with
  | ⟨0, _⟩ => rfl

/-- The rectifier's zero splat. -/
theorem z3_apply (i : Fin 4096) (k : Fin 32) : val_main_call3_v0 (F := Ideal) (ix2 i k) = SpecGcn.zero := by
  rw [val_main_call3_v0_apply]
  rfl

/-- The second bias broadcast over the rows. -/
theorem b2_3_apply (x5 : (⟨S16, .f32⟩ : BufTy).Contents (Elt Ideal)) (i : Fin 4096) (c : Fin 16) :
    val_main_v52 (F := Ideal) x5 (ix2 i c) = x5 (ix1 c) := by
  rw [val_main_v52_apply, val_main_v51_apply]
  refine congrArg x5 (funext fun a => Fin.ext ?_)
  match a with
  | ⟨0, _⟩ => rfl

/-- Time slice 3's second-layer output is the specification's `H2` at `t = 3`. -/
theorem H2_3_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v53 (F := Ideal) x0 x1 x2 x3 x4 x5 (ix2 i c) = SpecGcn.H2 (fun i s d => x0 (ix3 i s d)) (fun t i j => x1 (ix3 t i j)) (fun d k => x2 (ix2 d k)) (fun k => x3 (ix1 k)) (fun k c => x4 (ix2 k c)) (fun c => x5 (ix1 c)) (3 : Fin 4) i c := by
  have e : val_main_v53 (F := Ideal) x0 x1 x2 x3 x4 x5
      = stage (val_main_v42 (F := Ideal) x1) (val_main_v43 (F := Ideal) x0 x2) (val_main_v46 (F := Ideal) x3) (val_main_call3_v0 (F := Ideal)) x4
          (val_main_v52 (F := Ideal) x5) := by
    unfold val_main_v53 val_main_v50 val_main_v49 val_main_v48 val_main_v47 val_main_v44 stage
    rfl
  rw [e]
  unfold SpecGcn.H2 SpecGcn.G SpecGcn.H1
  exact stage_apply _ _ _ _ _ _ (fun i j => x1 (ix3 (3 : Fin 4) i j))
    (SpecGcn.Y (fun i s d => x0 (ix3 i s d)) (fun d k => x2 (ix2 d k))) (fun k => x3 (ix1 k)) (fun k c => x4 (ix2 k c))
    (fun c => x5 (ix1 c)) (adj3_apply x1) (fun j k => (congrFun (show val_main_v43 (F := Ideal) x0 x2 = val_main_v4 (F := Ideal) x0 x2 from rfl) _).trans (Y_apply x0 x2 j k))
    (b1_3_apply x3) z3_apply (fun _ _ => rfl) (b2_3_apply x5) i c

/-! ## The stacked tensor the recurrence reads -/

/-- Row `0` of the stacked axis is time slice 0's output. -/
theorem stacked_0_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v58 (F := Ideal) x0 x1 x2 x3 x4 x5 (ix3 i (0 : Fin 4) c) = SpecGcn.H2 (fun i s d => x0 (ix3 i s d)) (fun t i j => x1 (ix3 t i j)) (fun d k => x2 (ix2 d k)) (fun k => x3 (ix1 k)) (fun k c => x4 (ix2 k c)) (fun c => x5 (ix1 c)) (0 : Fin 4) i c := by
  unfold val_main_v58
  refine (concatenate_apply_piece (1 : Fin S4096x4x16.rank) _ _ (ix3 i (0 : Fin 4) c) 0 (by show (_ : Nat) < 4; omega) S4096x1x16
    (val_main_v54 (F := Ideal) x0 x1 x2 x3 x4 x5) rfl rfl 0 rfl (ix3 i (0 : Fin 1) c) (fun b hb => ?_) rfl).trans ?_
  · match b with
    | ⟨0, _⟩ => rfl
    | ⟨1, _⟩ => exact absurd rfl hb
    | ⟨2, _⟩ => rfl
  · rw [val_main_v54_apply]
    refine (congrArg _ (funext fun a => Fin.ext ?_)).trans (H2_0_apply x0 x1 x2 x3 x4 x5 i c)
    match a with
    | ⟨0, _⟩ => rfl
    | ⟨1, _⟩ => rfl

/-- Row `1` of the stacked axis is time slice 1's output. -/
theorem stacked_1_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v58 (F := Ideal) x0 x1 x2 x3 x4 x5 (ix3 i (1 : Fin 4) c) = SpecGcn.H2 (fun i s d => x0 (ix3 i s d)) (fun t i j => x1 (ix3 t i j)) (fun d k => x2 (ix2 d k)) (fun k => x3 (ix1 k)) (fun k c => x4 (ix2 k c)) (fun c => x5 (ix1 c)) (1 : Fin 4) i c := by
  unfold val_main_v58
  refine (concatenate_apply_piece (1 : Fin S4096x4x16.rank) _ _ (ix3 i (1 : Fin 4) c) 1 (by show (_ : Nat) < 4; omega) S4096x1x16
    (val_main_v55 (F := Ideal) x0 x1 x2 x3 x4 x5) rfl rfl 1 rfl (ix3 i (0 : Fin 1) c) (fun b hb => ?_) rfl).trans ?_
  · match b with
    | ⟨0, _⟩ => rfl
    | ⟨1, _⟩ => exact absurd rfl hb
    | ⟨2, _⟩ => rfl
  · rw [val_main_v55_apply]
    refine (congrArg _ (funext fun a => Fin.ext ?_)).trans (H2_1_apply x0 x1 x2 x3 x4 x5 i c)
    match a with
    | ⟨0, _⟩ => rfl
    | ⟨1, _⟩ => rfl

/-- Row `2` of the stacked axis is time slice 2's output. -/
theorem stacked_2_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v58 (F := Ideal) x0 x1 x2 x3 x4 x5 (ix3 i (2 : Fin 4) c) = SpecGcn.H2 (fun i s d => x0 (ix3 i s d)) (fun t i j => x1 (ix3 t i j)) (fun d k => x2 (ix2 d k)) (fun k => x3 (ix1 k)) (fun k c => x4 (ix2 k c)) (fun c => x5 (ix1 c)) (2 : Fin 4) i c := by
  unfold val_main_v58
  refine (concatenate_apply_piece (1 : Fin S4096x4x16.rank) _ _ (ix3 i (2 : Fin 4) c) 2 (by show (_ : Nat) < 4; omega) S4096x1x16
    (val_main_v56 (F := Ideal) x0 x1 x2 x3 x4 x5) rfl rfl 2 rfl (ix3 i (0 : Fin 1) c) (fun b hb => ?_) rfl).trans ?_
  · match b with
    | ⟨0, _⟩ => rfl
    | ⟨1, _⟩ => exact absurd rfl hb
    | ⟨2, _⟩ => rfl
  · rw [val_main_v56_apply]
    refine (congrArg _ (funext fun a => Fin.ext ?_)).trans (H2_2_apply x0 x1 x2 x3 x4 x5 i c)
    match a with
    | ⟨0, _⟩ => rfl
    | ⟨1, _⟩ => rfl

/-- Row `3` of the stacked axis is time slice 3's output. -/
theorem stacked_3_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (c : Fin 16) :
    val_main_v58 (F := Ideal) x0 x1 x2 x3 x4 x5 (ix3 i (3 : Fin 4) c) = SpecGcn.H2 (fun i s d => x0 (ix3 i s d)) (fun t i j => x1 (ix3 t i j)) (fun d k => x2 (ix2 d k)) (fun k => x3 (ix1 k)) (fun k c => x4 (ix2 k c)) (fun c => x5 (ix1 c)) (3 : Fin 4) i c := by
  unfold val_main_v58
  refine (concatenate_apply_piece (1 : Fin S4096x4x16.rank) _ _ (ix3 i (3 : Fin 4) c) 3 (by show (_ : Nat) < 4; omega) S4096x1x16
    (val_main_v57 (F := Ideal) x0 x1 x2 x3 x4 x5) rfl rfl 3 rfl (ix3 i (0 : Fin 1) c) (fun b hb => ?_) rfl).trans ?_
  · match b with
    | ⟨0, _⟩ => rfl
    | ⟨1, _⟩ => exact absurd rfl hb
    | ⟨2, _⟩ => rfl
  · rw [val_main_v57_apply]
    refine (congrArg _ (funext fun a => Fin.ext ?_)).trans (H2_3_apply x0 x1 x2 x3 x4 x5 i c)
    match a with
    | ⟨0, _⟩ => rfl
    | ⟨1, _⟩ => rfl

/-- The stacked [4096, 4, 16] tensor at `(i, t, c)` is the specification's `H2` at time slice `t`. -/
theorem stacked_apply (x0 : (⟨S4096x4x128, .f32⟩ : BufTy).Contents (Elt Ideal)) (x1 : (⟨S4x4096x4096, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (i : Fin 4096) (t : Fin 4) (c : Fin 16) :
    val_main_v58 (F := Ideal) x0 x1 x2 x3 x4 x5 (ix3 i t c) = SpecGcn.H2 (fun i s d => x0 (ix3 i s d)) (fun t i j => x1 (ix3 t i j)) (fun d k => x2 (ix2 d k)) (fun k => x3 (ix1 k)) (fun k c => x4 (ix2 k c)) (fun c => x5 (ix1 c)) t i c := by
  match t with
  | ⟨0, _⟩ => exact stacked_0_apply x0 x1 x2 x3 x4 x5 i c
  | ⟨1, _⟩ => exact stacked_1_apply x0 x1 x2 x3 x4 x5 i c
  | ⟨2, _⟩ => exact stacked_2_apply x0 x1 x2 x3 x4 x5 i c
  | ⟨3, _⟩ => exact stacked_3_apply x0 x1 x2 x3 x4 x5 i c

end Cert.RefGcn
-- ==== Proof.KernelGcn.lean ====
/-
  The kernel's graph-convolution payloads read at an index, over the extended reals.

  Each of the three stored values of the graph-convolution stages is a composition of matrix products into a zero
  accumulator, a row broadcast of a bias, a rectifier, and changes of float format (the identity here). Read at
  an output position `(p, c)` each product is the finite sum over its contracted axis of the left operand's row
  times the right operand's column, so:

    Y panel      pay1 (i, k) = ∑ d, x_last (i, d) * W1 (d, k)
    G panel      pay3 (p, c) = ∑ k, max ((∑ j, A (0, p, j) * Y (j, k)) + b1 (0, k)) 0 * W2 (k, c)
    H2 panel     pay4 (p, c) = (∑ j, A (0, p, j) * G (j, c)) + b2 (0, c)

  where `A` is the [1, 1024, 4096] adjacency panel of the current grid point. Nothing but unfolding each
  operation at an index is used: no law of the extended reals.
-/
import proofs.«148102_g22909355557047_cont_8to1_1754_2_alg».proof.Proof.Gen.KernelIdeal.Skeleton
import proofs.«148102_g22909355557047_cont_8to1_1754_2_alg».proof.Proof.SpecGcn
import Idealize.ShloMosaic.Lib.ValueIdx
import Idealize.ShloMosaic.Lib.ValueLayout
import Idealize.ShloMosaic.Lib.Pipeline.Value
import Idealize.ShloMosaic.PureOps.Ideal.Laws

noncomputable section

namespace Cert.KernelGcn

open Cert.KernelIdeal Cert.KernelIdeal.Gen Idealize.ShloMosaic Idealize.ShloMosaic.ValueIdx
open scoped BigOperators

/-! ### `S4096x128` × `S128x32` → `S4096x32`: the operand indices of the product at an output index -/

theorem mmY_lhs0 (i : S4096x32.Idx) (q : dot_S4096x128_S128x32_S4096x32_1_0_0_1_n_n.contr.Idx) :
    (dot_S4096x128_S128x32_S4096x32_1_0_0_1_n_n.lhsIdx i q 0).val = (i 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
theorem mmY_lhs1 (i : S4096x32.Idx) (q : dot_S4096x128_S128x32_S4096x32_1_0_0_1_n_n.contr.Idx) :
    (dot_S4096x128_S128x32_S4096x32_1_0_0_1_n_n.lhsIdx i q 1).val = (q ⟨0, by decide⟩).val :=
  dot_S4096x128_S128x32_S4096x32_1_0_0_1_n_n.lhsIdx_val_of_single rfl i q
theorem mmY_rhs0 (i : S4096x32.Idx) (q : dot_S4096x128_S128x32_S4096x32_1_0_0_1_n_n.contr.Idx) :
    (dot_S4096x128_S128x32_S4096x32_1_0_0_1_n_n.rhsIdx i q 0).val = (q ⟨0, by decide⟩).val :=
  dot_S4096x128_S128x32_S4096x32_1_0_0_1_n_n.rhsIdx_val_of_single rfl i q
theorem mmY_rhs1 (i : S4096x32.Idx) (q : dot_S4096x128_S128x32_S4096x32_1_0_0_1_n_n.contr.Idx) :
    (dot_S4096x128_S128x32_S4096x32_1_0_0_1_n_n.rhsIdx i q 1).val = (i 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- A product into the zero accumulator, read at `(p, c)`: the sum over the contracted axis of the left operand's
    row `p` times the right operand's column `c`. -/
theorem mmY_apply {φ₁ φ₂ : FTy} (l : FVec Ideal S4096x128 φ₁) (r : FVec Ideal S128x32 φ₂) (p : Fin 4096) (c : Fin 32) :
    matmul dot_S4096x128_S128x32_S4096x32_1_0_0_1_n_n none l r (constant S4096x32 .f32 0x00000000#32) (ix2 p c)
      = ∑ k : Fin 128, l (ix2 p k) * r (ix2 k c) := by
  simp only [matmul]
  rw [Ideal.matmul_constant_zero_apply, ← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx (ix2 p c) ((contrEquiv1 dot_S4096x128_S128x32_S4096x32_1_0_0_1_n_n 128 rfl rfl).symm k) = ix2 p k :=
    funext fun a => Fin.ext (by
      match a with
      | ⟨0, _⟩ => exact mmY_lhs0 _ _
      | ⟨1, _⟩ => exact (mmY_lhs1 _ _).trans hk)
  have er : dot_S4096x128_S128x32_S4096x32_1_0_0_1_n_n.rhsIdx (ix2 p c) ((contrEquiv1 dot_S4096x128_S128x32_S4096x32_1_0_0_1_n_n 128 rfl rfl).symm k) = ix2 k c :=
    funext fun a => Fin.ext (by
      match a with
      | ⟨0, _⟩ => exact (mmY_rhs0 _ _).trans hk
      | ⟨1, _⟩ => exact mmY_rhs1 _ _)
  rw [el, er]

/-! ### `S1024x4096` × `S4096x32` → `S1024x32`: the operand indices of the product at an output index -/

theorem mmA1_lhs0 (i : S1024x32.Idx) (q : dot_S1024x4096_S4096x32_S1024x32_1_0_0_1_n_n.contr.Idx) :
    (dot_S1024x4096_S4096x32_S1024x32_1_0_0_1_n_n.lhsIdx i q 0).val = (i 0).val := by
  unfold DotDims.lhsIdx
  rw [dif_neg (show ¬(0 : Fin S1024x4096.rank) ∈ dot_S1024x4096_S4096x32_S1024x32_1_0_0_1_n_n.lhsBatch by decide), dif_pos (show (0 : Fin S1024x4096.rank) ∈ dot_S1024x4096_S4096x32_S1024x32_1_0_0_1_n_n.lhsNonContracting by decide)]
  rfl
theorem mmA1_lhs1 (i : S1024x32.Idx) (q : dot_S1024x4096_S4096x32_S1024x32_1_0_0_1_n_n.contr.Idx) :
    (dot_S1024x4096_S4096x32_S1024x32_1_0_0_1_n_n.lhsIdx i q 1).val = (q ⟨0, by decide⟩).val :=
  dot_S1024x4096_S4096x32_S1024x32_1_0_0_1_n_n.lhsIdx_val_of_single rfl i q
theorem mmA1_rhs0 (i : S1024x32.Idx) (q : dot_S1024x4096_S4096x32_S1024x32_1_0_0_1_n_n.contr.Idx) :
    (dot_S1024x4096_S4096x32_S1024x32_1_0_0_1_n_n.rhsIdx i q 0).val = (q ⟨0, by decide⟩).val :=
  dot_S1024x4096_S4096x32_S1024x32_1_0_0_1_n_n.rhsIdx_val_of_single rfl i q
theorem mmA1_rhs1 (i : S1024x32.Idx) (q : dot_S1024x4096_S4096x32_S1024x32_1_0_0_1_n_n.contr.Idx) :
    (dot_S1024x4096_S4096x32_S1024x32_1_0_0_1_n_n.rhsIdx i q 1).val = (i 1).val := by
  unfold DotDims.rhsIdx
  rw [dif_neg (show ¬(1 : Fin S4096x32.rank) ∈ dot_S1024x4096_S4096x32_S1024x32_1_0_0_1_n_n.rhsBatch by decide), dif_pos (show (1 : Fin S4096x32.rank) ∈ dot_S1024x4096_S4096x32_S1024x32_1_0_0_1_n_n.rhsNonContracting by decide)]
  rfl

/-- A product into the zero accumulator, read at `(p, c)`: the sum over the contracted axis of the left operand's
    row `p` times the right operand's column `c`. -/
theorem mmA1_apply {φ₁ φ₂ : FTy} (l : FVec Ideal S1024x4096 φ₁) (r : FVec Ideal S4096x32 φ₂) (p : Fin 1024) (c : Fin 32) :
    matmul dot_S1024x4096_S4096x32_S1024x32_1_0_0_1_n_n none l r (constant S1024x32 .f32 0x00000000#32) (ix2 p c)
      = ∑ k : Fin 4096, l (ix2 p k) * r (ix2 k c) := by
  simp only [matmul]
  rw [Ideal.matmul_constant_zero_apply, ← Equiv.sum_comp (contrEquiv1 dot_S1024x4096_S4096x32_S1024x32_1_0_0_1_n_n 4096 rfl rfl).symm]
  refine Finset.sum_congr rfl fun k _ => ?_
  have hk := contrEquiv1_symm_val dot_S1024x4096_S4096x32_S1024x32_1_0_0_1_n_n 4096 rfl rfl k
  have el : dot_S1024x4096_S4096x32_S1024x32_1_0_0_1_n_n.lhsIdx (ix2 p c) ((contrEquiv1 dot_S1024x4096_S4096x32_S1024x32_1_0_0_1_n_n 4096 rfl rfl).symm k) = ix2 p k :=
    funext fun a => Fin.ext (by
      match a with
      | ⟨0, _⟩ => exact mmA1_lhs0 _ _
      | ⟨1, _⟩ => exact (mmA1_lhs1 _ _).trans hk)
  have er : dot_S1024x4096_S4096x32_S1024x32_1_0_0_1_n_n.rhsIdx (ix2 p c) ((contrEquiv1 dot_S1024x4096_S4096x32_S1024x32_1_0_0_1_n_n 4096 rfl rfl).symm k) = ix2 k c :=
    funext fun a => Fin.ext (by
      match a with
      | ⟨0, _⟩ => exact (mmA1_rhs0 _ _).trans hk
      | ⟨1, _⟩ => exact mmA1_rhs1 _ _)
  rw [el, er]

/-! ### `S1024x32` × `S32x16` → `S1024x16`: the operand indices of the product at an output index -/

theorem mmW2_lhs0 (i : S1024x16.Idx) (q : dot_S1024x32_S32x16_S1024x16_1_0_0_1_n_n.contr.Idx) :
    (dot_S1024x32_S32x16_S1024x16_1_0_0_1_n_n.lhsIdx i q 0).val = (i 0).val := by
  unfold DotDims.lhsIdx
  rw [dif_neg (show ¬(0 : Fin S1024x32.rank) ∈ dot_S1024x32_S32x16_S1024x16_1_0_0_1_n_n.lhsBatch by decide), dif_pos (show (0 : Fin S1024x32.rank) ∈ dot_S1024x32_S32x16_S1024x16_1_0_0_1_n_n.lhsNonContracting by decide)]
  rfl
theorem mmW2_lhs1 (i : S1024x16.Idx) (q : dot_S1024x32_S32x16_S1024x16_1_0_0_1_n_n.contr.Idx) :
    (dot_S1024x32_S32x16_S1024x16_1_0_0_1_n_n.lhsIdx i q 1).val = (q ⟨0, by decide⟩).val :=
  dot_S1024x32_S32x16_S1024x16_1_0_0_1_n_n.lhsIdx_val_of_single rfl i q
theorem mmW2_rhs0 (i : S1024x16.Idx) (q : dot_S1024x32_S32x16_S1024x16_1_0_0_1_n_n.contr.Idx) :
    (dot_S1024x32_S32x16_S1024x16_1_0_0_1_n_n.rhsIdx i q 0).val = (q ⟨0, by decide⟩).val :=
  dot_S1024x32_S32x16_S1024x16_1_0_0_1_n_n.rhsIdx_val_of_single rfl i q
theorem mmW2_rhs1 (i : S1024x16.Idx) (q : dot_S1024x32_S32x16_S1024x16_1_0_0_1_n_n.contr.Idx) :
    (dot_S1024x32_S32x16_S1024x16_1_0_0_1_n_n.rhsIdx i q 1).val = (i 1).val := by
  unfold DotDims.rhsIdx
  rw [dif_neg (show ¬(1 : Fin S32x16.rank) ∈ dot_S1024x32_S32x16_S1024x16_1_0_0_1_n_n.rhsBatch by decide), dif_pos (show (1 : Fin S32x16.rank) ∈ dot_S1024x32_S32x16_S1024x16_1_0_0_1_n_n.rhsNonContracting by decide)]
  rfl

/-- A product into the zero accumulator, read at `(p, c)`: the sum over the contracted axis of the left operand's
    row `p` times the right operand's column `c`. -/
theorem mmW2_apply {φ₁ φ₂ : FTy} (l : FVec Ideal S1024x32 φ₁) (r : FVec Ideal S32x16 φ₂) (p : Fin 1024) (c : Fin 16) :
    matmul dot_S1024x32_S32x16_S1024x16_1_0_0_1_n_n none l r (constant S1024x16 .f32 0x00000000#32) (ix2 p c)
      = ∑ k : Fin 32, l (ix2 p k) * r (ix2 k c) := by
  simp only [matmul]
  rw [Ideal.matmul_constant_zero_apply, ← Equiv.sum_comp (contrEquiv1 dot_S1024x32_S32x16_S1024x16_1_0_0_1_n_n 32 rfl rfl).symm]
  refine Finset.sum_congr rfl fun k _ => ?_
  have hk := contrEquiv1_symm_val dot_S1024x32_S32x16_S1024x16_1_0_0_1_n_n 32 rfl rfl k
  have el : dot_S1024x32_S32x16_S1024x16_1_0_0_1_n_n.lhsIdx (ix2 p c) ((contrEquiv1 dot_S1024x32_S32x16_S1024x16_1_0_0_1_n_n 32 rfl rfl).symm k) = ix2 p k :=
    funext fun a => Fin.ext (by
      match a with
      | ⟨0, _⟩ => exact mmW2_lhs0 _ _
      | ⟨1, _⟩ => exact (mmW2_lhs1 _ _).trans hk)
  have er : dot_S1024x32_S32x16_S1024x16_1_0_0_1_n_n.rhsIdx (ix2 p c) ((contrEquiv1 dot_S1024x32_S32x16_S1024x16_1_0_0_1_n_n 32 rfl rfl).symm k) = ix2 k c :=
    funext fun a => Fin.ext (by
      match a with
      | ⟨0, _⟩ => exact (mmW2_rhs0 _ _).trans hk
      | ⟨1, _⟩ => exact mmW2_rhs1 _ _)
  rw [el, er]

/-! ### `S1024x4096` × `S4096x16` → `S1024x16`: the operand indices of the product at an output index -/

theorem mmA2_lhs0 (i : S1024x16.Idx) (q : dot_S1024x4096_S4096x16_S1024x16_1_0_0_1_n_n.contr.Idx) :
    (dot_S1024x4096_S4096x16_S1024x16_1_0_0_1_n_n.lhsIdx i q 0).val = (i 0).val := by
  unfold DotDims.lhsIdx
  rw [dif_neg (show ¬(0 : Fin S1024x4096.rank) ∈ dot_S1024x4096_S4096x16_S1024x16_1_0_0_1_n_n.lhsBatch by decide), dif_pos (show (0 : Fin S1024x4096.rank) ∈ dot_S1024x4096_S4096x16_S1024x16_1_0_0_1_n_n.lhsNonContracting by decide)]
  rfl
theorem mmA2_lhs1 (i : S1024x16.Idx) (q : dot_S1024x4096_S4096x16_S1024x16_1_0_0_1_n_n.contr.Idx) :
    (dot_S1024x4096_S4096x16_S1024x16_1_0_0_1_n_n.lhsIdx i q 1).val = (q ⟨0, by decide⟩).val :=
  dot_S1024x4096_S4096x16_S1024x16_1_0_0_1_n_n.lhsIdx_val_of_single rfl i q
theorem mmA2_rhs0 (i : S1024x16.Idx) (q : dot_S1024x4096_S4096x16_S1024x16_1_0_0_1_n_n.contr.Idx) :
    (dot_S1024x4096_S4096x16_S1024x16_1_0_0_1_n_n.rhsIdx i q 0).val = (q ⟨0, by decide⟩).val :=
  dot_S1024x4096_S4096x16_S1024x16_1_0_0_1_n_n.rhsIdx_val_of_single rfl i q
theorem mmA2_rhs1 (i : S1024x16.Idx) (q : dot_S1024x4096_S4096x16_S1024x16_1_0_0_1_n_n.contr.Idx) :
    (dot_S1024x4096_S4096x16_S1024x16_1_0_0_1_n_n.rhsIdx i q 1).val = (i 1).val := by
  unfold DotDims.rhsIdx
  rw [dif_neg (show ¬(1 : Fin S4096x16.rank) ∈ dot_S1024x4096_S4096x16_S1024x16_1_0_0_1_n_n.rhsBatch by decide), dif_pos (show (1 : Fin S4096x16.rank) ∈ dot_S1024x4096_S4096x16_S1024x16_1_0_0_1_n_n.rhsNonContracting by decide)]
  rfl

/-- A product into the zero accumulator, read at `(p, c)`: the sum over the contracted axis of the left operand's
    row `p` times the right operand's column `c`. -/
theorem mmA2_apply {φ₁ φ₂ : FTy} (l : FVec Ideal S1024x4096 φ₁) (r : FVec Ideal S4096x16 φ₂) (p : Fin 1024) (c : Fin 16) :
    matmul dot_S1024x4096_S4096x16_S1024x16_1_0_0_1_n_n none l r (constant S1024x16 .f32 0x00000000#32) (ix2 p c)
      = ∑ k : Fin 4096, l (ix2 p k) * r (ix2 k c) := by
  simp only [matmul]
  rw [Ideal.matmul_constant_zero_apply, ← Equiv.sum_comp (contrEquiv1 dot_S1024x4096_S4096x16_S1024x16_1_0_0_1_n_n 4096 rfl rfl).symm]
  refine Finset.sum_congr rfl fun k _ => ?_
  have hk := contrEquiv1_symm_val dot_S1024x4096_S4096x16_S1024x16_1_0_0_1_n_n 4096 rfl rfl k
  have el : dot_S1024x4096_S4096x16_S1024x16_1_0_0_1_n_n.lhsIdx (ix2 p c) ((contrEquiv1 dot_S1024x4096_S4096x16_S1024x16_1_0_0_1_n_n 4096 rfl rfl).symm k) = ix2 p k :=
    funext fun a => Fin.ext (by
      match a with
      | ⟨0, _⟩ => exact mmA2_lhs0 _ _
      | ⟨1, _⟩ => exact (mmA2_lhs1 _ _).trans hk)
  have er : dot_S1024x4096_S4096x16_S1024x16_1_0_0_1_n_n.rhsIdx (ix2 p c) ((contrEquiv1 dot_S1024x4096_S4096x16_S1024x16_1_0_0_1_n_n 4096 rfl rfl).symm k) = ix2 k c :=
    funext fun a => Fin.ext (by
      match a with
      | ⟨0, _⟩ => exact (mmA2_rhs0 _ _).trans hk
      | ⟨1, _⟩ => exact mmA2_rhs1 _ _)
  rw [el, er]

/-- `Y = x_last · W1` at `(i, k)`. -/
theorem pay1_apply (xl : Vec Ideal S4096x128 .f32) (w1 : Vec Ideal S128x32 .f32) (i : Fin 4096) (k : Fin 32) :
    k0_pay1 xl w1 (ix2 i k) = ∑ d : Fin 128, xl (ix2 i d) * w1 (ix2 d k) := by
  unfold k0_pay1
  simp only [shapeCast_self]
  exact mmY_apply (φ₁ := .f32) (φ₂ := .f32) xl w1 i k

/-- The adjacency panel with its leading unit axis dropped (and its change of format, the identity here). -/
theorem pay2_apply (a : Vec Ideal S1x1024x4096 .f32) (p : Fin 1024) (j : Fin 4096) :
    k0_pay2 a (ix2 p j) = a (ix3 (0 : Fin 1) p j) := by
  unfold k0_pay2
  exact shapeCast_1ab_ab_apply a _ p j

/-- One panel of `G`: the rectified first layer `relu (adj_panel · Y + b1)` times `W2`, at `(p, c)`. The changes
    of float format on the way are the identity on the extended reals. -/
theorem pay3_apply (a : Vec Ideal S1x1024x4096 .f32) (ys : Vec Ideal S4096x32 .f32) (b1 : Vec Ideal S1x32 .f32)
    (w2 : Vec Ideal S32x16 .f32) (p : Fin 1024) (c : Fin 16) :
    k0_pay3 a ys b1 w2 (ix2 p c)
      = ∑ k : Fin 32, SpecGcn.relu ((∑ j : Fin 4096, a (ix3 (0 : Fin 1) p j) * ys (ix2 j k)) + b1 (ix2 (0 : Fin 1) k))
          * w2 (ix2 k c) := by
  unfold k0_pay3
  simp only [shapeCast_self]
  refine (truncf_apply (φ := .f32) (ψ := .bf16) _ Facts₀.bitsLt_bf16_f32 (ix2 p c)).trans ?_
  refine (mmW2_apply (φ₁ := .f32) (φ₂ := .f32) _ w2 p c).trans ?_
  refine Finset.sum_congr rfl fun k _ => ?_
  refine congrArg (fun x => x * w2 (ix2 k c)) ?_
  refine (maximumf_apply _ _ _).trans ?_
  refine congrArg (fun x => max x SpecGcn.zero) ?_
  refine (addf_apply _ _ _).trans ?_
  refine congrArg₂ (· + ·) ?_ (broadcastTo_1b_ab_apply b1 _ p k)
  refine (mmA1_apply (φ₁ := .bf16) (φ₂ := .bf16) _ _ p k).trans ?_
  refine Finset.sum_congr rfl fun j _ => ?_
  exact congrArg (fun x => x * ys (ix2 j k)) (pay2_apply a p j)

/-- One panel of the second layer: `adj_panel · G + b2` at `(p, c)`. -/
theorem pay4_apply (a : Vec Ideal S1x1024x4096 .f32) (gs : Vec Ideal S4096x16 .bf16) (b2 : Vec Ideal S1x16 .f32)
    (p : Fin 1024) (c : Fin 16) :
    k0_pay4 a gs b2 (ix2 p c)
      = (∑ j : Fin 4096, a (ix3 (0 : Fin 1) p j) * gs (ix2 j c)) + b2 (ix2 (0 : Fin 1) c) := by
  unfold k0_pay4
  simp only [shapeCast_self]
  refine (addf_apply _ _ _).trans ?_
  refine congrArg₂ (· + ·) ?_ (broadcastTo_1b_ab_apply b2 _ p c)
  refine (mmA2_apply (φ₁ := .bf16) (φ₂ := .bf16) _ gs p c).trans ?_
  refine Finset.sum_congr rfl fun j _ => ?_
  exact congrArg (fun x => x * gs (ix2 j c)) (pay2_apply a p j)

end Cert.KernelGcn
-- ==== Proof.CarriedGcn.lean ====
/-
  The kernel's scratch arrays point by point hold the graph-convolution specification.

  The 32 grid points are (time slice T, pass P, row panel R) = (m / 8, (m / 4) % 2, m % 4). The first point writes
  the whole first-layer product Y; in pass 0 a point writes rows [1024 R, 1024 R + 1024) of the second-layer input
  with G of its time slice (from Y and the point's adjacency panel); in pass 1 it writes rows
  [4096 T + 1024 R, + 1024) of the per-slice outputs with H2 of its time slice (from the second-layer input, whose
  four panels the slice's pass 0 has just written, and the same adjacency panel). The second-layer input is
  overwritten slice after slice, so the invariant says which slice a row currently belongs to; the per-slice
  outputs are written once. By induction over the points, after the last one row 4096 t + i of the per-slice
  outputs is `SpecGcn.H2 … t i`, whatever the scratch arrays held at the start.
-/
import proofs.«148102_g22909355557047_cont_8to1_1754_2_alg».proof.Proof.CarriedKI
import proofs.«148102_g22909355557047_cont_8to1_1754_2_alg».proof.Proof.KernelGcn
import proofs.«148102_g22909355557047_cont_8to1_1754_2_alg».proof.Proof.SpecGcn
import proofs.«148102_g22909355557047_cont_8to1_1754_2_alg».proof.Proof.Gen.KernelIdeal.Launch

noncomputable section

namespace Cert.CarriedGcn

open Cert.KernelIdeal Cert.KernelIdeal.Gen Cert.KernelIdeal.Body Idealize.ShloMosaic Idealize.ShloMosaic.ValueIdx
open scoped BigOperators

/-! ## The grid's conditions and offsets, decided over its 32 points

Point `t` of the [4, 2, 4] grid has coordinates (time slice, pass, row panel) = (t / 8, (t / 4) % 2, t % 4). -/

theorem hcond1 : ∀ t : Fin grid0.N, cond1 (grid0.coords t) ↔ t.val = 0 := by decide +kernel
theorem hcond2 : ∀ t : Fin grid0.N, k0_cond2 (grid0.coords t) = 1#1 ↔ (t.val / 4) % 2 = 0 := by decide +kernel
theorem hcond3 : ∀ t : Fin grid0.N, k0_cond3 (grid0.coords t) = 1#1 ↔ (t.val / 4) % 2 = 1 := by decide +kernel
theorem hoff1 : ∀ t : Fin grid0.N, k0_off1 (grid0.coords t) (0 : Fin 2) = (t.val % 4) * 1024 := by decide +kernel
theorem hoff2 : ∀ t : Fin grid0.N, k0_off2 (grid0.coords t) (0 : Fin 2) = (t.val / 8) * 4096 + (t.val % 4) * 1024 := by
  decide +kernel

/-! ## A row-panel store read back at a row -/

/-- Inside the stored panel: the payload at the row's position within the panel. -/
theorem rowsUpd_in {n : ℕ} {e : EltTy} {Val : EltTy → Type} (old : (⟨2, ![n, 16]⟩ : Shape).Idx → Val e) (o : ℕ)
    (w : S1024x16.Idx → Val e) (r : Fin n) (c : Fin 16) (h : o ≤ r.val ∧ r.val < o + 1024) :
    rowsUpd old o 1024 S1024x16.size rfl rfl w (ix2 r c) = w (ix2 (⟨r.val - o, by omega⟩ : Fin 1024) c) := by
  unfold rowsUpd
  rw [dif_pos h]
  refine congrArg w (funext fun a => Fin.ext ?_)
  match a with
  | ⟨0, _⟩ => rfl
  | ⟨1, _⟩ => rfl

/-- Outside it: what was there. -/
theorem rowsUpd_out {n : ℕ} {e : EltTy} {Val : EltTy → Type} (old : (⟨2, ![n, 16]⟩ : Shape).Idx → Val e) (o : ℕ)
    (w : S1024x16.Idx → Val e) (r : Fin n) (c : Fin 16) (h : ¬(o ≤ r.val ∧ r.val < o + 1024)) :
    rowsUpd old o 1024 S1024x16.size rfl rfl w (ix2 r c) = old (ix2 r c) := by
  unfold rowsUpd
  rw [dif_neg h]

/-! ## One grid point's effect, field by field -/

variable (i : grid0.Coords) (X : Blocks Ideal) (s : St Ideal)

theorem step_ys_first (h : cond1 i) : (stepSt i X s).ys = k0_pay1 X.x1 X.x2 := by
  show (if cond1 i then _ else _) = _
  rw [if_pos h]
theorem step_ys_later (h : ¬cond1 i) : (stepSt i X s).ys = s.ys := by
  show (if cond1 i then _ else _) = _
  rw [if_neg h]
theorem step_gs_pass0 (h : k0_cond2 i = 1#1) :
    (stepSt i X s).gs = rowsUpd s.gs (k0_off1 i (0 : Fin 2)) 1024 S1024x16.size rfl rfl (k0_pay3 X.x0 (stepSt i X s).ys X.x3 X.x4) := by
  show (if k0_cond2 i = 1#1 then _ else _) = _
  rw [if_pos h]
  rfl
theorem step_gs_pass1 (h : ¬k0_cond2 i = 1#1) : (stepSt i X s).gs = s.gs := by
  show (if k0_cond2 i = 1#1 then _ else _) = _
  rw [if_neg h]
theorem step_hs_pass1 (h : k0_cond3 i = 1#1) :
    (stepSt i X s).hs = rowsUpd s.hs (k0_off2 i (0 : Fin 2)) 1024 S1024x16.size rfl rfl (k0_pay4 X.x0 (stepSt i X s).gs X.x5) := by
  show (if k0_cond3 i = 1#1 then _ else _) = _
  rw [if_pos h]
  rfl
theorem step_hs_pass0 (h : ¬k0_cond3 i = 1#1) : (stepSt i X s).hs = s.hs := by
  show (if k0_cond3 i = 1#1 then _ else _) = _
  rw [if_neg h]

/-! ## The invariant over the grid points -/

section Invariant

variable (feats : Fin 4096 → Fin 4 → Fin 128 → EReal) (adj : Fin 4 → Fin 4096 → Fin 4096 → EReal)
  (W1 : Fin 128 → Fin 32 → EReal) (b1 : Fin 32 → EReal) (W2 : Fin 32 → Fin 16 → EReal) (b2 : Fin 16 → EReal)

/-- The input blocks every point is handed are the blocks of the arrays: the adjacency panel of the point's time
    slice and row panel, and the whole features (last time step), weights and bias rows. -/
structure Feeds (X : Fin grid0.N → Blocks Ideal) : Prop where
  adjP : ∀ (t : Fin grid0.N) (T : Fin 4) (r : Fin 4096) (p : Fin 1024) (j : Fin 4096), T.val = t.val / 8 →
    r.val = (t.val % 4) * 1024 + p.val → (X t).x0 (ix3 (0 : Fin 1) p j) = adj T r j
  featsL : ∀ (t : Fin grid0.N) (i : Fin 4096) (d : Fin 128), (X t).x1 (ix2 i d) = feats i 3 d
  w1 : ∀ (t : Fin grid0.N) (d : Fin 128) (k : Fin 32), (X t).x2 (ix2 d k) = W1 d k
  bias1 : ∀ (t : Fin grid0.N) (k : Fin 32), (X t).x3 (ix2 (0 : Fin 1) k) = b1 k
  w2 : ∀ (t : Fin grid0.N) (k : Fin 32) (c : Fin 16), (X t).x4 (ix2 k c) = W2 k c
  bias2 : ∀ (t : Fin grid0.N) (c : Fin 16), (X t).x5 (ix2 (0 : Fin 1) c) = b2 c

/-- After the first `n` grid points (point `m` = slice `m / 8`, pass `(m / 4) % 2`, panel `m % 4`):
    the first-layer product holds `Y` as soon as one point has run; a row of the second-layer input holds `G` of
    the last slice whose first pass has written that row's panel; a row of the per-slice outputs holds `H2` once
    its slice's second pass has written its panel. -/
def Inv (n : ℕ) (s : St Ideal) : Prop :=
  (1 ≤ n → ∀ (i : Fin 4096) (k : Fin 32), s.ys (ix2 i k) = SpecGcn.Y feats W1 i k) ∧
  (∀ (T : Fin 4) (r : Fin 4096) (c : Fin 16), 8 * T.val + r.val / 1024 < n → n ≤ 8 * T.val + 8 + r.val / 1024 →
      s.gs (ix2 r c) = SpecGcn.G feats adj W1 b1 W2 T r c) ∧
  (∀ (T : Fin 4) (r : Fin 4096) (y : Fin 16384) (c : Fin 16), y.val = T.val * 4096 + r.val →
      8 * T.val + 4 + r.val / 1024 < n → s.hs (ix2 y c) = SpecGcn.H2 feats adj W1 b1 W2 b2 T r c)

variable {feats adj W1 b1 W2 b2}

/-- One grid point keeps the invariant. -/
theorem inv_step (X : Fin grid0.N → Blocks Ideal) (hX : Feeds feats adj W1 b1 W2 b2 X) (t : Fin grid0.N) (s : St Ideal)
    (hI : Inv feats adj W1 b1 W2 b2 t.val s) :
    Inv feats adj W1 b1 W2 b2 (t.val + 1) (stepSt (grid0.coords t) (X t) s) := by
  obtain ⟨hY, hG, hH⟩ := hI
  have hn : t.val < 32 := lt_of_lt_of_eq t.isLt N_0
  have c1 := hcond1 t
  have c2 := hcond2 t
  have c3 := hcond3 t
  have o1 := hoff1 t
  have o2 := hoff2 t
  generalize grid0.coords t = i at c1 c2 c3 o1 o2 ⊢
  have hY' : ∀ (a : Fin 4096) (k : Fin 32), (stepSt i (X t) s).ys (ix2 a k) = SpecGcn.Y feats W1 a k := by
    intro a k
    by_cases h1 : cond1 i
    · rw [step_ys_first i (X t) s h1, KernelGcn.pay1_apply]
      unfold SpecGcn.Y
      refine Finset.sum_congr rfl fun d _ => ?_
      rw [hX.featsL t a d, hX.w1 t d k]
    · rw [step_ys_later i (X t) s h1]
      have h0 : t.val ≠ 0 := fun h0 => h1 (c1.mpr h0)
      exact hY (by omega) a k
  have hG' : ∀ (T : Fin 4) (r : Fin 4096) (c : Fin 16), 8 * T.val + r.val / 1024 < t.val + 1 →
      t.val + 1 ≤ 8 * T.val + 8 + r.val / 1024 →
      (stepSt i (X t) s).gs (ix2 r c) = SpecGcn.G feats adj W1 b1 W2 T r c := by
    intro T r c hlo hhi
    have hT := T.isLt
    have hr := r.isLt
    by_cases h2 : k0_cond2 i = 1#1
    · have hp : (t.val / 4) % 2 = 0 := c2.mp h2
      rw [step_gs_pass0 i (X t) s h2, o1]
      by_cases hin : (t.val % 4) * 1024 ≤ r.val ∧ r.val < (t.val % 4) * 1024 + 1024
      · rw [rowsUpd_in _ _ _ r c hin, KernelGcn.pay3_apply]
        unfold SpecGcn.G SpecGcn.H1
        refine Finset.sum_congr rfl fun k _ => ?_
        rw [hX.bias1 t k, hX.w2 t k c]
        refine congrArg (fun x => SpecGcn.relu (x + b1 k) * W2 k c) ?_
        refine Finset.sum_congr rfl fun j _ => ?_
        rw [hX.adjP t T r ⟨r.val - (t.val % 4) * 1024, by omega⟩ j (by omega)
          (by show r.val = (t.val % 4) * 1024 + (r.val - (t.val % 4) * 1024); omega), hY' j k]
      · rw [rowsUpd_out _ _ _ r c hin]
        exact hG T r c (by omega) (by omega)
    · have hp : (t.val / 4) % 2 ≠ 0 := fun h => h2 (c2.mpr h)
      rw [step_gs_pass1 i (X t) s h2]
      exact hG T r c (by omega) (by omega)
  have hH' : ∀ (T : Fin 4) (r : Fin 4096) (y : Fin 16384) (c : Fin 16), y.val = T.val * 4096 + r.val →
      8 * T.val + 4 + r.val / 1024 < t.val + 1 →
      (stepSt i (X t) s).hs (ix2 y c) = SpecGcn.H2 feats adj W1 b1 W2 b2 T r c := by
    intro T r y c hy hlo
    have hT := T.isLt
    have hr := r.isLt
    by_cases h3 : k0_cond3 i = 1#1
    · have hp : (t.val / 4) % 2 = 1 := c3.mp h3
      rw [step_hs_pass1 i (X t) s h3, o2]
      by_cases hin : (t.val / 8) * 4096 + (t.val % 4) * 1024 ≤ y.val ∧
          y.val < (t.val / 8) * 4096 + (t.val % 4) * 1024 + 1024
      · rw [rowsUpd_in _ _ _ y c hin, KernelGcn.pay4_apply]
        unfold SpecGcn.H2
        rw [hX.bias2 t c]
        refine congrArg (fun x => x + b2 c) ?_
        refine Finset.sum_congr rfl fun j _ => ?_
        have h2 : ¬k0_cond2 i = 1#1 := fun h => by have := c2.mp h; omega
        have hj := j.isLt
        rw [hX.adjP t T r ⟨y.val - ((t.val / 8) * 4096 + (t.val % 4) * 1024), by omega⟩ j (by omega)
          (by show r.val = (t.val % 4) * 1024 + (y.val - ((t.val / 8) * 4096 + (t.val % 4) * 1024)); omega),
          step_gs_pass1 i (X t) s h2, hG T j c (by omega) (by omega)]
      · rw [rowsUpd_out _ _ _ y c hin]
        exact hH T r y c hy (by omega)
    · have hp : (t.val / 4) % 2 ≠ 1 := fun h => h3 (c3.mpr h)
      rw [step_hs_pass0 i (X t) s h3]
      exact hH T r y c hy (by omega)
  exact ⟨fun _ => hY', hG', hH'⟩

/-- The invariant holds after every number of points, from any initial contents. -/
theorem inv_run (X : Fin grid0.N → Blocks Ideal) (hX : Feeds feats adj W1 b1 W2 b2 X) (s0 : St Ideal) :
    ∀ n : ℕ, n ≤ 32 → Inv feats adj W1 b1 W2 b2 n (runSt X n s0)
  | 0, _ => ⟨fun h => absurd h (by omega), fun _ _ _ h => absurd h (by omega), fun _ _ _ _ _ h => absurd h (by omega)⟩
  | n + 1, hn => by
    have h : n < grid0.N := by rw [N_0]; omega
    have hs := inv_step X hX ⟨n, h⟩ (runSt X n s0) (inv_run X hX s0 n (by omega))
    rw [← runSt_succ X ⟨n, h⟩ s0] at hs
    exact hs

end Invariant

/-! ## After the last point -/

/-- A point's time slice is below 4, -/
theorem slice_lt (t : Fin grid0.N) : t.val / 8 < 4 := by
  have hn : t.val < 32 := lt_of_lt_of_eq t.isLt N_0
  omega
/-- and a row of its panel is a row of the array. -/
theorem row_lt (t : Fin grid0.N) (p : Fin 1024) : (t.val % 4) * 1024 + p.val < 4096 := by
  have hp := p.isLt
  omega
/-- Row `i` of time slice `t` is a row of the per-slice output array. -/
theorem hsrow_lt (t : Fin 4) (i : Fin 4096) : t.val * 4096 + i.val < 16384 := by
  have ht := t.isLt
  have hi := i.isLt
  omega

/-- After the 32 grid points, from any initial contents, row `4096 t + i` of the per-slice output array holds the
    specification's `H2` at time slice `t`, row `i`. -/
theorem final_hs (feats : Fin 4096 → Fin 4 → Fin 128 → EReal) (adj : Fin 4 → Fin 4096 → Fin 4096 → EReal)
    (W1 : Fin 128 → Fin 32 → EReal) (b1 : Fin 32 → EReal) (W2 : Fin 32 → Fin 16 → EReal) (b2 : Fin 16 → EReal)
    (X : Fin grid0.N → Blocks Ideal)
    (h0 : ∀ (t : Fin grid0.N) (p : Fin 1024) (j : Fin 4096),
      (X t).x0 (ix3 (0 : Fin 1) p j) = adj ⟨t.val / 8, slice_lt t⟩ ⟨(t.val % 4) * 1024 + p.val, row_lt t p⟩ j)
    (h1 : ∀ (t : Fin grid0.N) (i : Fin 4096) (d : Fin 128), (X t).x1 (ix2 i d) = feats i 3 d)
    (h2 : ∀ (t : Fin grid0.N) (d : Fin 128) (k : Fin 32), (X t).x2 (ix2 d k) = W1 d k)
    (h3 : ∀ (t : Fin grid0.N) (k : Fin 32), (X t).x3 (ix2 (0 : Fin 1) k) = b1 k)
    (h4 : ∀ (t : Fin grid0.N) (k : Fin 32) (c : Fin 16), (X t).x4 (ix2 k c) = W2 k c)
    (h5 : ∀ (t : Fin grid0.N) (c : Fin 16), (X t).x5 (ix2 (0 : Fin 1) c) = b2 c)
    (s0 : St Ideal) (t : Fin 4) (i : Fin 4096) (c : Fin 16) :
    (runSt X 32 s0).hs (ix2 (⟨t.val * 4096 + i.val, hsrow_lt t i⟩ : Fin 16384) c) = SpecGcn.H2 feats adj W1 b1 W2 b2 t i c := by
  have hX : Feeds feats adj W1 b1 W2 b2 X :=
    ⟨fun u T r p j hT hr => by
      have eT : T = ⟨u.val / 8, slice_lt u⟩ := Fin.ext hT
      have er : r = ⟨(u.val % 4) * 1024 + p.val, row_lt u p⟩ := Fin.ext hr
      rw [eT, er]
      exact h0 u p j, h1, h2, h3, h4, h5⟩
  have ht := t.isLt
  have hi := i.isLt
  exact (inv_run X hX s0 32 (Nat.le_refl 32)).2.2 t i ⟨t.val * 4096 + i.val, hsrow_lt t i⟩ c rfl (by omega)

end Cert.CarriedGcn
-- ==== Proof.Bridge.lean ====
/-
  The kernel's result is the reference's result, entry by entry, over the extended reals.

  The last grid point stores the recurrent stage (four LSTM steps and a row softmax) of the four time slices of the
  per-slice output array, the two recurrent weights and the bias row; the reference applies the same stage to the
  stacked graph-convolution outputs. Both are the specification `SpecLstm.out` of their inputs, so it is enough
  that the inputs agree entry by entry: time slice `s` of the per-slice output array after the 32 grid points
  holds the graph-convolution specification `SpecGcn.H2` of the argument arrays at slice `s` — whatever the
  scratch arrays held at the start — and so does slice `s` of the reference's stacked tensor; the weights and the
  bias row are the argument arrays themselves, read through their windows.
-/
import proofs.«148102_g22909355557047_cont_8to1_1754_2_alg».proof.Proof.FrameKI
import proofs.«148102_g22909355557047_cont_8to1_1754_2_alg».proof.Proof.SlabsKI
import proofs.«148102_g22909355557047_cont_8to1_1754_2_alg».proof.Proof.BlocksKI
import proofs.«148102_g22909355557047_cont_8to1_1754_2_alg».proof.Proof.KernelLstm
import proofs.«148102_g22909355557047_cont_8to1_1754_2_alg».proof.Proof.RefLstm
import proofs.«148102_g22909355557047_cont_8to1_1754_2_alg».proof.Proof.RefGcn
import proofs.«148102_g22909355557047_cont_8to1_1754_2_alg».proof.Proof.CarriedGcn

noncomputable section

namespace Cert.Bridge

open Idealize.ShloMosaic Idealize.ShloMosaic.TcCoe Idealize.SL.Sem Idealize.ShloMosaic.ValueIdx

/-- After the 32 grid points, row `4096 s + i` of the per-slice output array is entry `(i, s)` of the
    reference's stacked tensor: both are `SpecGcn.H2` of the argument arrays. -/
theorem hs_eq_stacked (m : (ℓ : Loc Cert.KernelIdeal.nD Cert.KernelIdeal.τ Cert.KernelIdeal.sig) → Buf (Elt Ideal) ℓ)
    (c : Dev Cert.KernelIdeal.nD) (s0 : Cert.KernelIdeal.Body.St Ideal) (s : Fin 4) (i : Fin 4096) (k : Fin 16) :
    (Cert.KernelIdeal.Body.runSt (Cert.KernelIdeal.Body.blocksAt m c) 32 s0).hs
        (ix2 (⟨s.val * 4096 + i.val, Cert.CarriedGcn.hsrow_lt s i⟩ : Fin 16384) k)
      = Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix3 i s k) :=
  (Cert.CarriedGcn.final_hs
    (fun i s d => (m ((c.tc : Thread Cert.KernelIdeal.nD Cert.KernelIdeal.τ).loc Cert.KernelIdeal.main_arg0)) (ix3 i s d)) (fun t i j => (m ((c.tc : Thread Cert.KernelIdeal.nD Cert.KernelIdeal.τ).loc Cert.KernelIdeal.main_arg1)) (ix3 t i j)) (fun d k => (m ((c.tc : Thread Cert.KernelIdeal.nD Cert.KernelIdeal.τ).loc Cert.KernelIdeal.main_arg2)) (ix2 d k))
    (fun k => (m ((c.tc : Thread Cert.KernelIdeal.nD Cert.KernelIdeal.τ).loc Cert.KernelIdeal.main_arg3)) (ix1 k)) (fun k c' => (m ((c.tc : Thread Cert.KernelIdeal.nD Cert.KernelIdeal.τ).loc Cert.KernelIdeal.main_arg4)) (ix2 k c')) (fun c' => (m ((c.tc : Thread Cert.KernelIdeal.nD Cert.KernelIdeal.τ).loc Cert.KernelIdeal.main_arg5)) (ix1 c'))
    (Cert.KernelIdeal.Body.blocksAt m c)
    (fun t p j => Cert.KernelIdeal.Blocks.b0 m c t p j) (fun t i d => Cert.KernelIdeal.Blocks.b1 m c t i d)
    (fun t d k => Cert.KernelIdeal.Blocks.b2 m c t d k) (fun t k => Cert.KernelIdeal.Blocks.b3 m c t k)
    (fun t k c' => Cert.KernelIdeal.Blocks.b4 m c t k c') (fun t c' => Cert.KernelIdeal.Blocks.b5 m c t c') s0 s i k).trans
    (Cert.RefGcn.stacked_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i s k).symm

/-- The kernel's result at `(i, q)`, from any initial contents of its scratch arrays, is the reference's. -/
theorem out_eq_ref (m : (ℓ : Loc Cert.KernelIdeal.nD Cert.KernelIdeal.τ Cert.KernelIdeal.sig) → Buf (Elt Ideal) ℓ)
    (c : Dev Cert.KernelIdeal.nD) (s0 : Cert.KernelIdeal.Body.St Ideal) (i : Fin 4096) (q : Fin 16) :
    Cert.KernelIdeal.Body.outOf (F := Ideal) m c s0 (ix2 i q)
      = Cert.ReferenceIdeal.ReadP.val_main_v215 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (ix2 i q) := by
  unfold Cert.KernelIdeal.Body.outOf
  refine (Cert.KernelLstm.final_apply _ _ _ _ _ _ _ i q).trans ?_
  refine Eq.trans ?_ (Cert.RefLstm.ref_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i q).symm
  have eX : (fun (s : Fin 4) (i : Fin 4096) (k : Fin 16) =>
        (![Cert.KernelIdeal.Body.slab0 (Cert.KernelIdeal.Body.runSt (Cert.KernelIdeal.Body.blocksAt m c) 32 s0).hs,
           Cert.KernelIdeal.Body.slab1 (Cert.KernelIdeal.Body.runSt (Cert.KernelIdeal.Body.blocksAt m c) 32 s0).hs,
           Cert.KernelIdeal.Body.slab2 (Cert.KernelIdeal.Body.runSt (Cert.KernelIdeal.Body.blocksAt m c) 32 s0).hs,
           Cert.KernelIdeal.Body.slab3 (Cert.KernelIdeal.Body.runSt (Cert.KernelIdeal.Body.blocksAt m c) 32 s0).hs] s) (ix2 i k))
      = fun s i k => Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix3 i s k) := by
    funext s i k
    match s with
    | ⟨0, _⟩ =>
      exact (Cert.KernelIdeal.Body.slab0_apply _ i k ⟨(0 : Fin 4).val * 4096 + i.val, Cert.CarriedGcn.hsrow_lt 0 i⟩
        (by show 0 * 4096 + i.val = 0 + i.val; omega)).trans (hs_eq_stacked m c s0 0 i k)
    | ⟨1, _⟩ =>
      exact (Cert.KernelIdeal.Body.slab1_apply _ i k ⟨(1 : Fin 4).val * 4096 + i.val, Cert.CarriedGcn.hsrow_lt 1 i⟩
        (by show 1 * 4096 + i.val = 4096 + i.val; omega)).trans (hs_eq_stacked m c s0 1 i k)
    | ⟨2, _⟩ =>
      exact (Cert.KernelIdeal.Body.slab2_apply _ i k ⟨(2 : Fin 4).val * 4096 + i.val, Cert.CarriedGcn.hsrow_lt 2 i⟩
        (by show 2 * 4096 + i.val = 8192 + i.val; omega)).trans (hs_eq_stacked m c s0 2 i k)
    | ⟨3, _⟩ =>
      exact (Cert.KernelIdeal.Body.slab3_apply _ i k ⟨(3 : Fin 4).val * 4096 + i.val, Cert.CarriedGcn.hsrow_lt 3 i⟩
        (by show 3 * 4096 + i.val = 12288 + i.val; omega)).trans (hs_eq_stacked m c s0 3 i k)
  have eWi : (fun (d : Fin 16) (p : Fin 64) => Cert.KernelIdeal.Gen.iblk m c 6 ⟨31, by decide⟩ (ix2 d p))
      = fun d p => (m ((c.tc : Thread Cert.KernelIdeal.nD Cert.KernelIdeal.τ).loc Cert.KernelIdeal.main_arg6)) (ix2 d p) := by
    funext d p
    exact Cert.KernelIdeal.Blocks.b6 m c ⟨31, by decide⟩ d p
  have eWh : (fun (d : Fin 16) (p : Fin 64) => Cert.KernelIdeal.Gen.iblk m c 7 ⟨31, by decide⟩ (ix2 d p))
      = fun d p => (m ((c.tc : Thread Cert.KernelIdeal.nD Cert.KernelIdeal.τ).loc Cert.KernelIdeal.main_arg7)) (ix2 d p) := by
    funext d p
    exact Cert.KernelIdeal.Blocks.b7 m c ⟨31, by decide⟩ d p
  have eB : (fun (p : Fin 64) => Cert.KernelIdeal.Gen.iblk m c 8 ⟨31, by decide⟩ (ix2 (0 : Fin 1) p))
      = fun p => (m ((c.tc : Thread Cert.KernelIdeal.nD Cert.KernelIdeal.τ).loc Cert.KernelIdeal.main_arg8)) (ix1 p) := by
    funext p
    exact Cert.KernelIdeal.Blocks.b8 m c ⟨31, by decide⟩ p
  have h := congr (congr (congr (congrArg Cert.SpecLstm.out eX) eWi) eWh) eB
  exact congrFun (congrFun h i) q

end Cert.Bridge
-- ==== Proof.lean ====
/-
  A two-layer graph convolution over four dense adjacency slices, a four-step recurrent cell and a row softmax, as ONE
  kernel on a (4, 2, 4) grid — for each slice, a first pass over four row panels fills the second layer's input, a second
  pass fills that slice's rows of the per-slice outputs, and the last point runs the recurrence and the softmax out of
  scratch — against the same computation written with whole-array operations.
  Frames: the kernel's two (word level and idealized) are one proof, generic in the float instance, of the body at a generic
  grid point under an invariant that carries the three scratch arrays; the reference's is its run with the result dropped.
  Values, at the ideal instance: after the last point the per-slice outputs hold, row by row, the second layer's sums, whatever
  the scratch arrays held at entry; the recurrence and the softmax are the same operations on both sides (the logistic
  function is 1 / (1 + exp (-x)) on both); every matrix product is the same finite sum on both sides, so no algebraic law
  beyond unfolding is used and the precondition is never opened.
-/
import proofs.«148102_g22909355557047_cont_8to1_1754_2_alg».proof.Defs
import proofs.«148102_g22909355557047_cont_8to1_1754_2_alg».proof.Proof.Gen.Kernel
import proofs.«148102_g22909355557047_cont_8to1_1754_2_alg».proof.Proof.Gen.KernelIdeal
import proofs.«148102_g22909355557047_cont_8to1_1754_2_alg».proof.Proof.Gen.ReferenceIdeal
import proofs.«148102_g22909355557047_cont_8to1_1754_2_alg».proof.Proof.Gen.Pre_finite_inputs
import proofs.«148102_g22909355557047_cont_8to1_1754_2_alg».proof.Proof.FrameK
import proofs.«148102_g22909355557047_cont_8to1_1754_2_alg».proof.Proof.FrameKI
import proofs.«148102_g22909355557047_cont_8to1_1754_2_alg».proof.Proof.RefFrame
import proofs.«148102_g22909355557047_cont_8to1_1754_2_alg».proof.Proof.BlocksKI
import proofs.«148102_g22909355557047_cont_8to1_1754_2_alg».proof.Proof.Bridge
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Body.frame m ρ
/-- So does the idealized kernel: the same proof at the other instance. -/
theorem frame_ki : Cert.frame_KernelIdeal := fun m ρ _ => Cert.KernelIdeal.Body.frame m ρ
/-- The reference's frame is its run with the result dropped. -/
theorem frame_ri : Cert.frame_ReferenceIdeal := Cert.RefSide.frame_ri

/-- The ideal pass rewrote nothing: the idealization is the kernel's own text read at the ideal instance. -/
theorem preserves : Cert.preserves_Kernel_KernelIdeal := trivial

/-- At the ideal instance both programs end with the result array at the reference's last stage of the argument arrays:
    the reference by its run; the kernel because its one output block is what the last point stored, which is that stage
    index by index, whatever the scratch arrays held at entry. -/
theorem algebraic : Cert.algebraic_KernelIdeal_ReferenceIdeal := by
  intro m ρ m' ρ' _ hagree
  refine ⟨fun c => Cert.ReferenceIdeal.ReadP.val_main_v215 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, (h c).2⟩) (Cert.KernelIdeal.Body.run_value (F := Ideal) m ρ)
    obtain ⟨s0, hs0⟩ := (h c).1
    funext idx
    obtain ⟨a, b, rfl⟩ : ∃ (a : Fin 4096) (b : Fin 16), idx = ix2 a b := ⟨idx 0, idx 1, eq_ix2 idx⟩
    exact ((Cert.KernelIdeal.Blocks.out9 c Cert.KernelIdeal.Body.tLast _ a b).symm.trans (congrFun hs0 (ix2 a b))).trans
      (Cert.Bridge.out_eq_ref m c s0 a b)
  · refine (θ_run Cert.ReferenceIdeal.defs _ _).mono (fun r h c => ⟨(h c).1.trans ?_, (h c).2⟩) (Cert.RefSide.ref_result m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
